-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x16 .f32) (main_arg7 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x16 .f32 := Host.absf main_arg6
  let main_cst_10 : FVec F S_ .f32 := constant S_ .f32 0x7F800000#32
  let main_v30 : FVec F S128x16 .f32 := broadcastInDim S128x16 ![] bcast_S_S128x16 main_cst_10
  let main_v31 : IVec S128x16 1 := cmpf .olt main_v29 main_v30
  let main_c_11 : IVec S_ 1 := constantI S_ 1 1#1
  let main_v32 : IVec S_ 1 := (fun x v => Host.reduce IntOp.andi x v reducesTo_S128x16_S_d0_1 h_S_) main_v31 main_c_11
  let main_v33 : IVec S_ 1 := andi main_v28 main_v32
  fn_part2 (F := F) main_arg7 main_v33

def fn {F : FTy → Type} [FloatOps F] (main_arg0 : FVec F S10000x10000 .f32) (main_arg1 : FVec F S10000x128 .f32) (main_arg2 : FVec F S128x128 .f32) (main_arg3 : FVec F S128 .f32) (main_arg4 : FVec F S128x128 .f32) (main_arg5 : FVec F S128 .f32) (main_arg6 : FVec F S128x16 .f32) (main_arg7 : FVec F S16 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x128 : Shape := ⟨2, ![1, 128]⟩
abbrev S1x16 : Shape := ⟨2, ![1, 16]⟩
abbrev S10000x16 : Shape := ⟨2, ![10000, 16]⟩
abbrev S400x10000 : Shape := ⟨2, ![400, 10000]⟩
abbrev S400x128 : Shape := ⟨2, ![400, 128]⟩
abbrev S1000x10000 : Shape := ⟨2, ![1000, 10000]⟩
abbrev S1000x16 : Shape := ⟨2, ![1000, 16]⟩
abbrev S1000x5000 : Shape := ⟨2, ![1000, 5000]⟩
abbrev S5000x128 : Shape := ⟨2, ![5000, 128]⟩
abbrev S1000x128 : Shape := ⟨2, ![1000, 128]⟩
abbrev S1000 : Shape := ⟨1, ![1000]⟩
abbrev S1000x1 : Shape := ⟨2, ![1000, 1]⟩

abbrev nBuf : Space → Nat
  | .hbm => 15
  | .vmem => 19
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S1x128, .f32⟩
  | .hbm, ⟨9, _⟩ => ⟨S1x128, .f32⟩
  | .hbm, ⟨10, _⟩ => ⟨S1x16, .f32⟩
  | .hbm, ⟨11, _⟩ => ⟨S10000x128, .bf16⟩
  | .hbm, ⟨12, _⟩ => ⟨S10000x10000, .bf16⟩
  | .hbm, ⟨13, _⟩ => ⟨S10000x16, .bf16⟩
  | .hbm, ⟨14, _⟩ => ⟨S10000x16, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S400x128, .bf16⟩
  | .local _ .vmem, ⟨7, _⟩ => ⟨S400x128, .bf16⟩
  | .local _ .vmem, ⟨8, _⟩ => ⟨S400x10000, .bf16⟩
  | .local _ .vmem, ⟨9, _⟩ => ⟨S400x10000, .bf16⟩
  | .local _ .vmem, ⟨10, _⟩ => ⟨S1000x10000, .bf16⟩
  | .local _ .vmem, ⟨11, _⟩ => ⟨S1000x10000, .bf16⟩
  | .local _ .vmem, ⟨12, _⟩ => ⟨S10000x128, .bf16⟩
  | .local _ .vmem, ⟨13, _⟩ => ⟨S1x128, .f32⟩
  | .local _ .vmem, ⟨14, _⟩ => ⟨S128x16, .f32⟩
  | .local _ .vmem, ⟨15, _⟩ => ⟨S1x16, .f32⟩
  | .local _ .vmem, ⟨16, _⟩ => ⟨S10000x16, .bf16⟩
  | .local _ .vmem, ⟨17, _⟩ => ⟨S1000x16, .f32⟩
  | .local _ .vmem, ⟨18, _⟩ => ⟨S1000x16, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3_0 : Ref sig .tc := ⟨.hbm, 11, rfl⟩
abbrev main_call0_v3_1 : Ref sig .tc := ⟨.hbm, 12, rfl⟩
abbrev main_call0_v4_0 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x10000 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 10], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (i : grid1.Coords) : Fin 2 → Nat :=
  let arg1 : BitVec 32 := BitVec.ofNat 32 (i 1).val
  let c1000_i32 : BitVec 32 := 1000#32
  let v26 : BitVec 32 := Scalar.muli arg1 c1000_i32
  let v27 : Index := Scalar.indexCast v26
  let c0_13 : Index := 0#32
  ![v27.toNat, 0]
def k1_cond2 (i : grid1.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c9_i32 : BitVec 32 := 9#32
  let v1 : BitVec 32 := Scalar.subi c9_i32 v0
  let v2 : BitVec 32 := Scalar.muli arg0 v1
  let v3 : BitVec 32 := Scalar.addi arg1 v2
  let c0_i32 : BitVec 32 := 0#32
  let c0_i32_0 : BitVec 32 := 0#32
  ![v3.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c9_i32 : BitVec 32 := 9#32
  let v1 : BitVec 32 := Scalar.subi c9_i32 v0
  let v2 : BitVec 32 := Scalar.muli arg0 v1
  let v3 : BitVec 32 := Scalar.addi arg1 v2
  let c0_i32 : BitVec 32 := 0#32
  let c0_i32_0 : BitVec 32 := 0#32
  ![v3.toNat, c0_i32.toNat]

abbrev stage1_0 : Fin 2 → Memref sig .tc .vmem S1000x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S10000x16 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S128_S1x128 : S128.ShapeCasts S1x128
  shapeCasts_S16_S1x16 : S16.ShapeCasts S1x16
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  packedbf16_S400x10000_S400x10000_0_0 : (Rect.unit (s := S400x10000) ![0, 0] S400x10000.size inb_S400x10000_S400x10000_0_0).PackedRows (EltTy.packing .bf16)
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  slices_S1000x10000_o0_0_S1000x5000 : S1000x10000.Slices ![0, 0] S1000x5000
  inb_S10000x128_S5000x128_0_0 : ∀ a, (![0, 0] : Fin 2 → Nat) a + S5000x128.size a ≤ S10000x128.size a
  h_S5000x128 : 0 < S5000x128.numel
  shapeCasts_S5000x128_S5000x128 : S5000x128.ShapeCasts S5000x128
  slices_S1000x10000_o0_5000_S1000x5000 : S1000x10000.Slices ![0, 5000] S1000x5000
  inb_S10000x128_S5000x128_5000_0 : ∀ a, (![5000, 0] : Fin 2 → Nat) a + S5000x128.size a ≤ S10000x128.size a
  broadcasts_S1x128_S1000x128 : S1x128.Broadcasts S1000x128
  inb_S128x16_S128x16_0_0 : ∀ a, (![0, 0] : Fin 2 → Nat) a + S128x16.size a ≤ S128x16.size a
  h_S128x16 : 0 < S128x16.numel
  h_S1000x16 : 0 < S1000x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1000x16 : S1x16.Broadcasts S1000x16
  reduces_S1000x16_S1000 : S1000x16.Reduces [1] S1000
  shapeCasts_S1000_S1000x1 : S1000.ShapeCasts S1000x1
  broadcasts_S1000x1_S1000x16 : S1000x1.Broadcasts S1000x16
  inb_S1000x16_S1000x16_0_0 : ∀ a, (![0, 0] : Fin 2 → Nat) a + S1000x16.size a ≤ S1000x16.size a
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S1000x5000_S5000x128_S1000x128_1_0_0_1_n_n_wf : DotDims.WF S1000x5000 S5000x128 S1000x128 [1] [0] [0] [1] [] []
  dot_S1000x128_S128x16_S1000x16_1_0_0_1_n_n_wf : DotDims.WF S1000x128 S128x16 S1000x16 [1] [0] [0] [1] [] []
  dot_S1000x10000_S10000x16_S1000x16_1_0_0_1_n_n_wf : DotDims.WF S1000x10000 S10000x16 S1000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .bf16 = 32 ∨ (Rect.block (s := S10000x128) S400x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x10000.size a ≤ S10000x10000.size a
  hwx0_6 : ∀ i : grid0.Coords, EltTy.bits .bf16 = 32 ∨ (Rect.block (s := S10000x10000) S400x10000.size (cc0_transform_6 i) (hinb0_6 i)).WholeWords (EltTy.packing .bf16)
  hrank1 : 0 < grid1.rank
  k1_off1_inb : ∀ i : grid1.Coords, ∀ (k1_h1 : k1_cond1 i = 1#1), ∀ a, (k1_off1 i) a + S1000x16.size a ≤ S10000x16.size a
  k1_off1_packedbf16 : ∀ i : grid1.Coords, ∀ (k1_h1 : k1_cond1 i = 1#1), (Rect.unit (s := S10000x16) (k1_off1 i) S1000x16.size (k1_off1_inb i k1_h1)).PackedRows (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x10000.size a ≤ S10000x10000.size a
  hwx1_0 : ∀ i : grid1.Coords, EltTy.bits .bf16 = 32 ∨ (Rect.block (s := S10000x10000) S1000x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x16.size a ≤ S128x16.size a
  hwx1_3 : ∀ i : grid1.Coords, EltTy.bits .f32 = 32 ∨ (Rect.block (s := S128x16) S128x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S10000x16.size a ≤ S10000x16.size a
  hwx1_5 : ∀ i : grid1.Coords, EltTy.bits .bf16 = 32 ∨ (Rect.block (s := S10000x16) S10000x16.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x16.size a ≤ S10000x16.size a
  hwx1_6 : ∀ i : grid1.Coords, EltTy.bits .f32 = 32 ∨ (Rect.block (s := S10000x16) S1000x16.size (cc1_transform_6 i) (hinb1_6 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S1000x5000_S5000x128_S1000x128_1_0_0_1_n_n : DotDims S1000x5000 S5000x128 S1000x128 where
  lhsContracting := [1]
  rhsContracting := [0]
  lhsNonContracting := [0]
  rhsNonContracting := [1]
  lhsBatch := []
  rhsBatch := []
  wf := dot_S1000x5000_S5000x128_S1000x128_1_0_0_1_n_n_wf
def dot_S1000x128_S128x16_S1000x16_1_0_0_1_n_n : DotDims S1000x128 S128x16 S1000x16 where
  lhsContracting := [1]
  rhsContracting := [0]
  lhsNonContracting := [0]
  rhsNonContracting := [1]
  lhsBatch := []
  rhsBatch := []
  wf := dot_S1000x128_S128x16_S1000x16_1_0_0_1_n_n_wf
def dot_S1000x10000_S10000x16_S1000x16_1_0_0_1_n_n : DotDims S1000x10000 S10000x16 S1000x16 where
  lhsContracting := [1]
  rhsContracting := [0]
  lhsNonContracting := [0]
  rhsNonContracting := [1]
  lhsBatch := []
  rhsBatch := []
  wf := dot_S1000x10000_S10000x16_S1000x16_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3_0) S400x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3_1) S400x10000.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v3_1) S1000x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v3_0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v2) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v4_0) S10000x16.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v0) S1000x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond1 i == 1#1) | 6 => fun i => !(k1_cond2 i == 1#1) | ⟨_ + 7, h⟩ => absurd h (Nat.not_lt.2 (Nat.le_add_left _ _))

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x128 : Shape := ⟨2, ![1, 128]⟩
abbrev S_ : Shape := ⟨0, ![]⟩
abbrev S10000x16 : Shape := ⟨2, ![10000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 43
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x16, .f32⟩
  | .hbm, ⟨25, _⟩ => ⟨S10000x16, .f32⟩
  | .hbm, ⟨26, _⟩ => ⟨S1x16, .f32⟩
  | .hbm, ⟨27, _⟩ => ⟨S10000x16, .f32⟩
  | .hbm, ⟨28, _⟩ => ⟨S10000x16, .f32⟩
  | .hbm, ⟨29, _⟩ => ⟨S_, .f32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x16, .f32⟩
  | .hbm, ⟨36, _⟩ => ⟨S10000x16, .f32⟩
  | .hbm, ⟨37, _⟩ => ⟨S10000x16, .f32⟩
  | .hbm, ⟨38, _⟩ => ⟨S_, .f32⟩
  | .hbm, ⟨39, _⟩ => ⟨S10000, .f32⟩
  | .hbm, ⟨40, _⟩ => ⟨S10000x1, .f32⟩
  | .hbm, ⟨41, _⟩ => ⟨S10000x16, .f32⟩
  | .hbm, ⟨42, _⟩ => ⟨S10000x16, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.Layer1Bits.lean ====
/-
  The first pallas_call's body, at any float instance: one row block of the adjacency matrix (400 rows, all 10000
  columns) against the whole feature matrix and the two weight matrices.

  At a grid point the body holds, in its five input buffers, the 400 x 10000 adjacency block, the 10000 x 128 features,
  the 128 x 128 first weight, the 1 x 128 first bias and the 128 x 128 middle weight, whole. It writes two buffers whole:
  the block of  relu((A_blk X) W1 + b1) Wm  rounded to bf16 (output window 5), and the adjacency block itself rounded
  to bf16 (output window 6). Nothing is kept between points. `blockS2` and `blockAdj` name what the two stores leave,
  as the read-back of one whole-buffer store each; `layer1_triple` is the body's Hoare triple on whole buffers.
-/
import proofs.«162218_g11665131176122_week1_w4_1195_22_alg».proof.Proof.Gen.Kernel.Launch
import proofs.«162218_g11665131176122_week1_w4_1195_22_alg».proof.Proof.Gen.Kernel.Skeleton
import proofs.«162218_g11665131176122_week1_w4_1195_22_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The whole-buffer rectangles the body loads and stores through -/

abbrev rAdj : Rect S400x10000 := Rect.unit (s := S400x10000) ![0, 0] S400x10000.size inb_S400x10000_S400x10000_0_0
abbrev rFeat : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rS2 : Rect S400x128 := Rect.unit (s := S400x128) ![0, 0] S400x128.size inb_S400x128_S400x128_0_0

/-! ## What the two stores leave -/

/-- Output window 5's buffer after the body: the one whole-buffer store of the projected, biased, rectified and
    re-projected block, as a function of the five input buffers. -/
def blockS2 (x0 : Vec F S400x10000 .f32) (x1 : Vec F S10000x128 .f32) (x2 : Vec F S128x128 .f32) (x3 : Vec F S1x128 .f32)
    (x4 : Vec F S128x128 .f32) : Vec F S400x128 .bf16 :=
  View.canon [⟨rS2, k0_pay2 (View.ld x0 rAdj) (View.ld x1 rFeat) (View.ld x2 rW) (View.ld x3 rB) (View.ld x4 rW)⟩]

/-- Output window 6's buffer after the body: the adjacency block in the narrower format. -/
def blockAdj (x0 : Vec F S400x10000 .f32) : Vec F S400x10000 .bf16 :=
  View.canon [⟨rAdj, k0_pay1 (View.ld x0 rAdj)⟩]

/-- One store through the whole-buffer rectangle covers the buffer. -/
theorem coverS2 (p0 : Vec F S400x128 .bf16) (y : S400x128.Idx) :
    ∃ pc ∈ ([⟨rS2, p0⟩] : List (View.Piece (Elt F) S400x128 .bf16)), y ∈ pc.1.set :=
  View.cover_of_tiled [⟨rS2, p0⟩] S400x128.size (by rfl) y

theorem coverAdj (p0 : Vec F S400x10000 .bf16) (y : S400x10000.Idx) :
    ∃ pc ∈ ([⟨rAdj, p0⟩] : List (View.Piece (Elt F) S400x10000 .bf16)), y ∈ pc.1.set :=
  View.cover_of_tiled [⟨rAdj, p0⟩] S400x10000.size (by rfl) y

/-! ## The body's triple -/

set_option maxHeartbeats 1000000 in
/-- On whole buffers — the five inputs at read contents, the two outputs at anything — the body runs to the continuation
    holding the inputs as they were and the outputs at `blockS2` / `blockAdj` of the inputs. -/
theorem layer1_triple (c : Dev nD) (E : Set ℕ) (i : grid0.Coords)
    (arg1 : Memref sig .tc .vmem S400x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S400x128 .bf16) (harg6 : arg6.IsWhole)
    (arg7 : Memref sig .tc .vmem S400x10000 .bf16) (harg7 : arg7.IsWhole)
    (x0 : Vec F S400x10000 .f32) (x1 : Vec F S10000x128 .f32) (x2 : Vec F S128x128 .f32) (x3 : Vec F S1x128 .f32) (x4 : Vec F S128x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (blockS2 x0 x1 x2 x3 x4) ∗ owns (c : Thread nD τ) arg7 fullShare (blockAdj x0)) -∗ K ⟨⟩))
      ⊢ wp frame (wpE (defs₀ (F := F)) Variants.none c none) E
          (cc0__layer1_body i arg1 harg1 arg2 harg2 arg3 harg3 arg4 harg4 arg5 harg5 arg6 harg6 arg7 harg7) K := by
  simp only [cc0__layer1_body_eq_skeleton]; unfold cc0__layer1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverS2 _)
  iexists _; isplitr
  swap; · iexact H6
  ipureintro
  exact View.read_writes_eq_canon _ _ _ (coverAdj _)

end Cert.Kernel.Layer1

end
-- ==== Proof.Layer1DataBits.lean ====
/-
  The first pallas_call's proof data, at any float instance and at any contents `V` of the core's buffers when the
  region is entered: after the body at row block t the five input buffers hold their blocks (the 400 adjacency rows of
  block t; the features, the two weights and the bias whole) and the two output buffers hold `blockS2` / `blockAdj` of
  those blocks; the body's obligation at every point follows from the body's triple.
-/
import proofs.«162218_g11665131176122_week1_w4_1195_22_alg».proof.Proof.Layer1Bits

set_option maxRecDepth 16384

noncomputable section

namespace Cert.Kernel.Layer1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not, for any exact proof data whose
    array is `V`'s and whose body leaves the block in place. -/
theorem before0_of {c : Dev nD} (dat : Dat τ (Elt F) Unit ℕ (Pipeline.UD sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current buffer holds its block at every point, fetched there or not, for any exact proof data whose
    array is `V`'s and whose body leaves the block in place. -/
theorem before1_of {c : Dev nD} (dat : Dat τ (Elt F) Unit ℕ (Pipeline.UD sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current buffer holds its block at every point, fetched there or not, for any exact proof data whose
    array is `V`'s and whose body leaves the block in place. -/
theorem before2_of {c : Dev nD} (dat : Dat τ (Elt F) Unit ℕ (Pipeline.UD sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current buffer holds its block at every point, fetched there or not, for any exact proof data whose
    array is `V`'s and whose body leaves the block in place. -/
theorem before3_of {c : Dev nD} (dat : Dat τ (Elt F) Unit ℕ (Pipeline.UD sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's current buffer holds its block at every point, fetched there or not, for any exact proof data whose
    array is `V`'s and whose body leaves the block in place. -/
theorem before4_of {c : Dev nD} (dat : Dat τ (Elt F) Unit ℕ (Pipeline.UD sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The proof data of the first pallas_call on core `c`. -/
def dat (c : Dev nD) : Dat τ (Elt F) Unit ℕ (Pipeline.UD sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blockS2 (blk V c 0 t) (blk V c 1 t) (blk V c 2 t) (blk V c 3 t) (blk V c 4 t)
    | ⟨6, _⟩ => blockAdj (blk V c 0 t)
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = blk V c 3 t := by dsimp only [dat]
theorem after4 (c : Dev nD) (t : Fin cfg0.N) : (dat V c).after 4 t = blk V c 4 t := by dsimp only [dat]
theorem after5 (c : Dev nD) (t : Fin cfg0.N) :
    (dat V c).after 5 t = blockS2 (blk V c 0 t) (blk V c 1 t) (blk V c 2 t) (blk V c 3 t) (blk V c 4 t) := by dsimp only [dat]
theorem after6 (c : Dev nD) (t : Fin cfg0.N) : (dat V c).after 6 t = blockAdj (blk V c 0 t) := by dsimp only [dat]

theorem before0 (c : Dev nD) (t : Fin cfg0.N) (d) : (dat V c).before 0 t d = blk V c 0 t :=
  before0_of V (dat V c) (A_eq V c 0) (after0 V c) t d
theorem before1 (c : Dev nD) (t : Fin cfg0.N) (d) : (dat V c).before 1 t d = blk V c 1 t :=
  before1_of V (dat V c) (A_eq V c 1) (after1 V c) t d
theorem before2 (c : Dev nD) (t : Fin cfg0.N) (d) : (dat V c).before 2 t d = blk V c 2 t :=
  before2_of V (dat V c) (A_eq V c 2) (after2 V c) t d
theorem before3 (c : Dev nD) (t : Fin cfg0.N) (d) : (dat V c).before 3 t d = blk V c 3 t :=
  before3_of V (dat V c) (A_eq V c 3) (after3 V c) t d
theorem before4 (c : Dev nD) (t : Fin cfg0.N) (d) : (dat V c).before 4 t d = blk V c 4 t :=
  before4_of V (dat V c) (A_eq V c 4) (after4 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' buffers hold their blocks, so the triple applies; the invariant and the core's
    dues pass through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (layer1_triple c Set.univ (grid0.coords t) _ _ _ _ _ _ _ _ _ _ _ _ _ _
    (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Layer1

end
-- ==== Proof.Layer23Bits.lean ====
/-
  The second pallas_call's body, at any float instance. Its grid is two phases of ten row blocks of 1000 rows.

  In phase 0 at row block i the body reads the 1000 x 10000 adjacency block, the whole 10000 x 128 support matrix (as
  its first and last 5000 rows), the bias and the 128 x 16 weight, and overwrites rows 1000 i .. 1000 i + 999 of the
  10000 x 16 buffer of output window 5 with the projected block; the rest of that buffer, and the buffer of output
  window 6, stay as found (`supportStep`). In phase 1 it reads the adjacency block, that whole 10000 x 16 buffer and the
  last bias, and writes the buffer of output window 6 whole with the block's row softmax (`softmaxBlock`); everything
  else stays as found. The two triples are the body's runs under the two phases' conditions.
-/
import proofs.«162218_g11665131176122_week1_w4_1195_22_alg».proof.Proof.Gen.Kernel.Launch
import proofs.«162218_g11665131176122_week1_w4_1195_22_alg».proof.Proof.Gen.Kernel.Skeleton
import proofs.«162218_g11665131176122_week1_w4_1195_22_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer23

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

/-! ## One store over read contents -/

/-- A buffer whose contents read `X`, after one store of `w` through the rectangle `r`, reads `X` with `w` laid over `r`. -/
theorem read_writes_single {sig' : RefSig} {κ : Kind} {sp : Space} {s : Shape} {e : EltTy} {Val : EltTy → Type}
    (v : View sig' κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', View.writes_nil, Rect.overlay_of_not_mem _ _ _ hy]

/-! ## The rectangles the body loads and stores through -/

abbrev rAdj : Rect S1000x10000 := Rect.unit (s := S1000x10000) ![0, 0] S1000x10000.size inb_S1000x10000_S1000x10000_0_0
abbrev rLo : Rect S10000x128 := Rect.unit (s := S10000x128) ![0, 0] S5000x128.size inb_S10000x128_S5000x128_0_0
abbrev rHi : Rect S10000x128 := Rect.unit (s := S10000x128) ![5000, 0] S5000x128.size inb_S10000x128_S5000x128_5000_0
abbrev rBm : Rect S1x128 := Rect.unit (s := S1x128) ![0, 0] S1x128.size inb_S1x128_S1x128_0_0
abbrev rW2 : Rect S128x16 := Rect.unit (s := S128x16) ![0, 0] S128x16.size inb_S128x16_S128x16_0_0
abbrev rB2 : Rect S1x16 := Rect.unit (s := S1x16) ![0, 0] S1x16.size inb_S1x16_S1x16_0_0
abbrev rS3 : Rect S10000x16 := Rect.unit (s := S10000x16) ![0, 0] S10000x16.size inb_S10000x16_S10000x16_0_0
abbrev rOut : Rect S1000x16 := Rect.unit (s := S1000x16) ![0, 0] S1000x16.size inb_S1000x16_S1000x16_0_0
/-- The 1000 rows of the 10000 x 16 buffer that phase 0 overwrites at the grid point `i`. -/
abbrev rRows (i : grid1.Coords) (h1 : k1_cond1 i = 1#1) : Rect S10000x16 :=
  Rect.unit (s := S10000x16) (k1_off1 i) S1000x16.size (k1_off1_inb i h1)

/-! ## What the stores leave -/

/-- Phase 0: the 10000 x 16 buffer read `y5`; afterwards it reads `y5` with the projected block laid over the point's rows. -/
def supportStep (i : grid1.Coords) (h1 : k1_cond1 i = 1#1) (x0 : Vec F S1000x10000 .bf16) (x1 : Vec F S10000x128 .bf16)
    (x2 : Vec F S1x128 .f32) (x3 : Vec F S128x16 .f32) (y5 : Vec F S10000x16 .bf16) : Vec F S10000x16 .bf16 :=
  (rRows i h1).overlay y5 (k1_pay1 (View.ld x0 rAdj) (View.ld x1 rLo) (View.ld x1 rHi) (View.ld x2 rBm) (View.ld x3 rW2))

/-- Phase 1: the 1000 x 16 buffer after its one whole store. -/
def softmaxBlock (x0 : Vec F S1000x10000 .bf16) (y5 : Vec F S10000x16 .bf16) (x4 : Vec F S1x16 .f32) : Vec F S1000x16 .f32 :=
  View.canon [⟨rOut, k1_pay2 (View.ld x0 rAdj) (View.ld y5 rS3) (View.ld x4 rB2)⟩]

theorem coverOut (p0 : Vec F S1000x16 .f32) (y : S1000x16.Idx) :
    ∃ pc ∈ ([⟨rOut, p0⟩] : List (View.Piece (Elt F) S1000x16 .f32)), y ∈ pc.1.set :=
  View.cover_of_tiled [⟨rOut, p0⟩] S1000x16.size (by rfl) y

/-! ## The body's triples -/

set_option maxHeartbeats 1000000 in
/-- Phase 0 (the first condition holds, the second fails): on whole buffers at read contents the body runs to the
    continuation holding every buffer as it was but output window 5's, which reads `supportStep` of what it read. -/
theorem phase0_triple (c : Dev nD) (E : Set ℕ) (i : grid1.Coords) (h1 : k1_cond1 i = 1#1) (h2 : ¬ k1_cond2 i = 1#1)
    (arg2 : Memref sig .tc .vmem S1000x10000 .bf16) (harg2 : arg2.IsWhole) (arg3 : Memref sig .tc .vmem S10000x128 .bf16) (harg3 : arg3.IsWhole)
    (arg4 : Memref sig .tc .vmem S1x128 .f32) (harg4 : arg4.IsWhole) (arg5 : Memref sig .tc .vmem S128x16 .f32) (harg5 : arg5.IsWhole)
    (arg6 : Memref sig .tc .vmem S1x16 .f32) (harg6 : arg6.IsWhole) (arg7 : Memref sig .tc .vmem S10000x16 .bf16) (harg7 : arg7.IsWhole)
    (arg8 : Memref sig .tc .vmem S1000x16 .f32) (harg8 : arg8.IsWhole)
    (x0 : Vec F S1000x10000 .bf16) (x1 : Vec F S10000x128 .bf16) (x2 : Vec F S1x128 .f32) (x3 : Vec F S128x16 .f32) (x4 : Vec F S1x16 .f32)
    (y5 : Vec F S10000x16 .bf16) (y6 : Vec F S1000x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare y5 ∗ owns (c : Thread nD τ) arg8 fullShare y6
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (supportStep i h1 x0 x1 x2 x3 y5) ∗ owns (c : Thread nD τ) arg8 fullShare y6) -∗ K ⟨⟩))
      ⊢ wp frame (wpE (defs₀ (F := F)) Variants.none c none) E
          (cc1__layer23_body i arg2 harg2 arg3 harg3 arg4 harg4 arg5 harg5 arg6 harg6 arg7 harg7 arg8 harg8) K := by
  simp only [cc1__layer23_body_eq_skeleton]; unfold cc1__layer23_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0 hf1 hf2 hf3 hf4 hf5 hf6
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    unfold supportStep
    exact read_writes_single _ _ _ _
  iexists f6; isplitr; · ipureintro; rfl
  iexact H6

set_option maxHeartbeats 1000000 in
/-- Phase 1 (the first condition fails, the second holds): every buffer as it was but output window 6's, which reads
    `softmaxBlock` of the adjacency block, the 10000 x 16 buffer and the bias. -/
theorem phase1_triple (c : Dev nD) (E : Set ℕ) (i : grid1.Coords) (h1 : ¬ k1_cond1 i = 1#1) (h2 : k1_cond2 i = 1#1)
    (arg2 : Memref sig .tc .vmem S1000x10000 .bf16) (harg2 : arg2.IsWhole) (arg3 : Memref sig .tc .vmem S10000x128 .bf16) (harg3 : arg3.IsWhole)
    (arg4 : Memref sig .tc .vmem S1x128 .f32) (harg4 : arg4.IsWhole) (arg5 : Memref sig .tc .vmem S128x16 .f32) (harg5 : arg5.IsWhole)
    (arg6 : Memref sig .tc .vmem S1x16 .f32) (harg6 : arg6.IsWhole) (arg7 : Memref sig .tc .vmem S10000x16 .bf16) (harg7 : arg7.IsWhole)
    (arg8 : Memref sig .tc .vmem S1000x16 .f32) (harg8 : arg8.IsWhole)
    (x0 : Vec F S1000x10000 .bf16) (x1 : Vec F S10000x128 .bf16) (x2 : Vec F S1x128 .f32) (x3 : Vec F S128x16 .f32) (x4 : Vec F S1x16 .f32)
    (y5 : Vec F S10000x16 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare y5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare y5 ∗ owns (c : Thread nD τ) arg8 fullShare (softmaxBlock x0 y5 x4)) -∗ K ⟨⟩))
      ⊢ wp frame (wpE (defs₀ (F := F)) Variants.none c none) E
          (cc1__layer23_body i arg2 harg2 arg3 harg3 arg4 harg4 arg5 harg5 arg6 harg6 arg7 harg7 arg8 harg8) K := by
  simp only [cc1__layer23_body_eq_skeleton]; unfold cc1__layer23_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverOut _)

end Cert.Kernel.Layer23

end
-- ==== Proof.Layer23DataBits.lean ====
/-
  The second pallas_call's proof data, at any float instance and at any contents `V` of the core's buffers when the
  region is entered, stated as relations between what the body is handed in a window's buffer and what it leaves.

  An input window's buffer is left as found, and is always found at the window's block. Output window 5's buffer (the
  whole 10000 x 16 support matrix, never fetched, written back once at the end) is left, at a phase-0 point, as found
  but for the point's 1000 rows, which take the projected block; at a phase-1 point as found. So after the ten
  phase-0 points it reads `support3All` — row r from the phase-0 point r / 1000 — whatever it held at first: the
  invariant `found5`. Output window 6's buffer is left as found in phase 0, and in phase 1 holds the row softmax of the
  point's adjacency block against `support3All`.
-/
import proofs.«162218_g11665131176122_week1_w4_1195_22_alg».proof.Proof.Layer23Bits
import Idealize.ShloMosaic.Lib.ValueIdx

set_option maxRecDepth 16384

noncomputable section

namespace Cert.Kernel.Layer23

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The schedule: the two phases, the rows a phase-0 point writes -/

theorem cond1_iff : ∀ t : Fin cfg1.N, k1_cond1 (cfg1.grid.coords t) = 1#1 ↔ t.val < 10 :=
  (by decide +kernel : ∀ t : Fin grid1.N, k1_cond1 (grid1.coords t) = 1#1 ↔ t.val < 10)
theorem cond2_iff : ∀ t : Fin cfg1.N, k1_cond2 (cfg1.grid.coords t) = 1#1 ↔ 10 ≤ t.val :=
  (by decide +kernel : ∀ t : Fin grid1.N, k1_cond2 (grid1.coords t) = 1#1 ↔ 10 ≤ t.val)
theorem off1_eq : ∀ t : Fin cfg1.N, t.val < 10 → k1_off1 (cfg1.grid.coords t) = ![1000 * t.val, 0] :=
  (by decide +kernel : ∀ t : Fin grid1.N, t.val < 10 → k1_off1 (grid1.coords t) = ![1000 * t.val, 0])
theorem fetch5 : ∀ t : Fin cfg1.N, (cfg1.win 5).fetch t = false :=
  (by decide +kernel : ∀ t : Fin grid1.N, win1_5.fetch t = false)

/-! ## The support matrix phase 0 leaves -/

/-- The phase-0 point whose 1000 rows hold row `r`. -/
def rowPoint (r : ℕ) (hr : r < 10000) : Fin cfg1.N := ⟨r / 1000, by show r / 1000 < grid1.N; rw [N_1]; omega⟩

/-- The projected block a phase-0 point stores: a function of the point's input blocks. -/
def pay0 (c : Dev nD) (t : Fin cfg1.N) : Vec F S1000x16 .bf16 :=
  k1_pay1 (View.ld (blk V c 0 t) rAdj) (View.ld (blk V c 1 t) rLo) (View.ld (blk V c 1 t) rHi) (View.ld (blk V c 2 t) rBm) (View.ld (blk V c 3 t) rW2)

/-- The 10000 x 16 support matrix as phase 0 leaves it: row r, column k from the projected block of the point r / 1000,
    at its row r mod 1000. -/
def support3All (c : Dev nD) : Vec F S10000x16 .bf16 := fun j =>
  pay0 V c (rowPoint (j 0).val (j 0).isLt)
    (ValueIdx.ix2 (⟨(j 0).val % 1000, Nat.mod_lt _ (by omega)⟩ : Fin 1000) (⟨(j 1).val, (j 1).isLt⟩ : Fin 16))

/-! ## The proof data -/

/-- The relational proof data of the second pallas_call on core `c`. -/
def rdat (c : Dev nD) : RDat τ (Elt F) Unit ℕ (Pipeline.UD sig nD τ) ℕ cfg1 c where
  A w := V c (Pipeline.arrRef spec1 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X =>
      if h : k1_cond1 (cfg1.grid.coords t) = 1#1 then
        X = supportStep (cfg1.grid.coords t) h (blk V c 0 t) (blk V c 1 t) (blk V c 2 t) (blk V c 3 t) Y
      else X = Y
    | ⟨6, _⟩ => fun Y X =>
      if k1_cond2 (cfg1.grid.coords t) = 1#1 then X = softmaxBlock (blk V c 0 t) (support3All V c) (blk V c 4 t) else X = Y
  Φ _ := Pipeline.ΦA spec1 c
  q _ := fullShare
  owed _ := 0

theorem A_eq (c : Dev nD) (w : Fin cfg1.W) : (rdat V c).A w = V c (Pipeline.arrRef spec1 w) := by
  dsimp only [rdat]

/-- Whatever the body is handed in input window 0's buffer is the window's block there. -/
theorem found0 (c : Dev nD) (t : Fin cfg1.N) (Y) (hY : (rdat V c).Finds 0 t Y) : Y = blk V c 0 t := by
  obtain ⟨d, hd⟩ := RDat.finds_in_eq_fetched (rdat V c) 0 rfl (fun _ _ _ => rfl) (fun _ _ _ h => h) t Y hY
  rw [hd]; unfold RDat.fetched RDat.blockOf blk; rfl

/-- Whatever the body is handed in input window 1's buffer is the window's block there. -/
theorem found1 (c : Dev nD) (t : Fin cfg1.N) (Y) (hY : (rdat V c).Finds 1 t Y) : Y = blk V c 1 t := by
  obtain ⟨d, hd⟩ := RDat.finds_in_eq_fetched (rdat V c) 1 rfl (fun _ _ _ => rfl) (fun _ _ _ h => h) t Y hY
  rw [hd]; unfold RDat.fetched RDat.blockOf blk; rfl

/-- Whatever the body is handed in input window 2's buffer is the window's block there. -/
theorem found2 (c : Dev nD) (t : Fin cfg1.N) (Y) (hY : (rdat V c).Finds 2 t Y) : Y = blk V c 2 t := by
  obtain ⟨d, hd⟩ := RDat.finds_in_eq_fetched (rdat V c) 2 rfl (fun _ _ _ => rfl) (fun _ _ _ h => h) t Y hY
  rw [hd]; unfold RDat.fetched RDat.blockOf blk; rfl

/-- Whatever the body is handed in input window 3's buffer is the window's block there. -/
theorem found3 (c : Dev nD) (t : Fin cfg1.N) (Y) (hY : (rdat V c).Finds 3 t Y) : Y = blk V c 3 t := by
  obtain ⟨d, hd⟩ := RDat.finds_in_eq_fetched (rdat V c) 3 rfl (fun _ _ _ => rfl) (fun _ _ _ h => h) t Y hY
  rw [hd]; unfold RDat.fetched RDat.blockOf blk; rfl

/-- Whatever the body is handed in input window 4's buffer is the window's block there. -/
theorem found4 (c : Dev nD) (t : Fin cfg1.N) (Y) (hY : (rdat V c).Finds 4 t Y) : Y = blk V c 4 t := by
  obtain ⟨d, hd⟩ := RDat.finds_in_eq_fetched (rdat V c) 4 rfl (fun _ _ _ => rfl) (fun _ _ _ h => h) t Y hY
  rw [hd]; unfold RDat.fetched RDat.blockOf blk; rfl

/-! ## Output window 5: the rows written so far -/

theorem supportStep_eq (c : Dev nD) (t : Fin cfg1.N) (h1 : k1_cond1 (cfg1.grid.coords t) = 1#1) (Y : Vec F S10000x16 .bf16) :
    supportStep (cfg1.grid.coords t) h1 (blk V c 0 t) (blk V c 1 t) (blk V c 2 t) (blk V c 3 t) Y
      = (rRows (cfg1.grid.coords t) h1).overlay Y (pay0 V c t) := rfl

/-- The rows a phase-0 point writes hold the support matrix's rows: entry y of the point's block is row 1000 t + y. -/
theorem support3All_rows (c : Dev nD) (t : Fin cfg1.N) (ht : t.val < 10) (h1 : k1_cond1 (cfg1.grid.coords t) = 1#1)
    (y : (rRows (cfg1.grid.coords t) h1).shape.Idx) :
    support3All V c ((rRows (cfg1.grid.coords t) h1).emb y) = pay0 V c t y := by
  have hoff := off1_eq t ht
  have hy0 : (y 0).val < 1000 := (y 0).isLt
  have e0 : ((rRows (cfg1.grid.coords t) h1).emb y 0).val = 1000 * t.val + (y 0).val := by
    rw [Rect.emb_apply]; show k1_off1 (cfg1.grid.coords t) 0 + 1 * (y 0).val = _; rw [hoff]; simp
  have e1 : ((rRows (cfg1.grid.coords t) h1).emb y 1).val = (y 1).val := by
    rw [Rect.emb_apply]; show k1_off1 (cfg1.grid.coords t) 1 + 1 * (y 1).val = _; rw [hoff]; simp
  unfold support3All
  have e : rowPoint ((rRows (cfg1.grid.coords t) h1).emb y 0).val ((rRows (cfg1.grid.coords t) h1).emb y 0).isLt = t :=
    Fin.ext (by show ((rRows (cfg1.grid.coords t) h1).emb y 0).val / 1000 = t.val; rw [e0]; omega)
  rw [e]
  refine congrArg (pay0 V c t) ?_
  funext a; apply Fin.ext
  match a with
  | ⟨0, _⟩ => show ((rRows (cfg1.grid.coords t) h1).emb y 0).val % 1000 = (y 0).val; rw [e0]; omega
  | ⟨1, _⟩ => exact e1

/-- Whatever the body is handed in output window 5's buffer at point t holds, on the rows below 1000 t, the support
    matrix: the points before t wrote them, and nothing since touched them. -/
theorem found5 (c : Dev nD) : ∀ (t : Fin cfg1.N) (Y), (rdat V c).Finds 5 t Y →
    ∀ j : S10000x16.Idx, (j 0).val < 1000 * t.val → Y j = support3All V c j := by
  intro t
  induction hn : t.val using Nat.strong_induction_on generalizing t with
  | _ n ih =>
    subst hn; intro Y hY j hj
    have hN : t.val < 20 := by have h := t.isLt; have e : cfg1.N = 20 := N_1; omega
    have hj0 : (j 0).val < 10000 := (j 0).isLt
    by_cases ht : t.val = 0
    · rw [ht] at hj; omega
    · rcases ((rdat V c).finds_of_pos (fetch5 t) ht Y).mp hY with hfl | ⟨Y', hY', hR⟩
      · have := (flush1_5 _).mp hfl; simp only at this; omega
      · have IH := ih (t.val - 1) (by omega) ⟨t.val - 1, Nat.lt_of_le_of_lt (Nat.sub_le _ _) t.isLt⟩ rfl Y' hY'
        dsimp only [rdat] at hR
        by_cases hp : t.val - 1 < 10
        · have h1 := (cond1_iff ⟨t.val - 1, Nat.lt_of_le_of_lt (Nat.sub_le _ _) t.isLt⟩).mpr hp
          rw [dif_pos h1] at hR
          subst hR
          rw [supportStep_eq]
          by_cases hmem : j ∈ (rRows (cfg1.grid.coords ⟨t.val - 1, Nat.lt_of_le_of_lt (Nat.sub_le _ _) t.isLt⟩) h1).set
          · obtain ⟨y, rfl⟩ := (rRows _ h1).exists_idx_of_mem hmem
            rw [show (rRows (cfg1.grid.coords ⟨t.val - 1, Nat.lt_of_le_of_lt (Nat.sub_le _ _) t.isLt⟩) h1).idx y
              = (rRows (cfg1.grid.coords ⟨t.val - 1, Nat.lt_of_le_of_lt (Nat.sub_le _ _) t.isLt⟩) h1).emb y from rfl, Rect.overlay_emb]
            exact (support3All_rows V c _ hp h1 y).symm
          · rw [Rect.overlay_of_not_mem _ _ _ hmem]
            refine IH j ?_
            show (j 0).val < 1000 * (t.val - 1)
            by_contra hge
            apply hmem
            rw [Rect.mem_set_unit, off1_eq _ hp]
            intro a
            match a with
            | ⟨0, _⟩ => exact ⟨by show 1000 * (t.val - 1) ≤ (j 0).val; omega, by show (j 0).val < 1000 * (t.val - 1) + 1000; omega⟩
            | ⟨1, _⟩ => exact ⟨Nat.zero_le _, by show (j 1).val < 0 + 16; have h16 : (j 1).val < 16 := (j 1).isLt; omega⟩
        · have h1 : ¬ k1_cond1 (cfg1.grid.coords ⟨t.val - 1, Nat.lt_of_le_of_lt (Nat.sub_le _ _) t.isLt⟩) = 1#1 :=
            fun h => hp ((cond1_iff _).mp h)
          rw [dif_neg h1] at hR; subst hR
          exact IH j (by show (j 0).val < 1000 * (t.val - 1); omega)

/-- From phase 1 on, output window 5's buffer reads the support matrix. -/
theorem found5_phase1 (c : Dev nD) (t : Fin cfg1.N) (ht : 10 ≤ t.val) (Y) (hY : (rdat V c).Finds 5 t Y) : Y = support3All V c :=
  funext fun j => found5 V c t Y hY j (by have : (j 0).val < 10000 := (j 0).isLt; omega)

end Cert.Kernel.Layer23

end
-- ==== Proof.Layer23ObligationBits.lean ====
/-
  The second pallas_call's body obligation over the relational proof data: at every grid point, handed buffers that hold
  anything the schedule allows, the body leaves each buffer in the stated relation to what it was handed. In phase 0 the
  inputs are at their blocks and the step is the phase-0 triple; in phase 1 the 10000 x 16 buffer moreover reads the
  support matrix (the ten phase-0 points have written all its rows), and the step is the phase-1 triple.
-/
import proofs.«162218_g11665131176122_week1_w4_1195_22_alg».proof.Proof.Layer23DataBits

set_option maxRecDepth 16384

noncomputable section

namespace Cert.Kernel.Layer23

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- What the body is called with at point `t`, the buffers at contents `Y`, -/
def bodyPre (c : Dev nD) (t : Fin cfg1.N) (Y : (w : Fin cfg1.W) → (cfg1.win w).block.Idx → Elt F (cfg1.win w).elt) : sProp 𝕄 :=
  iprop((rdat V c).Φ t.castSucc ∗ (rdat V c).owesAt () t.castSucc
    ∗ owns (c : Thread nD τ) (st1_0 t) fullShare (Y 0)
    ∗ owns (c : Thread nD τ) (st1_1 t) fullShare (Y 1)
    ∗ owns (c : Thread nD τ) (st1_2 t) fullShare (Y 2)
    ∗ owns (c : Thread nD τ) (st1_3 t) fullShare (Y 3)
    ∗ owns (c : Thread nD τ) (st1_4 t) fullShare (Y 4)
    ∗ owns (c : Thread nD τ) (st1_5 t) fullShare (Y 5)
    ∗ owns (c : Thread nD τ) (st1_6 t) fullShare (Y 6))

/-- and what it returns: each buffer at contents related to what it was handed. -/
def bodyPost (c : Dev nD) (t : Fin cfg1.N) (Y : (w : Fin cfg1.W) → (cfg1.win w).block.Idx → Elt F (cfg1.win w).elt) : sProp 𝕄 :=
  iprop((rdat V c).Φ t.succ ∗ (rdat V c).owesAt () t.succ
    ∗ (∃ X, ⌜(rdat V c).after 0 t (Y 0) X⌝ ∗ owns (c : Thread nD τ) (st1_0 t) fullShare X)
    ∗ (∃ X, ⌜(rdat V c).after 1 t (Y 1) X⌝ ∗ owns (c : Thread nD τ) (st1_1 t) fullShare X)
    ∗ (∃ X, ⌜(rdat V c).after 2 t (Y 2) X⌝ ∗ owns (c : Thread nD τ) (st1_2 t) fullShare X)
    ∗ (∃ X, ⌜(rdat V c).after 3 t (Y 3) X⌝ ∗ owns (c : Thread nD τ) (st1_3 t) fullShare X)
    ∗ (∃ X, ⌜(rdat V c).after 4 t (Y 4) X⌝ ∗ owns (c : Thread nD τ) (st1_4 t) fullShare X)
    ∗ (∃ X, ⌜(rdat V c).after 5 t (Y 5) X⌝ ∗ owns (c : Thread nD τ) (st1_5 t) fullShare X)
    ∗ (∃ X, ⌜(rdat V c).after 6 t (Y 6) X⌝ ∗ owns (c : Thread nD τ) (st1_6 t) fullShare X))

set_option maxHeartbeats 1000000 in
theorem sound_body (c : Dev nD) (t : Fin cfg1.N) (Y : (w : Fin cfg1.W) → (cfg1.win w).block.Idx → Elt F (cfg1.win w).elt)
    (hY : ∀ w, (rdat V c).Finds w t (Y w)) :
    bodyPre V c t Y ⊢ wp frame (wpE (defs₀ (F := F)) Variants.none c none) Set.univ (bodyAt1 t) (fun _ => bodyPost V c t Y) := by
  unfold bodyPre bodyPost bodyAt1
  have e0 := found0 V c t (Y 0) (hY 0)
  have e1 := found1 V c t (Y 1) (hY 1)
  have e2 := found2 V c t (Y 2) (hY 2)
  have e3 := found3 V c t (Y 3) (hY 3)
  have e4 := found4 V c t (Y 4) (hY 4)
  rw [show (rdat V c).Φ t.succ = (rdat V c).Φ t.castSucc from rfl,
    show (rdat V c).owesAt () t.succ = (rdat V c).owesAt () t.castSucc from rfl]
  by_cases hp : t.val < 10
  · have h1 := (cond1_iff t).mpr hp
    have h2 : ¬ k1_cond2 (cfg1.grid.coords t) = 1#1 := fun h => by have := (cond2_iff t).mp h; omega
    rw [e0, e1, e2, e3, e4]
    iintro ⟨HΦ, Ho, H0, H1, H2, H3, H4, H5, H6⟩
    iapply (phase0_triple c Set.univ (grid1.coords t) h1 h2 _ _ _ _ _ _ _ _ _ _ _ _ _ _
      (blk V c 0 t) (blk V c 1 t) (blk V c 2 t) (blk V c 3 t) (blk V c 4 t) (Y 5) (Y 6) _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]
    · iexists _; isplitr; · ipureintro; dsimp only [rdat]
      iexact H0
    isplitl [H1]
    · iexists _; isplitr; · ipureintro; dsimp only [rdat]
      iexact H1
    isplitl [H2]
    · iexists _; isplitr; · ipureintro; dsimp only [rdat]
      iexact H2
    isplitl [H3]
    · iexists _; isplitr; · ipureintro; dsimp only [rdat]
      iexact H3
    isplitl [H4]
    · iexists _; isplitr; · ipureintro; dsimp only [rdat]
      iexact H4
    isplitl [H5]
    · iexists _; isplitr; · ipureintro; dsimp only [rdat]; rw [dif_pos h1]
      iexact H5
    iexists _; isplitr; · ipureintro; dsimp only [rdat]; rw [if_neg h2]
    iexact H6
  · have hp' : 10 ≤ t.val := by omega
    have h1 : ¬ k1_cond1 (cfg1.grid.coords t) = 1#1 := fun h => hp ((cond1_iff t).mp h)
    have h2 := (cond2_iff t).mpr hp'
    have e5 := found5_phase1 V c t hp' (Y 5) (hY 5)
    rw [e0, e1, e2, e3, e4, e5]
    iintro ⟨HΦ, Ho, H0, H1, H2, H3, H4, H5, H6⟩
    iapply (phase1_triple c Set.univ (grid1.coords t) h1 h2 _ _ _ _ _ _ _ _ _ _ _ _ _ _
      (blk V c 0 t) (blk V c 1 t) (blk V c 2 t) (blk V c 3 t) (blk V c 4 t) (support3All V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, H6⟩
    isplitl [HΦ]; · iexact HΦ
    isplitl [Ho]; · iexact Ho
    isplitl [H0]
    · iexists _; isplitr; · ipureintro; dsimp only [rdat]
      iexact H0
    isplitl [H1]
    · iexists _; isplitr; · ipureintro; dsimp only [rdat]
      iexact H1
    isplitl [H2]
    · iexists _; isplitr; · ipureintro; dsimp only [rdat]
      iexact H2
    isplitl [H3]
    · iexists _; isplitr; · ipureintro; dsimp only [rdat]
      iexact H3
    isplitl [H4]
    · iexists _; isplitr; · ipureintro; dsimp only [rdat]
      iexact H4
    isplitl [H5]
    · iexists _; isplitr; · ipureintro; dsimp only [rdat]; rw [dif_neg h1]
      iexact H5
    iexists _; isplitr; · ipureintro; dsimp only [rdat]; rw [if_pos h2]
    iexact H6

/-- The relational body obligation, at every point. -/
theorem body_obligation (c : Dev nD) : (rdat (F := F) V c).BodyObligation (defs₀ (F := F)) Variants.none () Set.univ :=
  fun t Y hY => by
    rw [bigSep_W1, bigSep_W1]
    exact sound_body V c t Y hY

end Cert.Kernel.Layer23

end
-- ==== Proof.RunBits.lean ====
/-
  The whole program's run, at any float instance: the three host reshapes of the biases, the first pallas_call, the
  second pallas_call. Between two items a core holds every unscoped buffer at named contents: at launch `W0`; after the
  reshapes `W1`; after the first pallas_call `W2` — its two output arrays at what their 25 write-backs leave, the rest as
  before —; after the second pallas_call its arrays at SOME contents the write-backs allow (the relational reading:
  `RDat.ArrAt`) and the rest as before. Every weakly fair execution terminates without a fault; in the final memory the
  eight argument arrays are as launched and the result array is one the second pallas_call's write-backs allow.
-/
import proofs.«162218_g11665131176122_week1_w4_1195_22_alg».proof.Proof.Layer1DataBits
import proofs.«162218_g11665131176122_week1_w4_1195_22_alg».proof.Proof.Layer23ObligationBits
import proofs.«162218_g11665131176122_week1_w4_1195_22_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents between the items -/

/-- At launch. -/
abbrev W0 (c : Dev nD) : Valuation τ sig (Elt F) := fun b => m (c, b)
/-- After the three reshapes. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the first pallas_call: its arrays at what the write-backs leave, every other buffer as before. -/
def W2 (c : Dev nD) : Valuation τ sig (Elt F) :=
  Pipeline.withArrays spec0 c (W1 m c) fun w => (Layer1.dat (V1 m) c).arrAt w cfg0.N
theorem W2_arr (c : Dev nD) (w : Fin cfg0.W) :
    W2 m c (Proc.devRef .tc (Pipeline.arrRef spec0 w)) = (Layer1.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Layer1.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- A buffer the reshapes do not write holds its launch contents after them. -/
theorem W1_of (c : Dev nD) (r : Ref sig .tc) (h : r ∉ hostOps0_W) : W1 m c r = m ((c : Thread nD τ).loc r) :=
  Gen.V1_of m c r h

/-! ## The proof data of the two pallas_calls -/

abbrev adm : (p : Fin 2) → (pcfgs (F := F) p).Adm := fun p => (cfgs p).toPCfg_adm

/-- The first pallas_call's exact data read relationally; the second's relational data. -/
def rdats : (p : Fin 2) → (c : Dev nD) → RDat τ (Elt F) Unit ℕ (Pipeline.UD sig nD τ) ℕ (Pipeline.pin (pcfgs (F := F)) adm p) c
  | ⟨0, _⟩ => fun c => (Layer1.dat (V1 m) c).toR
  | ⟨1, _⟩ => fun c => Layer23.rdat (V2 m) c

/-- The same with exact data at the first pallas_call (the second's entry is not read): the form the library's lemma that
    reassembles the unscoped buffers from a region's arrays is stated for. -/
def datsE : (p : Fin 2) → (c : Dev nD) → Dat τ (Elt F) Unit ℕ (Pipeline.UD sig nD τ) ℕ (Pipeline.pin (pcfgs (F := F)) adm p) c
  | ⟨0, _⟩ => fun c => Layer1.dat (V1 m) c
  | ⟨1, _⟩ => fun c =>
    { A := fun w => V2 m c (Pipeline.arrRef spec1 w), after := fun w t => fun _ => Classical.arbitrary _, Φ := fun _ => Pipeline.ΦA spec1 c,
      q := fun _ => fullShare, owed := fun _ => 0 }

abbrev 𝒱₀ : Variants := Variants.none
abbrev L : GSem nD τ sig → Finset Unit := fun _ => ∅
abbrev lv : GSem nD τ sig → Unit → ℕ := fun _ _ => 0
/-- What rides beside the buffers: the generator register at some state, nothing owed. -/
abbrev R (c : Dev nD) : sProp 𝕄 := iprop((∃ r, prngReg c r) ∗ ∃ W, owes (c : Thread nD τ) (0 : CellTallies nD τ sig Unit) W)

/-- The reshapes as a segment. -/
abbrev hseg : Pipeline.HostSeg (Name := ℕ) (U := Pipeline.UD sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, without the dues: the second pallas_call's arrays at contents its write-backs allow, the other
    unscoped buffers as it found them, the generator register at some state. -/
abbrev Tₙ (c : Dev nD) : sProp 𝕄 :=
  iprop((rdats m 1 c).arraysAt cfg1.N ∗ Pipeline.unscopedRest (Ix := Unit) (Name := ℕ) (U := Pipeline.UD sig nD τ) (Lvl := ℕ) spec1 c (V2 m c) ∗ ∃ r, prngReg c r)

/-! ## The pallas_calls as segments -/

set_option backward.isDefEq.respectTransparency.types false in
/-- The first pallas_call: entered from every unscoped buffer at `W1`, left at `W2`. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (Layer1.body_obligation (V1 m) c).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (datsE m) ((datsE m 0 c).share_full fun _ => rfl)
      (V1 m c) (V2 m c) ((datsE m 0 c).arrAt · cfg0.N) (hF0 m c) (hrest0 m c)
    rw [Pipeline.unscopedBufs_held] at hjoin
    have hpost : ((rdats m 0 c).arraysAt (Pipeline.pin (pcfgs (F := F)) adm 0).N : sProp 𝕄) ⊢ (datsE m 0 c).arrays ((datsE m 0 c).arrAt · cfg0.N) :=
      (Layer1.dat (V1 m) c).toR_arraysAt_post cfg0.N
    iintro ⟨Ha, HO, HY, Hrest⟩
    ihave Ha' := hpost $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

set_option backward.isDefEq.respectTransparency.types false in
/-- The second pallas_call: entered from every unscoped buffer at `W2`, left at the last thread state. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := Layer23.body_obligation (V2 m) c
  hwaits := Pipeline.RDat.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V2 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    icases HO with ⟨%W, -, HO⟩; iexists W; iexact HO

/-! ## @main as segments, and the launch -/

abbrev segs : List (Pipeline.RDat.Seg (pcfgs (F := F)) adm (rdats m) () defs₀ 𝒱₀ L lv) :=
  [ .host (hseg m), .region (reg0 m), .region (reg1 m) ]

theorem main_run (c : Dev nD) : main (F := F) c = Pipeline.RDat.Seg.run (segs m) := (main_chain c).trans (by chain_rfl)

/-- An argument no item writes is, after the first pallas_call, as launched. -/
theorem V2_keep (c : Dev nD) (b : Ref sig .tc) (h0 : ∀ w, Pipeline.arrRef spec0 w ≠ b) (h1 : b ∉ hostOps0_W) :
    V2 m c b = m ((c : Thread nD τ).loc b) := (W2_of_ne m c b h0).trans (W1_of m c b h1)
/-- An input array of the first pallas_call that the reshapes do not write is, after it, as launched. -/
theorem V2_in (c : Dev nD) (w : Fin cfg0.W) (hin : (cfg0.win w).isOut = false) (h1 : Pipeline.arrRef spec0 w ∉ hostOps0_W) :
    V2 m c (Pipeline.arrRef spec0 w) = m ((c : Thread nD τ).loc (Pipeline.arrRef spec0 w)) :=
  (W2_arr m c w).trans ((((Layer1.dat (V1 m) c).arrAt_in w hin _).trans (Layer1.A_eq (V1 m) c w)).trans (W1_of m c _ h1))

set_option backward.isDefEq.respectTransparency.types false in
/-- THE RUN. From any memory with zero counters every weakly fair execution of @main terminates, nothing faulting; in the
    final memory the result array holds contents the second pallas_call's write-backs allow, and the eight argument
    arrays hold their launch contents. -/
theorem run : θ_run defs (onTc (τ := τ) (main (F := F))) ⟨m, fun _ => 0, ρ⟩ (fun r => ∀ c : Dev nD,
      (Layer23.rdat (V2 m) c).ArrAt 6 cfg1.N (r.2.mem ((c.tc : Thread nD τ).loc main_v0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.RDat.θ_run_regions_kit (pcfgs (F := F)) adm (rdats m) () cellOf_inj embL defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => (∀ w, (rdats m 1 c).ArrAt w cfg1.N (s.mem (((Pipeline.pin (pcfgs (F := F)) adm 1).spec w).arr.view.loc (c.tc : Thread nD τ))))
      ∧ ∀ b ∈ ((Finset.univ.filter fun b : Ref sig .tc => ¬ b.isScoped) \ Finset.univ.image (Pipeline.arrRef spec1)),
          s.mem ((c.tc : Thread nD τ).loc b) = V2 m c b)
    (hfin := fun c s' => by
      iintro ⟨⟨Ha, Hrest, -⟩, HSI⟩
      ihave H1 := (Pipeline.RDat.arrays_read (pcfgs (F := F)) adm (rdats m) (p := 1) launch1.arr_whole c cfg1.N s') $$ [Ha HSI]
      · isplitl [Ha] <;> iassumption
      icases H1 with ⟨%h1, HSI⟩
      unfold Pipeline.unscopedRest
      ihave H2 := (pointsTo_read_all _ (fun b : Ref sig .tc => (c.tc : Thread nD τ).loc b) (V2 m c) s') $$ [Hrest HSI]
      · isplitl [Hrest] <;> iassumption
      icases H2 with ⟨%h2, HSI⟩
      imodintro
      isplitr; · ipureintro; exact ⟨h1, h2⟩
      iexact HSI)
    (hQ := fun s h c => by
      obtain ⟨h1, h2⟩ := h c
      refine ⟨h1 6, ?_, ?_, ?_, ?_, ?_, ?_, ?_, ?_⟩
      · exact (h2 main_arg0 (by decide)).trans (V2_in m c 0 rfl (by decide))
      · exact (h2 main_arg1 (by decide)).trans (V2_in m c 1 rfl (by decide))
      · exact (h2 main_arg2 (by decide)).trans (V2_in m c 2 rfl (by decide))
      · exact (h2 main_arg3 (by decide)).trans (V2_keep m c main_arg3 (by decide) (by decide))
      · exact (h2 main_arg4 (by decide)).trans (V2_in m c 4 rfl (by decide))
      · exact (h2 main_arg5 (by decide)).trans (V2_keep m c main_arg5 (by decide) (by decide))
      · have h := h1 3
        rw [Pipeline.RDat.ArrAt_in (rdats m 1 c) 3 rfl] at h
        exact h.trans (V2_keep m c main_arg6 (by decide) (by decide))
      · exact (h2 main_arg7 (by decide)).trans (V2_keep m c main_arg7 (by decide) (by decide)))

end Cert.Kernel.Run

end
-- ==== Proof.Layer1Ideal.lean ====
/-
  The first pallas_call's body, at any float instance: one row block of the adjacency matrix (400 rows, all 10000
  columns) against the whole feature matrix and the two weight matrices.

  At a grid point the body holds, in its five input buffers, the 400 x 10000 adjacency block, the 10000 x 128 features,
  the 128 x 128 first weight, the 1 x 128 first bias and the 128 x 128 middle weight, whole. It writes two buffers whole:
  the block of  relu((A_blk X) W1 + b1) Wm  rounded to bf16 (output window 5), and the adjacency block itself rounded
  to bf16 (output window 6). Nothing is kept between points. `blockS2` and `blockAdj` name what the two stores leave,
  as the read-back of one whole-buffer store each; `layer1_triple` is the body's Hoare triple on whole buffers.
-/
import proofs.«162218_g11665131176122_week1_w4_1195_22_alg».proof.Proof.Gen.KernelIdeal.Launch
import proofs.«162218_g11665131176122_week1_w4_1195_22_alg».proof.Proof.Gen.KernelIdeal.Skeleton
import proofs.«162218_g11665131176122_week1_w4_1195_22_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The whole-buffer rectangles the body loads and stores through -/

abbrev rAdj : Rect S400x10000 := Rect.unit (s := S400x10000) ![0, 0] S400x10000.size inb_S400x10000_S400x10000_0_0
abbrev rFeat : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rS2 : Rect S400x128 := Rect.unit (s := S400x128) ![0, 0] S400x128.size inb_S400x128_S400x128_0_0

/-! ## What the two stores leave -/

/-- Output window 5's buffer after the body: the one whole-buffer store of the projected, biased, rectified and
    re-projected block, as a function of the five input buffers. -/
def blockS2 (x0 : Vec F S400x10000 .f32) (x1 : Vec F S10000x128 .f32) (x2 : Vec F S128x128 .f32) (x3 : Vec F S1x128 .f32)
    (x4 : Vec F S128x128 .f32) : Vec F S400x128 .bf16 :=
  View.canon [⟨rS2, k0_pay2 (View.ld x0 rAdj) (View.ld x1 rFeat) (View.ld x2 rW) (View.ld x3 rB) (View.ld x4 rW)⟩]

/-- Output window 6's buffer after the body: the adjacency block in the narrower format. -/
def blockAdj (x0 : Vec F S400x10000 .f32) : Vec F S400x10000 .bf16 :=
  View.canon [⟨rAdj, k0_pay1 (View.ld x0 rAdj)⟩]

/-- One store through the whole-buffer rectangle covers the buffer. -/
theorem coverS2 (p0 : Vec F S400x128 .bf16) (y : S400x128.Idx) :
    ∃ pc ∈ ([⟨rS2, p0⟩] : List (View.Piece (Elt F) S400x128 .bf16)), y ∈ pc.1.set :=
  View.cover_of_tiled [⟨rS2, p0⟩] S400x128.size (by rfl) y

theorem coverAdj (p0 : Vec F S400x10000 .bf16) (y : S400x10000.Idx) :
    ∃ pc ∈ ([⟨rAdj, p0⟩] : List (View.Piece (Elt F) S400x10000 .bf16)), y ∈ pc.1.set :=
  View.cover_of_tiled [⟨rAdj, p0⟩] S400x10000.size (by rfl) y

/-! ## The body's triple -/

set_option maxHeartbeats 1000000 in
/-- On whole buffers — the five inputs at read contents, the two outputs at anything — the body runs to the continuation
    holding the inputs as they were and the outputs at `blockS2` / `blockAdj` of the inputs. -/
theorem layer1_triple (c : Dev nD) (E : Set ℕ) (i : grid0.Coords)
    (arg1 : Memref sig .tc .vmem S400x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S400x128 .bf16) (harg6 : arg6.IsWhole)
    (arg7 : Memref sig .tc .vmem S400x10000 .bf16) (harg7 : arg7.IsWhole)
    (x0 : Vec F S400x10000 .f32) (x1 : Vec F S10000x128 .f32) (x2 : Vec F S128x128 .f32) (x3 : Vec F S1x128 .f32) (x4 : Vec F S128x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (blockS2 x0 x1 x2 x3 x4) ∗ owns (c : Thread nD τ) arg7 fullShare (blockAdj x0)) -∗ K ⟨⟩))
      ⊢ wp frame (wpE (defs₀ (F := F)) Variants.none c none) E
          (cc0__layer1_body i arg1 harg1 arg2 harg2 arg3 harg3 arg4 harg4 arg5 harg5 arg6 harg6 arg7 harg7) K := by
  simp only [cc0__layer1_body_eq_skeleton]; unfold cc0__layer1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverS2 _)
  iexists _; isplitr
  swap; · iexact H6
  ipureintro
  exact View.read_writes_eq_canon _ _ _ (coverAdj _)

end Cert.KernelIdeal.Layer1

end
-- ==== Proof.Layer1DataIdeal.lean ====
/-
  The first pallas_call's proof data, at any float instance and at any contents `V` of the core's buffers when the
  region is entered: after the body at row block t the five input buffers hold their blocks (the 400 adjacency rows of
  block t; the features, the two weights and the bias whole) and the two output buffers hold `blockS2` / `blockAdj` of
  those blocks; the body's obligation at every point follows from the body's triple.
-/
import proofs.«162218_g11665131176122_week1_w4_1195_22_alg».proof.Proof.Layer1Ideal

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not, for any exact proof data whose
    array is `V`'s and whose body leaves the block in place. -/
theorem before0_of {c : Dev nD} (dat : Dat τ (Elt F) Unit ℕ (Pipeline.UD sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current buffer holds its block at every point, fetched there or not, for any exact proof data whose
    array is `V`'s and whose body leaves the block in place. -/
theorem before1_of {c : Dev nD} (dat : Dat τ (Elt F) Unit ℕ (Pipeline.UD sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current buffer holds its block at every point, fetched there or not, for any exact proof data whose
    array is `V`'s and whose body leaves the block in place. -/
theorem before2_of {c : Dev nD} (dat : Dat τ (Elt F) Unit ℕ (Pipeline.UD sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current buffer holds its block at every point, fetched there or not, for any exact proof data whose
    array is `V`'s and whose body leaves the block in place. -/
theorem before3_of {c : Dev nD} (dat : Dat τ (Elt F) Unit ℕ (Pipeline.UD sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's current buffer holds its block at every point, fetched there or not, for any exact proof data whose
    array is `V`'s and whose body leaves the block in place. -/
theorem before4_of {c : Dev nD} (dat : Dat τ (Elt F) Unit ℕ (Pipeline.UD sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The proof data of the first pallas_call on core `c`. -/
def dat (c : Dev nD) : Dat τ (Elt F) Unit ℕ (Pipeline.UD sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blockS2 (blk V c 0 t) (blk V c 1 t) (blk V c 2 t) (blk V c 3 t) (blk V c 4 t)
    | ⟨6, _⟩ => blockAdj (blk V c 0 t)
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = blk V c 3 t := by dsimp only [dat]
theorem after4 (c : Dev nD) (t : Fin cfg0.N) : (dat V c).after 4 t = blk V c 4 t := by dsimp only [dat]
theorem after5 (c : Dev nD) (t : Fin cfg0.N) :
    (dat V c).after 5 t = blockS2 (blk V c 0 t) (blk V c 1 t) (blk V c 2 t) (blk V c 3 t) (blk V c 4 t) := by dsimp only [dat]
theorem after6 (c : Dev nD) (t : Fin cfg0.N) : (dat V c).after 6 t = blockAdj (blk V c 0 t) := by dsimp only [dat]

theorem before0 (c : Dev nD) (t : Fin cfg0.N) (d) : (dat V c).before 0 t d = blk V c 0 t :=
  before0_of V (dat V c) (A_eq V c 0) (after0 V c) t d
theorem before1 (c : Dev nD) (t : Fin cfg0.N) (d) : (dat V c).before 1 t d = blk V c 1 t :=
  before1_of V (dat V c) (A_eq V c 1) (after1 V c) t d
theorem before2 (c : Dev nD) (t : Fin cfg0.N) (d) : (dat V c).before 2 t d = blk V c 2 t :=
  before2_of V (dat V c) (A_eq V c 2) (after2 V c) t d
theorem before3 (c : Dev nD) (t : Fin cfg0.N) (d) : (dat V c).before 3 t d = blk V c 3 t :=
  before3_of V (dat V c) (A_eq V c 3) (after3 V c) t d
theorem before4 (c : Dev nD) (t : Fin cfg0.N) (d) : (dat V c).before 4 t d = blk V c 4 t :=
  before4_of V (dat V c) (A_eq V c 4) (after4 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' buffers hold their blocks, so the triple applies; the invariant and the core's
    dues pass through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (layer1_triple c Set.univ (grid0.coords t) _ _ _ _ _ _ _ _ _ _ _ _ _ _
    (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Layer1

end
-- ==== Proof.Layer23Ideal.lean ====
/-
  The second pallas_call's body, at any float instance. Its grid is two phases of ten row blocks of 1000 rows.

  In phase 0 at row block i the body reads the 1000 x 10000 adjacency block, the whole 10000 x 128 support matrix (as
  its first and last 5000 rows), the bias and the 128 x 16 weight, and overwrites rows 1000 i .. 1000 i + 999 of the
  10000 x 16 buffer of output window 5 with the projected block; the rest of that buffer, and the buffer of output
  window 6, stay as found (`supportStep`). In phase 1 it reads the adjacency block, that whole 10000 x 16 buffer and the
  last bias, and writes the buffer of output window 6 whole with the block's row softmax (`softmaxBlock`); everything
  else stays as found. The two triples are the body's runs under the two phases' conditions.
-/
import proofs.«162218_g11665131176122_week1_w4_1195_22_alg».proof.Proof.Gen.KernelIdeal.Launch
import proofs.«162218_g11665131176122_week1_w4_1195_22_alg».proof.Proof.Gen.KernelIdeal.Skeleton
import proofs.«162218_g11665131176122_week1_w4_1195_22_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer23

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

/-! ## One store over read contents -/

/-- A buffer whose contents read `X`, after one store of `w` through the rectangle `r`, reads `X` with `w` laid over `r`. -/
theorem read_writes_single {sig' : RefSig} {κ : Kind} {sp : Space} {s : Shape} {e : EltTy} {Val : EltTy → Type}
    (v : View sig' κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', View.writes_nil, Rect.overlay_of_not_mem _ _ _ hy]

/-! ## The rectangles the body loads and stores through -/

abbrev rAdj : Rect S1000x10000 := Rect.unit (s := S1000x10000) ![0, 0] S1000x10000.size inb_S1000x10000_S1000x10000_0_0
abbrev rLo : Rect S10000x128 := Rect.unit (s := S10000x128) ![0, 0] S5000x128.size inb_S10000x128_S5000x128_0_0
abbrev rHi : Rect S10000x128 := Rect.unit (s := S10000x128) ![5000, 0] S5000x128.size inb_S10000x128_S5000x128_5000_0
abbrev rBm : Rect S1x128 := Rect.unit (s := S1x128) ![0, 0] S1x128.size inb_S1x128_S1x128_0_0
abbrev rW2 : Rect S128x16 := Rect.unit (s := S128x16) ![0, 0] S128x16.size inb_S128x16_S128x16_0_0
abbrev rB2 : Rect S1x16 := Rect.unit (s := S1x16) ![0, 0] S1x16.size inb_S1x16_S1x16_0_0
abbrev rS3 : Rect S10000x16 := Rect.unit (s := S10000x16) ![0, 0] S10000x16.size inb_S10000x16_S10000x16_0_0
abbrev rOut : Rect S1000x16 := Rect.unit (s := S1000x16) ![0, 0] S1000x16.size inb_S1000x16_S1000x16_0_0
/-- The 1000 rows of the 10000 x 16 buffer that phase 0 overwrites at the grid point `i`. -/
abbrev rRows (i : grid1.Coords) (h1 : k1_cond1 i = 1#1) : Rect S10000x16 :=
  Rect.unit (s := S10000x16) (k1_off1 i) S1000x16.size (k1_off1_inb i h1)

/-! ## What the stores leave -/

/-- Phase 0: the 10000 x 16 buffer read `y5`; afterwards it reads `y5` with the projected block laid over the point's rows. -/
def supportStep (i : grid1.Coords) (h1 : k1_cond1 i = 1#1) (x0 : Vec F S1000x10000 .bf16) (x1 : Vec F S10000x128 .bf16)
    (x2 : Vec F S1x128 .f32) (x3 : Vec F S128x16 .f32) (y5 : Vec F S10000x16 .bf16) : Vec F S10000x16 .bf16 :=
  (rRows i h1).overlay y5 (k1_pay1 (View.ld x0 rAdj) (View.ld x1 rLo) (View.ld x1 rHi) (View.ld x2 rBm) (View.ld x3 rW2))

/-- Phase 1: the 1000 x 16 buffer after its one whole store. -/
def softmaxBlock (x0 : Vec F S1000x10000 .bf16) (y5 : Vec F S10000x16 .bf16) (x4 : Vec F S1x16 .f32) : Vec F S1000x16 .f32 :=
  View.canon [⟨rOut, k1_pay2 (View.ld x0 rAdj) (View.ld y5 rS3) (View.ld x4 rB2)⟩]

theorem coverOut (p0 : Vec F S1000x16 .f32) (y : S1000x16.Idx) :
    ∃ pc ∈ ([⟨rOut, p0⟩] : List (View.Piece (Elt F) S1000x16 .f32)), y ∈ pc.1.set :=
  View.cover_of_tiled [⟨rOut, p0⟩] S1000x16.size (by rfl) y

/-! ## The body's triples -/

set_option maxHeartbeats 1000000 in
/-- Phase 0 (the first condition holds, the second fails): on whole buffers at read contents the body runs to the
    continuation holding every buffer as it was but output window 5's, which reads `supportStep` of what it read. -/
theorem phase0_triple (c : Dev nD) (E : Set ℕ) (i : grid1.Coords) (h1 : k1_cond1 i = 1#1) (h2 : ¬ k1_cond2 i = 1#1)
    (arg2 : Memref sig .tc .vmem S1000x10000 .bf16) (harg2 : arg2.IsWhole) (arg3 : Memref sig .tc .vmem S10000x128 .bf16) (harg3 : arg3.IsWhole)
    (arg4 : Memref sig .tc .vmem S1x128 .f32) (harg4 : arg4.IsWhole) (arg5 : Memref sig .tc .vmem S128x16 .f32) (harg5 : arg5.IsWhole)
    (arg6 : Memref sig .tc .vmem S1x16 .f32) (harg6 : arg6.IsWhole) (arg7 : Memref sig .tc .vmem S10000x16 .bf16) (harg7 : arg7.IsWhole)
    (arg8 : Memref sig .tc .vmem S1000x16 .f32) (harg8 : arg8.IsWhole)
    (x0 : Vec F S1000x10000 .bf16) (x1 : Vec F S10000x128 .bf16) (x2 : Vec F S1x128 .f32) (x3 : Vec F S128x16 .f32) (x4 : Vec F S1x16 .f32)
    (y5 : Vec F S10000x16 .bf16) (y6 : Vec F S1000x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare y5 ∗ owns (c : Thread nD τ) arg8 fullShare y6
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (supportStep i h1 x0 x1 x2 x3 y5) ∗ owns (c : Thread nD τ) arg8 fullShare y6) -∗ K ⟨⟩))
      ⊢ wp frame (wpE (defs₀ (F := F)) Variants.none c none) E
          (cc1__layer23_body i arg2 harg2 arg3 harg3 arg4 harg4 arg5 harg5 arg6 harg6 arg7 harg7 arg8 harg8) K := by
  simp only [cc1__layer23_body_eq_skeleton]; unfold cc1__layer23_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0 hf1 hf2 hf3 hf4 hf5 hf6
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    unfold supportStep
    exact read_writes_single _ _ _ _
  iexists f6; isplitr; · ipureintro; rfl
  iexact H6

set_option maxHeartbeats 1000000 in
/-- Phase 1 (the first condition fails, the second holds): every buffer as it was but output window 6's, which reads
    `softmaxBlock` of the adjacency block, the 10000 x 16 buffer and the bias. -/
theorem phase1_triple (c : Dev nD) (E : Set ℕ) (i : grid1.Coords) (h1 : ¬ k1_cond1 i = 1#1) (h2 : k1_cond2 i = 1#1)
    (arg2 : Memref sig .tc .vmem S1000x10000 .bf16) (harg2 : arg2.IsWhole) (arg3 : Memref sig .tc .vmem S10000x128 .bf16) (harg3 : arg3.IsWhole)
    (arg4 : Memref sig .tc .vmem S1x128 .f32) (harg4 : arg4.IsWhole) (arg5 : Memref sig .tc .vmem S128x16 .f32) (harg5 : arg5.IsWhole)
    (arg6 : Memref sig .tc .vmem S1x16 .f32) (harg6 : arg6.IsWhole) (arg7 : Memref sig .tc .vmem S10000x16 .bf16) (harg7 : arg7.IsWhole)
    (arg8 : Memref sig .tc .vmem S1000x16 .f32) (harg8 : arg8.IsWhole)
    (x0 : Vec F S1000x10000 .bf16) (x1 : Vec F S10000x128 .bf16) (x2 : Vec F S1x128 .f32) (x3 : Vec F S128x16 .f32) (x4 : Vec F S1x16 .f32)
    (y5 : Vec F S10000x16 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare y5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare y5 ∗ owns (c : Thread nD τ) arg8 fullShare (softmaxBlock x0 y5 x4)) -∗ K ⟨⟩))
      ⊢ wp frame (wpE (defs₀ (F := F)) Variants.none c none) E
          (cc1__layer23_body i arg2 harg2 arg3 harg3 arg4 harg4 arg5 harg5 arg6 harg6 arg7 harg7 arg8 harg8) K := by
  simp only [cc1__layer23_body_eq_skeleton]; unfold cc1__layer23_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverOut _)

end Cert.KernelIdeal.Layer23

end
-- ==== Proof.Layer23DataIdeal.lean ====
/-
  The second pallas_call's proof data, at any float instance and at any contents `V` of the core's buffers when the
  region is entered, stated as relations between what the body is handed in a window's buffer and what it leaves.

  An input window's buffer is left as found, and is always found at the window's block. Output window 5's buffer (the
  whole 10000 x 16 support matrix, never fetched, written back once at the end) is left, at a phase-0 point, as found
  but for the point's 1000 rows, which take the projected block; at a phase-1 point as found. So after the ten
  phase-0 points it reads `support3All` — row r from the phase-0 point r / 1000 — whatever it held at first: the
  invariant `found5`. Output window 6's buffer is left as found in phase 0, and in phase 1 holds the row softmax of the
  point's adjacency block against `support3All`.
-/
import proofs.«162218_g11665131176122_week1_w4_1195_22_alg».proof.Proof.Layer23Ideal
import Idealize.ShloMosaic.Lib.ValueIdx

set_option maxRecDepth 16384

noncomputable section

namespace Cert.KernelIdeal.Layer23

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The schedule: the two phases, the rows a phase-0 point writes -/

theorem cond1_iff : ∀ t : Fin cfg1.N, k1_cond1 (cfg1.grid.coords t) = 1#1 ↔ t.val < 10 :=
  (by decide +kernel : ∀ t : Fin grid1.N, k1_cond1 (grid1.coords t) = 1#1 ↔ t.val < 10)
theorem cond2_iff : ∀ t : Fin cfg1.N, k1_cond2 (cfg1.grid.coords t) = 1#1 ↔ 10 ≤ t.val :=
  (by decide +kernel : ∀ t : Fin grid1.N, k1_cond2 (grid1.coords t) = 1#1 ↔ 10 ≤ t.val)
theorem off1_eq : ∀ t : Fin cfg1.N, t.val < 10 → k1_off1 (cfg1.grid.coords t) = ![1000 * t.val, 0] :=
  (by decide +kernel : ∀ t : Fin grid1.N, t.val < 10 → k1_off1 (grid1.coords t) = ![1000 * t.val, 0])
theorem fetch5 : ∀ t : Fin cfg1.N, (cfg1.win 5).fetch t = false :=
  (by decide +kernel : ∀ t : Fin grid1.N, win1_5.fetch t = false)

/-! ## The support matrix phase 0 leaves -/

/-- The phase-0 point whose 1000 rows hold row `r`. -/
def rowPoint (r : ℕ) (hr : r < 10000) : Fin cfg1.N := ⟨r / 1000, by show r / 1000 < grid1.N; rw [N_1]; omega⟩

/-- The projected block a phase-0 point stores: a function of the point's input blocks. -/
def pay0 (c : Dev nD) (t : Fin cfg1.N) : Vec F S1000x16 .bf16 :=
  k1_pay1 (View.ld (blk V c 0 t) rAdj) (View.ld (blk V c 1 t) rLo) (View.ld (blk V c 1 t) rHi) (View.ld (blk V c 2 t) rBm) (View.ld (blk V c 3 t) rW2)

/-- The 10000 x 16 support matrix as phase 0 leaves it: row r, column k from the projected block of the point r / 1000,
    at its row r mod 1000. -/
def support3All (c : Dev nD) : Vec F S10000x16 .bf16 := fun j =>
  pay0 V c (rowPoint (j 0).val (j 0).isLt)
    (ValueIdx.ix2 (⟨(j 0).val % 1000, Nat.mod_lt _ (by omega)⟩ : Fin 1000) (⟨(j 1).val, (j 1).isLt⟩ : Fin 16))

/-! ## The proof data -/

/-- The relational proof data of the second pallas_call on core `c`. -/
def rdat (c : Dev nD) : RDat τ (Elt F) Unit ℕ (Pipeline.UD sig nD τ) ℕ cfg1 c where
  A w := V c (Pipeline.arrRef spec1 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X =>
      if h : k1_cond1 (cfg1.grid.coords t) = 1#1 then
        X = supportStep (cfg1.grid.coords t) h (blk V c 0 t) (blk V c 1 t) (blk V c 2 t) (blk V c 3 t) Y
      else X = Y
    | ⟨6, _⟩ => fun Y X =>
      if k1_cond2 (cfg1.grid.coords t) = 1#1 then X = softmaxBlock (blk V c 0 t) (support3All V c) (blk V c 4 t) else X = Y
  Φ _ := Pipeline.ΦA spec1 c
  q _ := fullShare
  owed _ := 0

theorem A_eq (c : Dev nD) (w : Fin cfg1.W) : (rdat V c).A w = V c (Pipeline.arrRef spec1 w) := by
  dsimp only [rdat]

/-- Whatever the body is handed in input window 0's buffer is the window's block there. -/
theorem found0 (c : Dev nD) (t : Fin cfg1.N) (Y) (hY : (rdat V c).Finds 0 t Y) : Y = blk V c 0 t := by
  obtain ⟨d, hd⟩ := RDat.finds_in_eq_fetched (rdat V c) 0 rfl (fun _ _ _ => rfl) (fun _ _ _ h => h) t Y hY
  rw [hd]; unfold RDat.fetched RDat.blockOf blk; rfl

/-- Whatever the body is handed in input window 1's buffer is the window's block there. -/
theorem found1 (c : Dev nD) (t : Fin cfg1.N) (Y) (hY : (rdat V c).Finds 1 t Y) : Y = blk V c 1 t := by
  obtain ⟨d, hd⟩ := RDat.finds_in_eq_fetched (rdat V c) 1 rfl (fun _ _ _ => rfl) (fun _ _ _ h => h) t Y hY
  rw [hd]; unfold RDat.fetched RDat.blockOf blk; rfl

/-- Whatever the body is handed in input window 2's buffer is the window's block there. -/
theorem found2 (c : Dev nD) (t : Fin cfg1.N) (Y) (hY : (rdat V c).Finds 2 t Y) : Y = blk V c 2 t := by
  obtain ⟨d, hd⟩ := RDat.finds_in_eq_fetched (rdat V c) 2 rfl (fun _ _ _ => rfl) (fun _ _ _ h => h) t Y hY
  rw [hd]; unfold RDat.fetched RDat.blockOf blk; rfl

/-- Whatever the body is handed in input window 3's buffer is the window's block there. -/
theorem found3 (c : Dev nD) (t : Fin cfg1.N) (Y) (hY : (rdat V c).Finds 3 t Y) : Y = blk V c 3 t := by
  obtain ⟨d, hd⟩ := RDat.finds_in_eq_fetched (rdat V c) 3 rfl (fun _ _ _ => rfl) (fun _ _ _ h => h) t Y hY
  rw [hd]; unfold RDat.fetched RDat.blockOf blk; rfl

/-- Whatever the body is handed in input window 4's buffer is the window's block there. -/
theorem found4 (c : Dev nD) (t : Fin cfg1.N) (Y) (hY : (rdat V c).Finds 4 t Y) : Y = blk V c 4 t := by
  obtain ⟨d, hd⟩ := RDat.finds_in_eq_fetched (rdat V c) 4 rfl (fun _ _ _ => rfl) (fun _ _ _ h => h) t Y hY
  rw [hd]; unfold RDat.fetched RDat.blockOf blk; rfl

/-! ## Output window 5: the rows written so far -/

theorem supportStep_eq (c : Dev nD) (t : Fin cfg1.N) (h1 : k1_cond1 (cfg1.grid.coords t) = 1#1) (Y : Vec F S10000x16 .bf16) :
    supportStep (cfg1.grid.coords t) h1 (blk V c 0 t) (blk V c 1 t) (blk V c 2 t) (blk V c 3 t) Y
      = (rRows (cfg1.grid.coords t) h1).overlay Y (pay0 V c t) := rfl

/-- The rows a phase-0 point writes hold the support matrix's rows: entry y of the point's block is row 1000 t + y. -/
theorem support3All_rows (c : Dev nD) (t : Fin cfg1.N) (ht : t.val < 10) (h1 : k1_cond1 (cfg1.grid.coords t) = 1#1)
    (y : (rRows (cfg1.grid.coords t) h1).shape.Idx) :
    support3All V c ((rRows (cfg1.grid.coords t) h1).emb y) = pay0 V c t y := by
  have hoff := off1_eq t ht
  have hy0 : (y 0).val < 1000 := (y 0).isLt
  have e0 : ((rRows (cfg1.grid.coords t) h1).emb y 0).val = 1000 * t.val + (y 0).val := by
    rw [Rect.emb_apply]; show k1_off1 (cfg1.grid.coords t) 0 + 1 * (y 0).val = _; rw [hoff]; simp
  have e1 : ((rRows (cfg1.grid.coords t) h1).emb y 1).val = (y 1).val := by
    rw [Rect.emb_apply]; show k1_off1 (cfg1.grid.coords t) 1 + 1 * (y 1).val = _; rw [hoff]; simp
  unfold support3All
  have e : rowPoint ((rRows (cfg1.grid.coords t) h1).emb y 0).val ((rRows (cfg1.grid.coords t) h1).emb y 0).isLt = t :=
    Fin.ext (by show ((rRows (cfg1.grid.coords t) h1).emb y 0).val / 1000 = t.val; rw [e0]; omega)
  rw [e]
  refine congrArg (pay0 V c t) ?_
  funext a; apply Fin.ext
  match a with
  | ⟨0, _⟩ => show ((rRows (cfg1.grid.coords t) h1).emb y 0).val % 1000 = (y 0).val; rw [e0]; omega
  | ⟨1, _⟩ => exact e1

/-- Whatever the body is handed in output window 5's buffer at point t holds, on the rows below 1000 t, the support
    matrix: the points before t wrote them, and nothing since touched them. -/
theorem found5 (c : Dev nD) : ∀ (t : Fin cfg1.N) (Y), (rdat V c).Finds 5 t Y →
    ∀ j : S10000x16.Idx, (j 0).val < 1000 * t.val → Y j = support3All V c j := by
  intro t
  induction hn : t.val using Nat.strong_induction_on generalizing t with
  | _ n ih =>
    subst hn; intro Y hY j hj
    have hN : t.val < 20 := by have h := t.isLt; have e : cfg1.N = 20 := N_1; omega
    have hj0 : (j 0).val < 10000 := (j 0).isLt
    by_cases ht : t.val = 0
    · rw [ht] at hj; omega
    · rcases ((rdat V c).finds_of_pos (fetch5 t) ht Y).mp hY with hfl | ⟨Y', hY', hR⟩
      · have := (flush1_5 _).mp hfl; simp only at this; omega
      · have IH := ih (t.val - 1) (by omega) ⟨t.val - 1, Nat.lt_of_le_of_lt (Nat.sub_le _ _) t.isLt⟩ rfl Y' hY'
        dsimp only [rdat] at hR
        by_cases hp : t.val - 1 < 10
        · have h1 := (cond1_iff ⟨t.val - 1, Nat.lt_of_le_of_lt (Nat.sub_le _ _) t.isLt⟩).mpr hp
          rw [dif_pos h1] at hR
          subst hR
          rw [supportStep_eq]
          by_cases hmem : j ∈ (rRows (cfg1.grid.coords ⟨t.val - 1, Nat.lt_of_le_of_lt (Nat.sub_le _ _) t.isLt⟩) h1).set
          · obtain ⟨y, rfl⟩ := (rRows _ h1).exists_idx_of_mem hmem
            rw [show (rRows (cfg1.grid.coords ⟨t.val - 1, Nat.lt_of_le_of_lt (Nat.sub_le _ _) t.isLt⟩) h1).idx y
              = (rRows (cfg1.grid.coords ⟨t.val - 1, Nat.lt_of_le_of_lt (Nat.sub_le _ _) t.isLt⟩) h1).emb y from rfl, Rect.overlay_emb]
            exact (support3All_rows V c _ hp h1 y).symm
          · rw [Rect.overlay_of_not_mem _ _ _ hmem]
            refine IH j ?_
            show (j 0).val < 1000 * (t.val - 1)
            by_contra hge
            apply hmem
            rw [Rect.mem_set_unit, off1_eq _ hp]
            intro a
            match a with
            | ⟨0, _⟩ => exact ⟨by show 1000 * (t.val - 1) ≤ (j 0).val; omega, by show (j 0).val < 1000 * (t.val - 1) + 1000; omega⟩
            | ⟨1, _⟩ => exact ⟨Nat.zero_le _, by show (j 1).val < 0 + 16; have h16 : (j 1).val < 16 := (j 1).isLt; omega⟩
        · have h1 : ¬ k1_cond1 (cfg1.grid.coords ⟨t.val - 1, Nat.lt_of_le_of_lt (Nat.sub_le _ _) t.isLt⟩) = 1#1 :=
            fun h => hp ((cond1_iff _).mp h)
          rw [dif_neg h1] at hR; subst hR
          exact IH j (by show (j 0).val < 1000 * (t.val - 1); omega)

/-- From phase 1 on, output window 5's buffer reads the support matrix. -/
theorem found5_phase1 (c : Dev nD) (t : Fin cfg1.N) (ht : 10 ≤ t.val) (Y) (hY : (rdat V c).Finds 5 t Y) : Y = support3All V c :=
  funext fun j => found5 V c t Y hY j (by have : (j 0).val < 10000 := (j 0).isLt; omega)

end Cert.KernelIdeal.Layer23

end
-- ==== Proof.Layer23ObligationIdeal.lean ====
/-
  The second pallas_call's body obligation over the relational proof data: at every grid point, handed buffers that hold
  anything the schedule allows, the body leaves each buffer in the stated relation to what it was handed. In phase 0 the
  inputs are at their blocks and the step is the phase-0 triple; in phase 1 the 10000 x 16 buffer moreover reads the
  support matrix (the ten phase-0 points have written all its rows), and the step is the phase-1 triple.
-/
import proofs.«162218_g11665131176122_week1_w4_1195_22_alg».proof.Proof.Layer23DataIdeal

set_option maxRecDepth 16384

noncomputable section

namespace Cert.KernelIdeal.Layer23

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- What the body is called with at point `t`, the buffers at contents `Y`, -/
def bodyPre (c : Dev nD) (t : Fin cfg1.N) (Y : (w : Fin cfg1.W) → (cfg1.win w).block.Idx → Elt F (cfg1.win w).elt) : sProp 𝕄 :=
  iprop((rdat V c).Φ t.castSucc ∗ (rdat V c).owesAt () t.castSucc
    ∗ owns (c : Thread nD τ) (st1_0 t) fullShare (Y 0)
    ∗ owns (c : Thread nD τ) (st1_1 t) fullShare (Y 1)
    ∗ owns (c : Thread nD τ) (st1_2 t) fullShare (Y 2)
    ∗ owns (c : Thread nD τ) (st1_3 t) fullShare (Y 3)
    ∗ owns (c : Thread nD τ) (st1_4 t) fullShare (Y 4)
    ∗ owns (c : Thread nD τ) (st1_5 t) fullShare (Y 5)
    ∗ owns (c : Thread nD τ) (st1_6 t) fullShare (Y 6))

/-- and what it returns: each buffer at contents related to what it was handed. -/
def bodyPost (c : Dev nD) (t : Fin cfg1.N) (Y : (w : Fin cfg1.W) → (cfg1.win w).block.Idx → Elt F (cfg1.win w).elt) : sProp 𝕄 :=
  iprop((rdat V c).Φ t.succ ∗ (rdat V c).owesAt () t.succ
    ∗ (∃ X, ⌜(rdat V c).after 0 t (Y 0) X⌝ ∗ owns (c : Thread nD τ) (st1_0 t) fullShare X)
    ∗ (∃ X, ⌜(rdat V c).after 1 t (Y 1) X⌝ ∗ owns (c : Thread nD τ) (st1_1 t) fullShare X)
    ∗ (∃ X, ⌜(rdat V c).after 2 t (Y 2) X⌝ ∗ owns (c : Thread nD τ) (st1_2 t) fullShare X)
    ∗ (∃ X, ⌜(rdat V c).after 3 t (Y 3) X⌝ ∗ owns (c : Thread nD τ) (st1_3 t) fullShare X)
    ∗ (∃ X, ⌜(rdat V c).after 4 t (Y 4) X⌝ ∗ owns (c : Thread nD τ) (st1_4 t) fullShare X)
    ∗ (∃ X, ⌜(rdat V c).after 5 t (Y 5) X⌝ ∗ owns (c : Thread nD τ) (st1_5 t) fullShare X)
    ∗ (∃ X, ⌜(rdat V c).after 6 t (Y 6) X⌝ ∗ owns (c : Thread nD τ) (st1_6 t) fullShare X))

set_option maxHeartbeats 1000000 in
theorem sound_body (c : Dev nD) (t : Fin cfg1.N) (Y : (w : Fin cfg1.W) → (cfg1.win w).block.Idx → Elt F (cfg1.win w).elt)
    (hY : ∀ w, (rdat V c).Finds w t (Y w)) :
    bodyPre V c t Y ⊢ wp frame (wpE (defs₀ (F := F)) Variants.none c none) Set.univ (bodyAt1 t) (fun _ => bodyPost V c t Y) := by
  unfold bodyPre bodyPost bodyAt1
  have e0 := found0 V c t (Y 0) (hY 0)
  have e1 := found1 V c t (Y 1) (hY 1)
  have e2 := found2 V c t (Y 2) (hY 2)
  have e3 := found3 V c t (Y 3) (hY 3)
  have e4 := found4 V c t (Y 4) (hY 4)
  rw [show (rdat V c).Φ t.succ = (rdat V c).Φ t.castSucc from rfl,
    show (rdat V c).owesAt () t.succ = (rdat V c).owesAt () t.castSucc from rfl]
  by_cases hp : t.val < 10
  · have h1 := (cond1_iff t).mpr hp
    have h2 : ¬ k1_cond2 (cfg1.grid.coords t) = 1#1 := fun h => by have := (cond2_iff t).mp h; omega
    rw [e0, e1, e2, e3, e4]
    iintro ⟨HΦ, Ho, H0, H1, H2, H3, H4, H5, H6⟩
    iapply (phase0_triple c Set.univ (grid1.coords t) h1 h2 _ _ _ _ _ _ _ _ _ _ _ _ _ _
      (blk V c 0 t) (blk V c 1 t) (blk V c 2 t) (blk V c 3 t) (blk V c 4 t) (Y 5) (Y 6) _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]
    · iexists _; isplitr; · ipureintro; dsimp only [rdat]
      iexact H0
    isplitl [H1]
    · iexists _; isplitr; · ipureintro; dsimp only [rdat]
      iexact H1
    isplitl [H2]
    · iexists _; isplitr; · ipureintro; dsimp only [rdat]
      iexact H2
    isplitl [H3]
    · iexists _; isplitr; · ipureintro; dsimp only [rdat]
      iexact H3
    isplitl [H4]
    · iexists _; isplitr; · ipureintro; dsimp only [rdat]
      iexact H4
    isplitl [H5]
    · iexists _; isplitr; · ipureintro; dsimp only [rdat]; rw [dif_pos h1]
      iexact H5
    iexists _; isplitr; · ipureintro; dsimp only [rdat]; rw [if_neg h2]
    iexact H6
  · have hp' : 10 ≤ t.val := by omega
    have h1 : ¬ k1_cond1 (cfg1.grid.coords t) = 1#1 := fun h => hp ((cond1_iff t).mp h)
    have h2 := (cond2_iff t).mpr hp'
    have e5 := found5_phase1 V c t hp' (Y 5) (hY 5)
    rw [e0, e1, e2, e3, e4, e5]
    iintro ⟨HΦ, Ho, H0, H1, H2, H3, H4, H5, H6⟩
    iapply (phase1_triple c Set.univ (grid1.coords t) h1 h2 _ _ _ _ _ _ _ _ _ _ _ _ _ _
      (blk V c 0 t) (blk V c 1 t) (blk V c 2 t) (blk V c 3 t) (blk V c 4 t) (support3All V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, H6⟩
    isplitl [HΦ]; · iexact HΦ
    isplitl [Ho]; · iexact Ho
    isplitl [H0]
    · iexists _; isplitr; · ipureintro; dsimp only [rdat]
      iexact H0
    isplitl [H1]
    · iexists _; isplitr; · ipureintro; dsimp only [rdat]
      iexact H1
    isplitl [H2]
    · iexists _; isplitr; · ipureintro; dsimp only [rdat]
      iexact H2
    isplitl [H3]
    · iexists _; isplitr; · ipureintro; dsimp only [rdat]
      iexact H3
    isplitl [H4]
    · iexists _; isplitr; · ipureintro; dsimp only [rdat]
      iexact H4
    isplitl [H5]
    · iexists _; isplitr; · ipureintro; dsimp only [rdat]; rw [dif_neg h1]
      iexact H5
    iexists _; isplitr; · ipureintro; dsimp only [rdat]; rw [if_pos h2]
    iexact H6

/-- The relational body obligation, at every point. -/
theorem body_obligation (c : Dev nD) : (rdat (F := F) V c).BodyObligation (defs₀ (F := F)) Variants.none () Set.univ :=
  fun t Y hY => by
    rw [bigSep_W1, bigSep_W1]
    exact sound_body V c t Y hY

end Cert.KernelIdeal.Layer23

end
-- ==== Proof.RunIdeal.lean ====
/-
  The whole program's run, at any float instance: the three host reshapes of the biases, the first pallas_call, the
  second pallas_call. Between two items a core holds every unscoped buffer at named contents: at launch `W0`; after the
  reshapes `W1`; after the first pallas_call `W2` — its two output arrays at what their 25 write-backs leave, the rest as
  before —; after the second pallas_call its arrays at SOME contents the write-backs allow (the relational reading:
  `RDat.ArrAt`) and the rest as before. Every weakly fair execution terminates without a fault; in the final memory the
  eight argument arrays are as launched and the result array is one the second pallas_call's write-backs allow.
-/
import proofs.«162218_g11665131176122_week1_w4_1195_22_alg».proof.Proof.Layer1DataIdeal
import proofs.«162218_g11665131176122_week1_w4_1195_22_alg».proof.Proof.Layer23ObligationIdeal
import proofs.«162218_g11665131176122_week1_w4_1195_22_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents between the items -/

/-- At launch. -/
abbrev W0 (c : Dev nD) : Valuation τ sig (Elt F) := fun b => m (c, b)
/-- After the three reshapes. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the first pallas_call: its arrays at what the write-backs leave, every other buffer as before. -/
def W2 (c : Dev nD) : Valuation τ sig (Elt F) :=
  Pipeline.withArrays spec0 c (W1 m c) fun w => (Layer1.dat (V1 m) c).arrAt w cfg0.N
theorem W2_arr (c : Dev nD) (w : Fin cfg0.W) :
    W2 m c (Proc.devRef .tc (Pipeline.arrRef spec0 w)) = (Layer1.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Layer1.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- A buffer the reshapes do not write holds its launch contents after them. -/
theorem W1_of (c : Dev nD) (r : Ref sig .tc) (h : r ∉ hostOps0_W) : W1 m c r = m ((c : Thread nD τ).loc r) :=
  Gen.V1_of m c r h

/-! ## The proof data of the two pallas_calls -/

abbrev adm : (p : Fin 2) → (pcfgs (F := F) p).Adm := fun p => (cfgs p).toPCfg_adm

/-- The first pallas_call's exact data read relationally; the second's relational data. -/
def rdats : (p : Fin 2) → (c : Dev nD) → RDat τ (Elt F) Unit ℕ (Pipeline.UD sig nD τ) ℕ (Pipeline.pin (pcfgs (F := F)) adm p) c
  | ⟨0, _⟩ => fun c => (Layer1.dat (V1 m) c).toR
  | ⟨1, _⟩ => fun c => Layer23.rdat (V2 m) c

/-- The same with exact data at the first pallas_call (the second's entry is not read): the form the library's lemma that
    reassembles the unscoped buffers from a region's arrays is stated for. -/
def datsE : (p : Fin 2) → (c : Dev nD) → Dat τ (Elt F) Unit ℕ (Pipeline.UD sig nD τ) ℕ (Pipeline.pin (pcfgs (F := F)) adm p) c
  | ⟨0, _⟩ => fun c => Layer1.dat (V1 m) c
  | ⟨1, _⟩ => fun c =>
    { A := fun w => V2 m c (Pipeline.arrRef spec1 w), after := fun w t => fun _ => Classical.arbitrary _, Φ := fun _ => Pipeline.ΦA spec1 c,
      q := fun _ => fullShare, owed := fun _ => 0 }

abbrev 𝒱₀ : Variants := Variants.none
abbrev L : GSem nD τ sig → Finset Unit := fun _ => ∅
abbrev lv : GSem nD τ sig → Unit → ℕ := fun _ _ => 0
/-- What rides beside the buffers: the generator register at some state, nothing owed. -/
abbrev R (c : Dev nD) : sProp 𝕄 := iprop((∃ r, prngReg c r) ∗ ∃ W, owes (c : Thread nD τ) (0 : CellTallies nD τ sig Unit) W)

/-- The reshapes as a segment. -/
abbrev hseg : Pipeline.HostSeg (Name := ℕ) (U := Pipeline.UD sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, without the dues: the second pallas_call's arrays at contents its write-backs allow, the other
    unscoped buffers as it found them, the generator register at some state. -/
abbrev Tₙ (c : Dev nD) : sProp 𝕄 :=
  iprop((rdats m 1 c).arraysAt cfg1.N ∗ Pipeline.unscopedRest (Ix := Unit) (Name := ℕ) (U := Pipeline.UD sig nD τ) (Lvl := ℕ) spec1 c (V2 m c) ∗ ∃ r, prngReg c r)

/-! ## The pallas_calls as segments -/

set_option backward.isDefEq.respectTransparency.types false in
/-- The first pallas_call: entered from every unscoped buffer at `W1`, left at `W2`. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (Layer1.body_obligation (V1 m) c).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (datsE m) ((datsE m 0 c).share_full fun _ => rfl)
      (V1 m c) (V2 m c) ((datsE m 0 c).arrAt · cfg0.N) (hF0 m c) (hrest0 m c)
    rw [Pipeline.unscopedBufs_held] at hjoin
    have hpost : ((rdats m 0 c).arraysAt (Pipeline.pin (pcfgs (F := F)) adm 0).N : sProp 𝕄) ⊢ (datsE m 0 c).arrays ((datsE m 0 c).arrAt · cfg0.N) :=
      (Layer1.dat (V1 m) c).toR_arraysAt_post cfg0.N
    iintro ⟨Ha, HO, HY, Hrest⟩
    ihave Ha' := hpost $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

set_option backward.isDefEq.respectTransparency.types false in
/-- The second pallas_call: entered from every unscoped buffer at `W2`, left at the last thread state. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := Layer23.body_obligation (V2 m) c
  hwaits := Pipeline.RDat.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V2 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    icases HO with ⟨%W, -, HO⟩; iexists W; iexact HO

/-! ## @main as segments, and the launch -/

abbrev segs : List (Pipeline.RDat.Seg (pcfgs (F := F)) adm (rdats m) () defs₀ 𝒱₀ L lv) :=
  [ .host (hseg m), .region (reg0 m), .region (reg1 m) ]

theorem main_run (c : Dev nD) : main (F := F) c = Pipeline.RDat.Seg.run (segs m) := (main_chain c).trans (by chain_rfl)

/-- An argument no item writes is, after the first pallas_call, as launched. -/
theorem V2_keep (c : Dev nD) (b : Ref sig .tc) (h0 : ∀ w, Pipeline.arrRef spec0 w ≠ b) (h1 : b ∉ hostOps0_W) :
    V2 m c b = m ((c : Thread nD τ).loc b) := (W2_of_ne m c b h0).trans (W1_of m c b h1)
/-- An input array of the first pallas_call that the reshapes do not write is, after it, as launched. -/
theorem V2_in (c : Dev nD) (w : Fin cfg0.W) (hin : (cfg0.win w).isOut = false) (h1 : Pipeline.arrRef spec0 w ∉ hostOps0_W) :
    V2 m c (Pipeline.arrRef spec0 w) = m ((c : Thread nD τ).loc (Pipeline.arrRef spec0 w)) :=
  (W2_arr m c w).trans ((((Layer1.dat (V1 m) c).arrAt_in w hin _).trans (Layer1.A_eq (V1 m) c w)).trans (W1_of m c _ h1))

set_option backward.isDefEq.respectTransparency.types false in
/-- THE RUN. From any memory with zero counters every weakly fair execution of @main terminates, nothing faulting; in the
    final memory the result array holds contents the second pallas_call's write-backs allow, and the eight argument
    arrays hold their launch contents. -/
theorem run : θ_run defs (onTc (τ := τ) (main (F := F))) ⟨m, fun _ => 0, ρ⟩ (fun r => ∀ c : Dev nD,
      (Layer23.rdat (V2 m) c).ArrAt 6 cfg1.N (r.2.mem ((c.tc : Thread nD τ).loc main_v0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.RDat.θ_run_regions_kit (pcfgs (F := F)) adm (rdats m) () cellOf_inj embL defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => (∀ w, (rdats m 1 c).ArrAt w cfg1.N (s.mem (((Pipeline.pin (pcfgs (F := F)) adm 1).spec w).arr.view.loc (c.tc : Thread nD τ))))
      ∧ ∀ b ∈ ((Finset.univ.filter fun b : Ref sig .tc => ¬ b.isScoped) \ Finset.univ.image (Pipeline.arrRef spec1)),
          s.mem ((c.tc : Thread nD τ).loc b) = V2 m c b)
    (hfin := fun c s' => by
      iintro ⟨⟨Ha, Hrest, -⟩, HSI⟩
      ihave H1 := (Pipeline.RDat.arrays_read (pcfgs (F := F)) adm (rdats m) (p := 1) launch1.arr_whole c cfg1.N s') $$ [Ha HSI]
      · isplitl [Ha] <;> iassumption
      icases H1 with ⟨%h1, HSI⟩
      unfold Pipeline.unscopedRest
      ihave H2 := (pointsTo_read_all _ (fun b : Ref sig .tc => (c.tc : Thread nD τ).loc b) (V2 m c) s') $$ [Hrest HSI]
      · isplitl [Hrest] <;> iassumption
      icases H2 with ⟨%h2, HSI⟩
      imodintro
      isplitr; · ipureintro; exact ⟨h1, h2⟩
      iexact HSI)
    (hQ := fun s h c => by
      obtain ⟨h1, h2⟩ := h c
      refine ⟨h1 6, ?_, ?_, ?_, ?_, ?_, ?_, ?_, ?_⟩
      · exact (h2 main_arg0 (by decide)).trans (V2_in m c 0 rfl (by decide))
      · exact (h2 main_arg1 (by decide)).trans (V2_in m c 1 rfl (by decide))
      · exact (h2 main_arg2 (by decide)).trans (V2_in m c 2 rfl (by decide))
      · exact (h2 main_arg3 (by decide)).trans (V2_keep m c main_arg3 (by decide) (by decide))
      · exact (h2 main_arg4 (by decide)).trans (V2_in m c 4 rfl (by decide))
      · exact (h2 main_arg5 (by decide)).trans (V2_keep m c main_arg5 (by decide) (by decide))
      · have h := h1 3
        rw [Pipeline.RDat.ArrAt_in (rdats m 1 c) 3 rfl] at h
        exact h.trans (V2_keep m c main_arg6 (by decide) (by decide))
      · exact (h2 main_arg7 (by decide)).trans (V2_keep m c main_arg7 (by decide) (by decide)))

end Cert.KernelIdeal.Run

end
-- ==== Proof.Spec.lean ====
/-
  The three graph-convolution layers and the row softmax as plain functions of matrices of extended reals, in the two
  arrangements the kernel and the reference compute them.

  With A the 10000 x 10000 adjacency matrix, X the 10000 x 128 features, W1, Wm (128 x 128) and W2 (128 x 16) the
  weights and b1, bm, b2 the biases:
    reference:  h = relu(A (X W1) + b1),  xt = relu(A (h Wm) + bm),  out = softmax_rows(A (xt W2) + b2);
    kernel:     S2 = relu((A X) W1 + b1) Wm,   S3 = relu(A S2 + bm) W2 with the contraction over the 10000 nodes taken
                as the first 5000 plus the last 5000,   out = softmax_rows(A S3 + b2).
  The softmax of a row z subtracts the row's maximum (folded from bottom), exponentiates and divides by the sum.
-/
import Idealize.ShloMosaic.PureOps.Ideal

noncomputable section

namespace Cert.Gcn

open Idealize.ShloMosaic
open scoped BigOperators

/-- An m x n matrix of extended reals. -/
abbrev Mat (m n : ℕ) : Type := Fin m → Fin n → EReal

/-- max(x, 0). -/
def relu (x : EReal) : EReal := max x 0

/-- The first and the second half of the 10000 node indices. -/
def lo (n : Fin 5000) : Fin 10000 := ⟨n.val, by omega⟩
def hi (n : Fin 5000) : Fin 10000 := ⟨5000 + n.val, by omega⟩

/-- A row's maximum, folded from bottom. -/
def rowMax {b : ℕ} (z : Fin b → EReal) : EReal := (Finset.univ : Finset (Fin b)).fold max ⊥ z

/-- The softmax of a row, at column j: exp(z j - max z) / ∑ t, exp(z t - max z). -/
def softmaxRow {b : ℕ} (z : Fin b → EReal) (j : Fin b) : EReal :=
  Ideal.div (Ideal.exp (z j - rowMax z)) (∑ t : Fin b, Ideal.exp (z t - rowMax z))

/-! ## The kernel's arrangement -/

/-- S2 = relu((A X) W1 + b1) Wm. -/
def support2 (A : Mat 10000 10000) (X : Mat 10000 128) (W1 : Mat 128 128) (b1 : Fin 128 → EReal) (Wm : Mat 128 128) : Mat 10000 128 :=
  fun i j => ∑ l : Fin 128, relu ((∑ k : Fin 128, (∑ n : Fin 10000, A i n * X n k) * W1 k l) + b1 l) * Wm l j

/-- S3 = relu(A S2 + bm) W2, the contraction over the nodes in two halves. -/
def support3 (A : Mat 10000 10000) (S2 : Mat 10000 128) (bm : Fin 128 → EReal) (W2 : Mat 128 16) : Mat 10000 16 :=
  fun i j => ∑ l : Fin 128, relu (((∑ n : Fin 5000, A i (lo n) * S2 (lo n) l) + (∑ n : Fin 5000, A i (hi n) * S2 (hi n) l)) + bm l) * W2 l j

/-- A S3 + b2. -/
def logits (A : Mat 10000 10000) (S3 : Mat 10000 16) (b2 : Fin 16 → EReal) : Mat 10000 16 :=
  fun i j => (∑ n : Fin 10000, A i n * S3 n j) + b2 j

/-- What the kernel computes. -/
def kernelOut (A : Mat 10000 10000) (X : Mat 10000 128) (W1 : Mat 128 128) (b1 : Fin 128 → EReal) (Wm : Mat 128 128)
    (bm : Fin 128 → EReal) (W2 : Mat 128 16) (b2 : Fin 16 → EReal) : Mat 10000 16 :=
  fun i j => softmaxRow (logits A (support3 A (support2 A X W1 b1 Wm) bm W2) b2 i) j

/-! ## The reference's arrangement -/

/-- One graph convolution: A (H W) + b. -/
def conv {p q : ℕ} (A : Mat 10000 10000) (H : Mat 10000 p) (W : Mat p q) (b : Fin q → EReal) : Mat 10000 q :=
  fun i l => (∑ n : Fin 10000, A i n * (∑ k : Fin p, H n k * W k l)) + b l

/-- What the reference computes. -/
def refOut (A : Mat 10000 10000) (X : Mat 10000 128) (W1 : Mat 128 128) (b1 : Fin 128 → EReal) (Wm : Mat 128 128)
    (bm : Fin 128 → EReal) (W2 : Mat 128 16) (b2 : Fin 16 → EReal) : Mat 10000 16 :=
  fun i j => softmaxRow (conv A (fun n k => relu (conv A (fun n k => relu (conv A X W1 b1 n k)) Wm bm n k)) W2 b2 i) j

end Cert.Gcn

end
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.LibMatmul2D.lean ====
/-
  A 2-D matrix product into the zero accumulator, read at an output entry on the extended reals, in the three ways a
  single axis of each operand can be contracted:
    * rows by columns   — [M, K] against [K, N], left axis 1 with right axis 0:   ∑ k, lhs (m, k) * rhs (k, n);
    * columns by columns — [K, M] against [K, N], left axis 0 with right axis 0:  ∑ k, lhs (k, m) * rhs (k, n);
    * columns by rows    — [K, M] against [N, K], left axis 0 with right axis 1:  ∑ k, lhs (k, m) * rhs (n, k).
  In each the result is [M, N]: the left operand's free axis first, the right operand's free axis second. The
  dimension record is the one built from the literal axis lists; its well-formedness proof is a parameter, so the
  statements apply to any record with those lists whatever proves it well formed. Over any extents M, K, N.
-/
import Idealize.ShloMosaic.PureOps.Ideal.Laws
import Idealize.ShloMosaic.Lib.ValueIdx
import proofs.«162218_g11665131176122_week1_w4_1195_22_alg».proof.Proof.LibContractSum

namespace Cert.LibMatmul2D

open Idealize.ShloMosaic Idealize.ShloMosaic.ValueIdx

variable {M K N : ℕ} {φ₁ φ₂ : FTy}

/-- Rows by columns: entry (m, n) is the sum over k of lhs (m, k) * rhs (k, n). -/
theorem rows_cols
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision) (lhs : FVec Ideal (⟨2, ![M, K]⟩ : Shape) φ₁) (rhs : FVec Ideal (⟨2, ![K, N]⟩ : Shape) φ₂)
    (m : Fin M) (n : Fin N) :
    FloatOps.matmul (⟨[1], [0], [0], [1], [], [], wf⟩ : DotDims (⟨2, ![M, K]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 m k) * rhs (ix2 k n) := by
  refine Cert.LibContractSum.matmul_zero_sum _ prec K rfl rfl lhs rhs (ix2 m n) (fun k => ix2 m k) (fun k => ix2 k n)
    (fun k => ?_) (fun k => ?_)
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by columns: entry (m, n) is the sum over k of lhs (k, m) * rhs (k, n). -/
theorem cols_cols
    (wf : DotDims.WF (⟨2, ![K, M]⟩ : Shape) (⟨2, ![K, N]⟩ : Shape) (⟨2, ![M, N]⟩ : Shape)
      ([0] : List (Fin 2)) ([0] : List (Fin 2)) ([1] : List (Fin 2)) ([1] : List (Fin 2)) [] [])
    (prec : Option ContractPrecision) (lhs : FVec Ideal (⟨2, ![K, M]⟩ : Shape) φ₁) (rhs : FVec Ideal (⟨2, ![K, N]⟩ : Shape) φ₂)
    (m : Fin M) (n : Fin N) :
    FloatOps.matmul (⟨[0], [0], [1], [1], [], [], wf⟩ : DotDims (⟨2, ![K, M]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 k m) * rhs (ix2 k n) := by
  refine Cert.LibContractSum.matmul_zero_sum _ prec K rfl rfl lhs rhs (ix2 m n) (fun k => ix2 k m) (fun k => ix2 k n)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by rows: entry (m, n) is the sum over k of lhs (k, m) * rhs (n, k). -/
theorem cols_rows
    (wf : DotDims.WF (⟨2, ![K, M]⟩ : Shape) (⟨2, ![N, K]⟩ : Shape) (⟨2, ![M, N]⟩ : Shape)
      ([0] : List (Fin 2)) ([1] : List (Fin 2)) ([1] : List (Fin 2)) ([0] : List (Fin 2)) [] [])
    (prec : Option ContractPrecision) (lhs : FVec Ideal (⟨2, ![K, M]⟩ : Shape) φ₁) (rhs : FVec Ideal (⟨2, ![N, K]⟩ : Shape) φ₂)
    (m : Fin M) (n : Fin N) :
    FloatOps.matmul (⟨[0], [1], [1], [0], [], [], wf⟩ : DotDims (⟨2, ![K, M]⟩ : Shape) (⟨2, ![N, K]⟩ : Shape) (⟨2, ![M, N]⟩ : Shape))
        prec lhs rhs (constant (⟨2, ![M, N]⟩ : Shape) .f32 0x00000000#32) (ix2 m n)
      = ∑ k : Fin K, lhs (ix2 k m) * rhs (ix2 n k) := by
  refine Cert.LibContractSum.matmul_zero_sum _ prec K rfl rfl lhs rhs (ix2 m n) (fun k => ix2 k m) (fun k => ix2 n k)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ =>
      unfold DotDims.rhsIdx
      rw [dif_neg, dif_pos]
      case hc => exact List.mem_singleton.mpr (Fin.ext rfl)
      case hnc => exact List.not_mem_nil
      rfl
    | ⟨1, _⟩ => exact (DotDims.rhsIdx_val_of_single _ rfl _ _).trans (contrEquiv1_symm_val _ K rfl rfl k)

end Cert.LibMatmul2D
-- ==== Proof.LibKeepdims.lean ====
/-
  Row reductions that keep the reduced axis as a unit axis, read at an entry on the extended reals.

  A kernel that takes `sum(x, axis=-1, keepdims=True)` of an [a, b] block does three layout steps around the
  arithmetic: the lane sum into [a], a cast of [a] to the column shape [a, 1], and later a broadcast of an [a, 1]
  column back over the b lanes. Read at an entry written by its coordinates:
    * the cast [a] → [a, 1] at (i, u) is the vector at i;
    * the broadcast [a, 1] → [a, b] at (p, c) is the column at (p, 0);
    * the lane sum of an [a, b] array at i is the sum over k of the array at (i, k);
    * a [1, b] row cast to its own shape and broadcast over a rows reads, at (p, c), the row at (0, c).
  Over any extents a, b.
-/
import Idealize.ShloMosaic.PureOps.Ideal.Laws
import Idealize.ShloMosaic.Lib.ValueIdx
import Idealize.ShloMosaic.Lib.ValueLayout
import Idealize.ShloMosaic.Lib.Pipeline.Value

namespace Cert.LibKeepdims

open Idealize.ShloMosaic Idealize.ShloMosaic.ValueIdx

variable {α : Type} {a b : ℕ}

/-- An `[a]` vector cast to the column shape `[a, 1]` reads, at `(i, u)`, the vector at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast over `b` lanes reads, at `(p, c)`, the column at `(p, 0)`. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, at row `i`, is the sum over `k` of the array at `(i, k)`. -/
theorem laneSum_apply (src : FVec Ideal (⟨2, ![a, b]⟩ : Shape) .f32)
    (h : (⟨2, ![a, b]⟩ : Shape).Reduces [1] ⟨1, ![a]⟩) (hφ : FKind.Formats .f32)
    (hacc : (0x00000000#32 : BitVec (FTy.bits .f32)) = (0x00000000#32 : BitVec (FTy.bits .f32))) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax; apply Fin.ext
  match ax with
  | ⟨0, _⟩ => rfl
  | ⟨1, _⟩ => rfl

/-- The lane sum kept as a column: the `[a]` sums cast to `[a, 1]` read, at `(i, u)`, the sum over `k` of the array at `(i, k)`. -/
theorem keepdimsSum_apply (src : FVec Ideal (⟨2, ![a, b]⟩ : Shape) .f32)
    (h : (⟨2, ![a, b]⟩ : Shape).Reduces [1] ⟨1, ![a]⟩) (hφ : FKind.Formats .f32)
    (hacc : (0x00000000#32 : BitVec (FTy.bits .f32)) = (0x00000000#32 : BitVec (FTy.bits .f32))) (hc : (⟨1, ![a]⟩ : Shape).ShapeCasts ⟨2, ![a, 1]⟩)
    (i : Fin a) (u : Fin 1) :
    shapeCast ⟨2, ![a, 1]⟩ (multiReduction .add [1] ⟨1, ![a]⟩ src 0x00000000#32 h hφ hacc) hc (ix2 i u)
      = ∑ k : Fin b, src (ix2 i k) :=
  (shapeCast_a_a1_apply _ hc i u).trans (laneSum_apply src h hφ hacc i)

/-- A `[1, b]` row, cast to its own shape and broadcast over `a` rows, reads at `(p, c)` the row at `(0, c)`. -/
theorem rowBroadcast_apply (v : (⟨2, ![1, b]⟩ : Shape).Idx → α) (hc : (⟨2, ![1, b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ v hc) h (ix2 p c) = v (ix2 (0 : Fin 1) c) := by
  rw [shapeCast_self]
  exact broadcastTo_1b_ab_apply v h p c

end Cert.LibKeepdims
-- ==== Proof.PayloadLayer1.lean ====
/-
  The two values the first kernel stores, read at an entry on the extended reals.

  On the extended reals a change of float format is the identity and a matrix product into the zero accumulator is
  the plain sum of products, so:
    * the stored copy of the adjacency block is the block itself;
    * the stored support block is  relu((A X) W1 + b1) Wm  at that entry: three matrix products, each a sum over
      the contracted index, the bias row read at its only row, and relu as the maximum with the zero word (= 0).
-/
import proofs.«162218_g11665131176122_week1_w4_1195_22_alg».proof.Proof.Gen.KernelIdeal.Skeleton
import proofs.«162218_g11665131176122_week1_w4_1195_22_alg».proof.Proof.Spec
import proofs.«162218_g11665131176122_week1_w4_1195_22_alg».proof.Proof.LibMatmul2D
import proofs.«162218_g11665131176122_week1_w4_1195_22_alg».proof.Proof.LibKeepdims
import Idealize.ShloMosaic.Lib.ValueIdx
import Idealize.ShloMosaic.Lib.ValueLayout
import Idealize.ShloMosaic.Lib.Pipeline.Value
import Idealize.ShloMosaic.PureOps.Ideal.Laws

namespace Cert.KernelIdeal.Payload

open Cert.KernelIdeal Cert.KernelIdeal.Gen Cert.Gcn Idealize.ShloMosaic Idealize.ShloMosaic.ValueIdx

/-- The adjacency block rounded to the narrower format is, on the extended reals, the block itself. -/
theorem pay_adj (x0 : Vec Ideal S400x10000 .f32) (i : S400x10000.Idx) : k0_pay1 (F := Ideal) x0 i = x0 i := rfl

/-- The first layer's stored entry (r, j): the sum over l of relu(((A X) W1)(r, l) + b1(l)) * Wm(l, j). -/
theorem pay_s2 (x0 : Vec Ideal S400x10000 .f32) (x1 : Vec Ideal S10000x128 .f32) (x2 : Vec Ideal S128x128 .f32) (x3 : Vec Ideal S1x128 .f32) (x4 : Vec Ideal S128x128 .f32) (r : Fin 400) (j : Fin 128) :
    k0_pay2 (F := Ideal) x0 x1 x2 x3 x4 (ix2 r j)
      = ∑ l : Fin 128, relu ((∑ k : Fin 128, (∑ n : Fin 10000, x0 (ix2 r n) * x1 (ix2 n k)) * x2 (ix2 k l)) + x3 (ix2 (0 : Fin 1) l)) * x4 (ix2 l j) := by
  unfold k0_pay2
  refine (truncf_apply (ψ := .bf16) _ Facts₀.bitsLt_bf16_f32 (ix2 r j)).trans ?_
  refine (Cert.LibMatmul2D.rows_cols Facts₀.dot_S400x128_S128x128_S400x128_1_0_0_1_n_n_wf none _ x4 r j).trans ?_
  refine Finset.sum_congr rfl fun l _ => congrArg (· * x4 (ix2 l j)) ?_
  refine (maximumf_apply _ _ _).trans ?_
  refine congrArg₂ max ?_ Ideal.ofBits_zero_f32
  refine (addf_apply _ _ _).trans ?_
  refine congrArg₂ (· + ·) ?_ (Cert.LibKeepdims.rowBroadcast_apply x3 _ _ r l)
  refine (Cert.LibMatmul2D.rows_cols Facts₀.dot_S400x128_S128x128_S400x128_1_0_0_1_n_n_wf none _ x2 r l).trans ?_
  refine Finset.sum_congr rfl fun k _ => congrArg (· * x2 (ix2 k l)) ?_
  exact Cert.LibMatmul2D.rows_cols Facts₀.dot_S400x10000_S10000x128_S400x128_1_0_0_1_n_n_wf none x0 x1 r k

end Cert.KernelIdeal.Payload
-- ==== Proof.SpecIdx.lean ====
/-
  Arrays read as matrices and vectors: an array of shape [a, b] is the matrix whose entry (i, j) is the array at the
  index with coordinates i, j; an array of shape [a] the vector whose entry i is the array at the index with coordinate i.
-/
import proofs.«162218_g11665131176122_week1_w4_1195_22_alg».proof.Proof.Spec
import Idealize.ShloMosaic.Lib.ValueIdx

noncomputable section

namespace Cert.Gcn

open Idealize.ShloMosaic Idealize.ShloMosaic.ValueIdx

/-- An [a, b] array of extended reals as a matrix. -/
def mat {a b : ℕ} (x : (⟨2, ![a, b]⟩ : Shape).Idx → EReal) : Mat a b := fun i j => x (ix2 i j)

/-- An [a] array of extended reals as a vector. -/
def vec {a : ℕ} (x : (⟨1, ![a]⟩ : Shape).Idx → EReal) : Fin a → EReal := fun i => x (ix1 i)

end Cert.Gcn

end
-- ==== Proof.Layer1Value.lean ====
/-
  From blocks to the arrays, for the first kernel on the extended reals: what its two output arrays hold after the 25
  row blocks have been written back, at an entry.

  The grid is 25 row blocks of 400 rows. At row block t the adjacency window holds rows 400 t … 400 t + 399 of the
  10000 x 10000 adjacency array (all columns); the features, the two weights and the bias row are whole arrays, the
  same at every point. The body leaves, whole, the support block (entry (r, j): the sum over l of
  relu(((A X) W1)(400 t + r, l) + b1(l)) * Wm(l, j)) and the adjacency block itself, and each is written back to rows
  400 t … 400 t + 399 of its output array. So what point t writes is block t of ONE function of the array index:
  the support matrix for the first output, the adjacency array for the second. Row i of either output is covered by
  point i / 400, hence after all points each output array is that function everywhere.
-/
import proofs.«162218_g11665131176122_week1_w4_1195_22_alg».proof.Proof.Layer1DataIdeal
import proofs.«162218_g11665131176122_week1_w4_1195_22_alg».proof.Proof.PayloadLayer1
import proofs.«162218_g11665131176122_week1_w4_1195_22_alg».proof.Proof.SpecIdx
import Idealize.ShloMosaic.Lib.Pipeline.Value
import Idealize.ShloMosaic.Lib.ValueIdx

noncomputable section

namespace Cert.KernelIdeal.Layer1Value

open Cert.KernelIdeal Cert.KernelIdeal.Gen Cert.KernelIdeal.Layer1 Cert.KernelIdeal.Payload Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The offsets of every whole-buffer rectangle are zero. -/
theorem zero_offsets : (![0, 0] : Fin 2 → Nat) = fun _ => 0 := funext fun a => by fin_cases a <;> rfl

/-- The printed index maps, decided over the 25 grid points: the adjacency window and the two output windows sit at row
    block t, column block 0; the four whole-array windows at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks, read off the arrays -/

/-- The adjacency block at point t, at (r, n), is the adjacency array at (400 t + r, n). -/
theorem adjBlock_apply (c : Dev nD) (t : Fin cfg0.N) (x : S400x10000.Idx) (k : S10000x10000.Idx)
    (hk0 : (k 0).val = 400 * t.val + (x 0).val) (hk1 : (k 1).val = (x 1).val) :
    (blk V c 0 t : Vec Ideal S400x10000 .f32) x = (V c main_arg0 : S10000x10000.Idx → EReal) k := by
  obtain ⟨e0, e1, -⟩ := index_maps t
  unfold blk
  rw [View.read_apply]
  show V c main_arg0 _ = V c main_arg0 _
  congr 1
  funext a
  apply Fin.ext
  match a with
  | ⟨0, _⟩ => show win0_0.index t 0 * 400 + 1 * (x 0).val = (k 0).val; rw [e0, hk0]; omega
  | ⟨1, _⟩ => show win0_0.index t 1 * 10000 + 1 * (x 1).val = (k 1).val; rw [e1, hk1]; omega

/-- The feature block at any point is the feature array. -/
theorem featBlock_eq (c : Dev nD) (t : Fin cfg0.N) :
    (blk V c 1 t : Vec Ideal S10000x128 .f32) = (V c main_arg1 : S10000x128.Idx → EReal) := by
  obtain ⟨-, -, e0, e1, -⟩ := index_maps t
  funext x
  unfold blk
  rw [View.read_apply]
  show V c main_arg1 _ = V c main_arg1 _
  congr 1
  funext a
  apply Fin.ext
  match a with
  | ⟨0, _⟩ => show win0_1.index t 0 * 10000 + 1 * (x 0).val = (x 0).val; rw [e0]; omega
  | ⟨1, _⟩ => show win0_1.index t 1 * 128 + 1 * (x 1).val = (x 1).val; rw [e1]; omega

/-- The first weight's block at any point is the weight array. -/
theorem w1Block_eq (c : Dev nD) (t : Fin cfg0.N) :
    (blk V c 2 t : Vec Ideal S128x128 .f32) = (V c main_arg2 : S128x128.Idx → EReal) := by
  obtain ⟨-, -, -, -, e0, e1, -⟩ := index_maps t
  funext x
  unfold blk
  rw [View.read_apply]
  show V c main_arg2 _ = V c main_arg2 _
  congr 1
  funext a
  apply Fin.ext
  match a with
  | ⟨0, _⟩ => show win0_2.index t 0 * 128 + 1 * (x 0).val = (x 0).val; rw [e0]; omega
  | ⟨1, _⟩ => show win0_2.index t 1 * 128 + 1 * (x 1).val = (x 1).val; rw [e1]; omega

/-- The bias row's block at any point is the bias row. -/
theorem biasBlock_eq (c : Dev nD) (t : Fin cfg0.N) :
    (blk V c 3 t : Vec Ideal S1x128 .f32) = (V c main_call0_v0 : S1x128.Idx → EReal) := by
  obtain ⟨-, -, -, -, -, -, e0, e1, -⟩ := index_maps t
  funext x
  unfold blk
  rw [View.read_apply]
  show V c main_call0_v0 _ = V c main_call0_v0 _
  congr 1
  funext a
  apply Fin.ext
  match a with
  | ⟨0, _⟩ => show win0_3.index t 0 * 1 + 1 * (x 0).val = (x 0).val; rw [e0]; omega
  | ⟨1, _⟩ => show win0_3.index t 1 * 128 + 1 * (x 1).val = (x 1).val; rw [e1]; omega

/-- The middle weight's block at any point is the weight array. -/
theorem wmBlock_eq (c : Dev nD) (t : Fin cfg0.N) :
    (blk V c 4 t : Vec Ideal S128x128 .f32) = (V c main_arg4 : S128x128.Idx → EReal) := by
  obtain ⟨-, -, -, -, -, -, -, -, e0, e1, -⟩ := index_maps t
  funext x
  unfold blk
  rw [View.read_apply]
  show V c main_arg4 _ = V c main_arg4 _
  congr 1
  funext a
  apply Fin.ext
  match a with
  | ⟨0, _⟩ => show win0_4.index t 0 * 128 + 1 * (x 0).val = (x 0).val; rw [e0]; omega
  | ⟨1, _⟩ => show win0_4.index t 1 * 128 + 1 * (x 1).val = (x 1).val; rw [e1]; omega

/-! ## The support array -/

/-- The support matrix as one function of the output array's index. -/
def supportArr (A : S10000x10000.Idx → EReal) (X : S10000x128.Idx → EReal) (W1 : S128x128.Idx → EReal) (b1 : S1x128.Idx → EReal)
    (Wm : S128x128.Idx → EReal) : S10000x128.Idx → EReal := fun k =>
  support2 (mat A) (mat X) (mat W1) (fun l => b1 (ix2 (0 : Fin 1) l)) (mat Wm) ⟨(k 0).val, idx2_lt0 k⟩ ⟨(k 1).val, idx2_lt1 k⟩

/-- One entry of the body's support block, when row r of the adjacency block is row i of the array, is the support
    matrix at (i, j). -/
theorem point_support (A : S10000x10000.Idx → EReal) (X : S10000x128.Idx → EReal) (W1 : S128x128.Idx → EReal) (b1 : S1x128.Idx → EReal)
    (Wm : S128x128.Idx → EReal) (x0 : Vec Ideal S400x10000 .f32) (y : S400x128.Idx) (k : S10000x128.Idx)
    (r : Fin 400) (j : Fin 128) (i : Fin 10000) (hy : y = ix2 r j) (hk : k = ix2 i j)
    (h0 : ∀ n : Fin 10000, x0 (ix2 r n) = A (ix2 i n)) :
    k0_pay2 (F := Ideal) x0 X W1 b1 Wm y = supportArr A X W1 b1 Wm k := by
  subst hy hk
  refine (pay_s2 x0 X W1 b1 Wm r j).trans ?_
  show _ = support2 (mat A) (mat X) (mat W1) (fun l => b1 (ix2 (0 : Fin 1) l)) (mat Wm) i j
  unfold support2 mat
  simp only [h0]

/-- WHAT POINT t WRITES BACK to the support array is block t of the support matrix of the arrays as the region finds them. -/
theorem flushedSupport_eq (c : Dev nD) (t : Fin cfg0.N) :
    (dat V c).flushed 5 t = ((cfg0.win 5).blk t).view.read (Elt Ideal)
      (supportArr (V c main_arg0) (V c main_arg1) (V c main_arg2) (V c main_call0_v0) (V c main_arg4)) := by
  show (cfg0.win 5).cut (grid0.coords t) ((dat V c).after 5 t) = _
  rw [after5]
  unfold blockS2
  rw [View.canon_unit_zero zero_offsets]
  simp only [View.ld_unit_zero (S := S400x10000) zero_offsets, View.ld_unit_zero (S := S10000x128) zero_offsets,
    View.ld_unit_zero (S := S128x128) zero_offsets, View.ld_unit_zero (S := S1x128) zero_offsets]
  rw [featBlock_eq, w1Block_eq, biasBlock_eq, wmBlock_eq]
  obtain ⟨-, -, -, -, -, -, -, -, -, -, e0, e1, -⟩ := index_maps t
  funext y
  show k0_pay2 (F := Ideal) (blk V c 0 t) (V c main_arg1) (V c main_arg2) (V c main_call0_v0) (V c main_arg4) y
    = supportArr (V c main_arg0) (V c main_arg1) (V c main_arg2) (V c main_call0_v0) (V c main_arg4) (((cfg0.win 5).blk t).view.emb y)
  have ht : t.val < 25 := lt_of_lt_of_eq t.isLt N_0
  have hy0 : (y 0).val < 400 := (y 0).isLt
  have hy1 : (y 1).val < 128 := (y 1).isLt
  refine point_support _ _ _ _ _ _ y _ ⟨(y 0).val, hy0⟩ ⟨(y 1).val, hy1⟩ ⟨400 * t.val + (y 0).val, by omega⟩ ?_ ?_ fun n => ?_
  · funext a
    match a with
    | ⟨0, _⟩ => rfl
    | ⟨1, _⟩ => rfl
  · funext a
    apply Fin.ext
    match a with
    | ⟨0, _⟩ => show win0_5.index t 0 * 400 + 1 * (y 0).val = 400 * t.val + (y 0).val; rw [e0]; omega
    | ⟨1, _⟩ => show win0_5.index t 1 * 128 + 1 * (y 1).val = (y 1).val; rw [e1]; omega
  · exact adjBlock_apply V c t _ _ rfl rfl

/-- An index of the support array is in point t's block iff each coordinate is in the block's range on its axis. -/
theorem mem_supportBlock (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_call0_v3_0).slice (win0_5.rect t)).set ↔ _
  rw [View.set_slice_whole, Rect.mem_set_unit]
  exact Iff.rfl

/-- Row i of the support array is covered by point i / 400. -/
theorem cover_support (i : S10000x128.Idx) :
    ∃ t : Fin cfg0.N, (cfg0.win 5).flush t = true ∧ i ∈ ((cfg0.win 5).blk t).view.set := by
  have hi0 : (i 0).val < 10000 := idx2_lt0 i
  have hi1 : (i 1).val < 128 := idx2_lt1 i
  have hN : cfg0.N = 25 := N_0
  refine ⟨⟨(i 0).val / 400, by omega⟩, flush0_5 _, ?_⟩
  rw [mem_supportBlock]
  obtain ⟨-, -, -, -, -, -, -, -, -, -, e0, e1, -⟩ := index_maps ⟨(i 0).val / 400, by omega⟩
  intro a
  match a with
  | ⟨0, _⟩ =>
    show win0_5.index _ 0 * 400 ≤ (i 0).val ∧ (i 0).val < win0_5.index _ 0 * 400 + 400
    rw [e0]; show (i 0).val / 400 * 400 ≤ (i 0).val ∧ (i 0).val < (i 0).val / 400 * 400 + 400; omega
  | ⟨1, _⟩ =>
    show win0_5.index _ 1 * 128 ≤ (i 1).val ∧ (i 1).val < win0_5.index _ 1 * 128 + 128
    rw [e1]; omega

/-- THE SUPPORT ARRAY after the 25 write-backs is the support matrix of the arrays as the region finds them. -/
theorem final_support (c : Dev nD) :
    (dat V c).arrAt 5 cfg0.N = supportArr (V c main_arg0) (V c main_arg1) (V c main_arg2) (V c main_call0_v0) (V c main_arg4) :=
  (dat V c).arrAt_eq_of_cover 5 _ (fun t _ => flushedSupport_eq V c t) cover_support

/-- The support array after the region, at (i, j). -/
theorem support2_array (c : Dev nD) (i : Fin 10000) (j : Fin 128) :
    ((dat (F := Ideal) V c).arrAt 5 cfg0.N : S10000x128.Idx → EReal) (ix2 i j)
      = support2 (mat (V c main_arg0 : S10000x10000.Idx → EReal)) (mat (V c main_arg1 : S10000x128.Idx → EReal))
          (mat (V c main_arg2 : S128x128.Idx → EReal)) (fun l => (V c main_call0_v0 : S1x128.Idx → EReal) (ix2 (0 : Fin 1) l))
          (mat (V c main_arg4 : S128x128.Idx → EReal)) i j := by
  rw [final_support]
  rfl

/-! ## The adjacency copy -/

/-- WHAT POINT t WRITES BACK to the adjacency copy is block t of the adjacency array. -/
theorem flushedAdj_eq (c : Dev nD) (t : Fin cfg0.N) :
    (dat V c).flushed 6 t = ((cfg0.win 6).blk t).view.read (Elt Ideal) (V c main_arg0 : S10000x10000.Idx → EReal) := by
  show (cfg0.win 6).cut (grid0.coords t) ((dat V c).after 6 t) = _
  rw [after6]
  unfold blockAdj
  rw [View.canon_unit_zero zero_offsets]
  simp only [View.ld_unit_zero (S := S400x10000) zero_offsets]
  obtain ⟨-, -, -, -, -, -, -, -, -, -, -, -, e0, e1⟩ := index_maps t
  funext y
  show k0_pay1 (F := Ideal) (blk V c 0 t) y = (V c main_arg0 : S10000x10000.Idx → EReal) (((cfg0.win 6).blk t).view.emb y)
  refine (pay_adj _ y).trans ?_
  refine adjBlock_apply V c t y _ ?_ ?_
  · show win0_6.index t 0 * 400 + 1 * (y 0).val = 400 * t.val + (y 0).val; rw [e0]; omega
  · show win0_6.index t 1 * 10000 + 1 * (y 1).val = (y 1).val; rw [e1]; omega

/-- An index of the adjacency copy is in point t's block iff each coordinate is in the block's range on its axis. -/
theorem mem_adjBlock (t : Fin cfg0.N) (i : S10000x10000.Idx) :
    i ∈ ((cfg0.win 6).blk t).view.set ↔ ∀ a : Fin 2, win0_6.index t a * S400x10000.size a ≤ (i a).val ∧ (i a).val < win0_6.index t a * S400x10000.size a + S400x10000.size a := by
  show i ∈ ((View.whole main_call0_v3_1).slice (win0_6.rect t)).set ↔ _
  rw [View.set_slice_whole, Rect.mem_set_unit]
  exact Iff.rfl

/-- Row i of the adjacency copy is covered by point i / 400. -/
theorem cover_adj (i : S10000x10000.Idx) :
    ∃ t : Fin cfg0.N, (cfg0.win 6).flush t = true ∧ i ∈ ((cfg0.win 6).blk t).view.set := by
  have hi0 : (i 0).val < 10000 := idx2_lt0 i
  have hi1 : (i 1).val < 10000 := idx2_lt1 i
  have hN : cfg0.N = 25 := N_0
  refine ⟨⟨(i 0).val / 400, by omega⟩, flush0_6 _, ?_⟩
  rw [mem_adjBlock]
  obtain ⟨-, -, -, -, -, -, -, -, -, -, -, -, e0, e1⟩ := index_maps ⟨(i 0).val / 400, by omega⟩
  intro a
  match a with
  | ⟨0, _⟩ =>
    show win0_6.index _ 0 * 400 ≤ (i 0).val ∧ (i 0).val < win0_6.index _ 0 * 400 + 400
    rw [e0]; show (i 0).val / 400 * 400 ≤ (i 0).val ∧ (i 0).val < (i 0).val / 400 * 400 + 400; omega
  | ⟨1, _⟩ =>
    show win0_6.index _ 1 * 10000 ≤ (i 1).val ∧ (i 1).val < win0_6.index _ 1 * 10000 + 10000
    rw [e1]; omega

/-- THE ADJACENCY COPY after the 25 write-backs is the adjacency array as the region finds it. -/
theorem final_adj (c : Dev nD) : (dat V c).arrAt 6 cfg0.N = (V c main_arg0 : S10000x10000.Idx → EReal) :=
  (dat V c).arrAt_eq_of_cover 6 _ (fun t _ => flushedAdj_eq V c t) cover_adj

/-- The adjacency copy after the region, at (i, n). -/
theorem adjacency_array (c : Dev nD) (i n : Fin 10000) :
    ((dat (F := Ideal) V c).arrAt 6 cfg0.N : S10000x10000.Idx → EReal) (ix2 i n) = (V c main_arg0 : S10000x10000.Idx → EReal) (ix2 i n) := by
  rw [final_adj]

end Cert.KernelIdeal.Layer1Value

end
-- ==== Proof.HostReshapes.lean ====
/-
  The three bias vectors as the first kernel finds them, read at an entry on the extended reals.

  Before the first kernel the host reshapes each bias vector of length a into a 1 x a row; nothing else is done to it.
  A reshape keeps the row-major order, so the row's entry (0, l) is the vector's entry l.
-/
import proofs.«162218_g11665131176122_week1_w4_1195_22_alg».proof.Proof.Gen.KernelIdeal.Regions
import Idealize.ShloMosaic.Lib.StableHlo.Run
import Idealize.ShloMosaic.Lib.ValueIdx
import Idealize.ShloMosaic.Lib.ValueLayout

noncomputable section

namespace Cert.KernelIdeal.HostReshapes

open Cert.KernelIdeal Cert.KernelIdeal.Gen
open Idealize.ShloMosaic Idealize.ShloMosaic.TcCoe Idealize.ShloMosaic.ValueIdx Idealize.ShloMosaic.StableHlo Idealize.SL.Sem

variable (m : (ℓ : Loc nD τ sig) → Buf (Elt Ideal) ℓ)

/-- The first bias row at (0, l) is the first bias vector at l. -/
theorem bias1_read (c : Dev nD) (l : Fin 128) :
    (Gen.V1 (F := Ideal) m c main_call0_v0 : S1x128.Idx → EReal) (ix2 (0 : Fin 1) l)
      = (m ((c : Thread nD τ).loc main_arg3) : S128.Idx → EReal) (ix1 l) := by
  have e : (Gen.V1 (F := Ideal) m c main_call0_v0 : S1x128.Idx → EReal)
      = shapeCast S1x128 (m ((c : Thread nD τ).loc main_arg3) : S128.Idx → EReal) Facts₀.shapeCasts_S128_S1x128 := by
    dsimp only [Gen.V1, Gen.V0, Gen.hostOps0]; after_results; rfl
  rw [e]
  exact shapeCast_a_1a_apply _ _ 0 l

/-- The middle bias row at (0, l) is the middle bias vector at l. -/
theorem bias2_read (c : Dev nD) (l : Fin 128) :
    (Gen.V1 (F := Ideal) m c main_call0_v1 : S1x128.Idx → EReal) (ix2 (0 : Fin 1) l)
      = (m ((c : Thread nD τ).loc main_arg5) : S128.Idx → EReal) (ix1 l) := by
  have e : (Gen.V1 (F := Ideal) m c main_call0_v1 : S1x128.Idx → EReal)
      = shapeCast S1x128 (m ((c : Thread nD τ).loc main_arg5) : S128.Idx → EReal) Facts₀.shapeCasts_S128_S1x128 := by
    dsimp only [Gen.V1, Gen.V0, Gen.hostOps0]; after_results; rfl
  rw [e]
  exact shapeCast_a_1a_apply _ _ 0 l

/-- The last bias row at (0, l) is the last bias vector at l. -/
theorem bias3_read (c : Dev nD) (l : Fin 16) :
    (Gen.V1 (F := Ideal) m c main_call0_v2 : S1x16.Idx → EReal) (ix2 (0 : Fin 1) l)
      = (m ((c : Thread nD τ).loc main_arg7) : S16.Idx → EReal) (ix1 l) := by
  have e : (Gen.V1 (F := Ideal) m c main_call0_v2 : S1x16.Idx → EReal)
      = shapeCast S1x16 (m ((c : Thread nD τ).loc main_arg7) : S16.Idx → EReal) Facts₀.shapeCasts_S16_S1x16 := by
    dsimp only [Gen.V1, Gen.V0, Gen.hostOps0]; after_results; rfl
  rw [e]
  exact shapeCast_a_1a_apply _ _ 0 l

end Cert.KernelIdeal.HostReshapes

end
-- ==== Proof.KernelInputs.lean ====
/-
  What the second kernel finds in its input arrays, in terms of the memory at launch, on the extended reals.

  After the three bias reshapes and the first kernel: the adjacency copy is the adjacency matrix A; the support array is
  S2 = relu((A X) W1 + b1) Wm of the launch arrays (the first bias row being the first bias vector); the middle and the
  last bias rows are the bias vectors bm and b2 (reshaped, untouched by the first kernel); the last weight is as launched.
-/
import proofs.«162218_g11665131176122_week1_w4_1195_22_alg».proof.Proof.RunIdeal
import proofs.«162218_g11665131176122_week1_w4_1195_22_alg».proof.Proof.Layer1Value
import proofs.«162218_g11665131176122_week1_w4_1195_22_alg».proof.Proof.HostReshapes
import proofs.«162218_g11665131176122_week1_w4_1195_22_alg».proof.Proof.SpecIdx
import Idealize.ShloMosaic.Lib.ValueIdx

noncomputable section

namespace Cert.KernelIdeal.KernelInputs

open Cert.KernelIdeal Cert.KernelIdeal.Gen Cert.Gcn
open Idealize.ShloMosaic Idealize.ShloMosaic.TcCoe Idealize.ShloMosaic.ValueIdx Idealize.SL.Sem

variable (m : (ℓ : Loc nD τ sig) → Buf (Elt Ideal) ℓ)

/-- The adjacency copy the second kernel reads is the adjacency matrix as launched. -/
theorem adjacency_in (c : Dev nD) :
    mat (Run.V2 (F := Ideal) m c main_call0_v3_1 : S10000x10000.Idx → EReal)
      = mat (m ((c : Thread nD τ).loc main_arg0) : S10000x10000.Idx → EReal) := by
  funext i n
  show (Run.V2 (F := Ideal) m c main_call0_v3_1 : S10000x10000.Idx → EReal) (ix2 i n)
    = (m ((c : Thread nD τ).loc main_arg0) : S10000x10000.Idx → EReal) (ix2 i n)
  have e : (Run.V2 (F := Ideal) m c main_call0_v3_1 : S10000x10000.Idx → EReal)
      = ((Layer1.dat (F := Ideal) (Run.V1 m) c).arrAt 6 cfg0.N : S10000x10000.Idx → EReal) := Run.W2_arr m c 6
  rw [e, Layer1Value.adjacency_array (Run.V1 m) c i n]
  exact congrFun (Run.W1_of m c main_arg0 (by decide)) (ix2 i n)

/-- The support array the second kernel reads is S2 = relu((A X) W1 + b1) Wm of the arrays as launched. -/
theorem support_in (c : Dev nD) :
    mat (Run.V2 (F := Ideal) m c main_call0_v3_0 : S10000x128.Idx → EReal)
      = support2 (mat (m ((c : Thread nD τ).loc main_arg0) : S10000x10000.Idx → EReal))
          (mat (m ((c : Thread nD τ).loc main_arg1) : S10000x128.Idx → EReal))
          (mat (m ((c : Thread nD τ).loc main_arg2) : S128x128.Idx → EReal))
          (vec (m ((c : Thread nD τ).loc main_arg3) : S128.Idx → EReal))
          (mat (m ((c : Thread nD τ).loc main_arg4) : S128x128.Idx → EReal)) := by
  funext i j
  show (Run.V2 (F := Ideal) m c main_call0_v3_0 : S10000x128.Idx → EReal) (ix2 i j) = _
  have e : (Run.V2 (F := Ideal) m c main_call0_v3_0 : S10000x128.Idx → EReal)
      = ((Layer1.dat (F := Ideal) (Run.V1 m) c).arrAt 5 cfg0.N : S10000x128.Idx → EReal) := Run.W2_arr m c 5
  rw [e, Layer1Value.support2_array (Run.V1 m) c i j]
  have h0 : (Run.V1 (F := Ideal) m c main_arg0 : S10000x10000.Idx → EReal) = m ((c : Thread nD τ).loc main_arg0) :=
    Run.W1_of m c main_arg0 (by decide)
  have h1 : (Run.V1 (F := Ideal) m c main_arg1 : S10000x128.Idx → EReal) = m ((c : Thread nD τ).loc main_arg1) :=
    Run.W1_of m c main_arg1 (by decide)
  have h2 : (Run.V1 (F := Ideal) m c main_arg2 : S128x128.Idx → EReal) = m ((c : Thread nD τ).loc main_arg2) :=
    Run.W1_of m c main_arg2 (by decide)
  have h4 : (Run.V1 (F := Ideal) m c main_arg4 : S128x128.Idx → EReal) = m ((c : Thread nD τ).loc main_arg4) :=
    Run.W1_of m c main_arg4 (by decide)
  have hb : (fun l : Fin 128 => (Run.V1 (F := Ideal) m c main_call0_v0 : S1x128.Idx → EReal) (ix2 (0 : Fin 1) l))
      = vec (m ((c : Thread nD τ).loc main_arg3) : S128.Idx → EReal) := funext fun l => HostReshapes.bias1_read m c l
  rw [h0, h1, h2, h4, hb]

/-- The middle bias row the second kernel reads is the middle bias vector as launched. -/
theorem bias_in (c : Dev nD) :
    (fun l : Fin 128 => (Run.V2 (F := Ideal) m c main_call0_v1 : S1x128.Idx → EReal) (ix2 (0 : Fin 1) l))
      = vec (m ((c : Thread nD τ).loc main_arg5) : S128.Idx → EReal) := by
  funext l
  have e : (Run.V2 (F := Ideal) m c main_call0_v1 : S1x128.Idx → EReal) = (Run.V1 (F := Ideal) m c main_call0_v1 : S1x128.Idx → EReal) :=
    Run.W2_of_ne m c main_call0_v1 (by decide)
  rw [e]
  exact HostReshapes.bias2_read m c l

/-- The last weight the second kernel reads is as launched. -/
theorem weight_in (c : Dev nD) :
    mat (Run.V2 (F := Ideal) m c main_arg6 : S128x16.Idx → EReal) = mat (m ((c : Thread nD τ).loc main_arg6) : S128x16.Idx → EReal) := by
  have e : (Run.V2 (F := Ideal) m c main_arg6 : S128x16.Idx → EReal) = (m ((c : Thread nD τ).loc main_arg6) : S128x16.Idx → EReal) :=
    Run.V2_keep m c main_arg6 (by decide) (by decide)
  rw [e]

/-- The last bias row the second kernel reads is the last bias vector as launched. -/
theorem lastBias_in (c : Dev nD) :
    (fun l : Fin 16 => (Run.V2 (F := Ideal) m c main_call0_v2 : S1x16.Idx → EReal) (ix2 (0 : Fin 1) l))
      = vec (m ((c : Thread nD τ).loc main_arg7) : S16.Idx → EReal) := by
  funext l
  have e : (Run.V2 (F := Ideal) m c main_call0_v2 : S1x16.Idx → EReal) = (Run.V1 (F := Ideal) m c main_call0_v2 : S1x16.Idx → EReal) :=
    Run.W2_of_ne m c main_call0_v2 (by decide)
  rw [e]
  exact HostReshapes.bias3_read m c l

end Cert.KernelIdeal.KernelInputs

end
-- ==== Proof.PayloadLayer2.lean ====
/-
  The second kernel's stored support block, read at an entry on the extended reals:
  relu(A_blk[:, :5000] S2[:5000] + A_blk[:, 5000:] S2[5000:] + bm) W2.

  The adjacency block's 10000 columns are cut into the first and the last 5000; each half is multiplied, into the zero
  accumulator, with its 5000 rows of the support, so at an entry each half-product is a sum over n < 5000 of the block
  at column (offset + n) times the support at row n. The two halves are added, the bias row is read at its only row,
  relu is the maximum with the zero word (= 0), and the last product is the sum over the 128 hidden units.
-/
import proofs.«162218_g11665131176122_week1_w4_1195_22_alg».proof.Proof.Gen.KernelIdeal.Skeleton
import proofs.«162218_g11665131176122_week1_w4_1195_22_alg».proof.Proof.Spec
import proofs.«162218_g11665131176122_week1_w4_1195_22_alg».proof.Proof.LibMatmul2D
import proofs.«162218_g11665131176122_week1_w4_1195_22_alg».proof.Proof.LibKeepdims
import Idealize.ShloMosaic.Lib.ValueIdx
import Idealize.ShloMosaic.Lib.ValueLayout
import Idealize.ShloMosaic.Lib.Pipeline.Value
import Idealize.ShloMosaic.PureOps.Ideal.Laws

namespace Cert.KernelIdeal.Payload

open Cert.KernelIdeal Cert.KernelIdeal.Gen Cert.Gcn Idealize.ShloMosaic Idealize.ShloMosaic.ValueIdx

/-- One half of the node contraction: the block's columns from `o` on, times 5000 rows of support, at (r, l), is the
    sum over n of the block at column g n (where g n = o + n) times the support at (n, l). -/
theorem half_apply (o : Nat) (v6 : Vec Ideal S1000x10000 .bf16) (w : Vec Ideal S5000x128 .bf16)
    (hs : S1000x10000.Slices ![0, o] S1000x5000) (g : Fin 5000 → Fin 10000) (hg : ∀ n, (g n).val = o + n.val)
    (r : Fin 1000) (l : Fin 128) :
    matmul (F := Ideal) (φ₁ := .bf16) (φ₂ := .bf16) dot_S1000x5000_S5000x128_S1000x128_1_0_0_1_n_n none
        (extractStridedSlice S1000x5000 ![0, o] (shapeCast S1000x10000 v6 Facts₀.shapeCasts_S1000x10000_S1000x10000) hs)
        (shapeCast S5000x128 w Facts₀.shapeCasts_S5000x128_S5000x128) (constant S1000x128 .f32 0x00000000#32) (ix2 r l)
      = ∑ n : Fin 5000, v6 (ix2 r (g n)) * w (ix2 n l) := by
  rw [shapeCast_self, shapeCast_self]
  refine (Cert.LibMatmul2D.rows_cols (φ₁ := .bf16) (φ₂ := .bf16) Facts₀.dot_S1000x5000_S5000x128_S1000x128_1_0_0_1_n_n_wf none _ w r l).trans ?_
  refine Finset.sum_congr rfl fun n _ => congrArg (· * w (ix2 n l)) ?_
  exact slice2_axis1_apply o v6 hs r n (g n) (hg n)

/-- The second layer's stored entry (r, j): the sum over l of
    relu((first half)(r, l) + (second half)(r, l) + bm(l)) * W2(l, j). -/
theorem pay_s3 (v6 : Vec Ideal S1000x10000 .bf16) (v9 v13 : Vec Ideal S5000x128 .bf16) (v17 : Vec Ideal S1x128 .f32) (v23 : Vec Ideal S128x16 .f32) (r : Fin 1000) (j : Fin 16) :
    k1_pay1 (F := Ideal) v6 v9 v13 v17 v23 (ix2 r j)
      = ∑ l : Fin 128, relu (((∑ n : Fin 5000, v6 (ix2 r (lo n)) * v9 (ix2 n l)) + (∑ n : Fin 5000, v6 (ix2 r (hi n)) * v13 (ix2 n l))) + v17 (ix2 (0 : Fin 1) l)) * v23 (ix2 l j) := by
  unfold k1_pay1
  refine (truncf_apply (ψ := .bf16) _ Facts₀.bitsLt_bf16_f32 (ix2 r j)).trans ?_
  refine (Cert.LibMatmul2D.rows_cols Facts₀.dot_S1000x128_S128x16_S1000x16_1_0_0_1_n_n_wf none _ v23 r j).trans ?_
  refine Finset.sum_congr rfl fun l _ => congrArg (· * v23 (ix2 l j)) ?_
  refine (maximumf_apply _ _ _).trans ?_
  refine congrArg₂ max ?_ Ideal.ofBits_zero_f32
  refine (addf_apply _ _ _).trans ?_
  refine congrArg₂ (· + ·) ?_ (Cert.LibKeepdims.rowBroadcast_apply v17 _ _ r l)
  refine (addf_apply _ _ _).trans ?_
  exact congrArg₂ (· + ·)
    (half_apply 0 v6 v9 Facts₀.slices_S1000x10000_o0_0_S1000x5000 lo (fun n => (Nat.zero_add _).symm) r l)
    (half_apply 5000 v6 v13 Facts₀.slices_S1000x10000_o0_5000_S1000x5000 hi (fun _ => rfl) r l)

end Cert.KernelIdeal.Payload
-- ==== Proof.LibRowOps.lean ====
/-
  What a softmax over the rows of an [a, b] array is made of, read at an index on the extended reals:
    * a row statistic y : [a] kept as a column — cast to [a, 1], then broadcast to [a, b] — reads y at the row, at every
      column;
    * the maximum over a row, from the accumulator's value, is the fold of `max` over the row's b entries;
    * the sum over a row is the sum of the row's b entries.
  Over any extents a, b.
-/
import Idealize.ShloMosaic.PureOps.Ideal.Laws
import Idealize.ShloMosaic.Lib.ValueIdx
import Idealize.ShloMosaic.Lib.Pipeline.Value

namespace Cert.LibRowOps

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row statistic kept as a column and broadcast over the row's entries reads the statistic at the row. -/
theorem column_apply {a b : ℕ} (y : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ y h) h' (ix2 p c) = y (ix1 p) :=
  (broadcastTo_a1_ab_apply _ h' p c).trans (shapeCast_a_a1_apply y h p 0)

/-- The reduced index `r` of an [a, b] → [a] reduction over the columns, with column `k` put back, is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

variable {φ : FTy}

/-- A row's maximum: the fold of `max` from the accumulator's value over the row's entries. -/
theorem rowMax_apply {a b : ℕ} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.maximumf.neutral φ hφ)
    (r : Fin a) :
    multiReduction .maximumf [1] (⟨1, ![a]⟩ : Shape) src acc h hφ hacc (ix1 r)
      = (Finset.univ : Finset (Fin b)).fold max (Ideal.ofBits φ acc) (fun t => src (ix2 r t)) := by
  rw [Ideal.multiReduction_maximumf_single src acc h hφ hacc (ix1 r)]
  have e : (src ∘ h.lift (ix1 r)) = fun t : Fin b => src (ix2 r t) := funext fun k => congrArg src (lift_row h r k)
  rw [e]; rfl

/-- A row's sum: the sum of the row's entries. -/
theorem rowSum_apply {a b : ℕ} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.add.neutral φ hφ)
    (r : Fin a) :
    multiReduction .add [1] (⟨1, ![a]⟩ : Shape) src acc h hφ hacc (ix1 r) = ∑ t : Fin b, src (ix2 r t) := by
  rw [Ideal.multiReduction_add_single src acc h hφ hacc (ix1 r)]
  exact Finset.sum_congr rfl fun k _ => congrArg src (lift_row h r k)

end Cert.LibRowOps
-- ==== Proof.PayloadLayer3.lean ====
/-
  The second kernel's output block, read at an entry on the extended reals: the row softmax of  A_blk S3 + b2.

  Three steps, each read at an entry (r, c) of the 1000 x 16 block:
    * the logits: the matrix product into the zero accumulator is the sum over the 10000 nodes, and the bias row is
      read at its only row;
    * centering: the row's maximum, folded from the word for minus infinity (bottom), kept as a column and broadcast
      back over the row, is subtracted from every entry of the row;
    * normalizing: the row's sum, kept as a column and broadcast back, divides every entry of the row.
  Their composition, with the exponential in between, is the softmax of the row of logits.
-/
import proofs.«162218_g11665131176122_week1_w4_1195_22_alg».proof.Proof.Gen.KernelIdeal.Skeleton
import proofs.«162218_g11665131176122_week1_w4_1195_22_alg».proof.Proof.Spec
import proofs.«162218_g11665131176122_week1_w4_1195_22_alg».proof.Proof.LibMatmul2D
import proofs.«162218_g11665131176122_week1_w4_1195_22_alg».proof.Proof.LibRowOps
import proofs.«162218_g11665131176122_week1_w4_1195_22_alg».proof.Proof.LibKeepdims
import Idealize.ShloMosaic.Lib.ValueIdx
import Idealize.ShloMosaic.Lib.ValueLayout
import Idealize.ShloMosaic.Lib.Pipeline.Value
import Idealize.ShloMosaic.PureOps.Ideal.Laws

namespace Cert.KernelIdeal.Payload

open Cert.KernelIdeal Cert.KernelIdeal.Gen Cert.Gcn Idealize.ShloMosaic Idealize.ShloMosaic.ValueIdx

/-- The word 0xFF800000 read as a 32-bit float is minus infinity: bottom of the extended reals. -/
theorem ofBits_negInf_f32 : Ideal.ofBits .f32 0xFF800000#32 = ⊥ := by simp [Ideal.ofBits, Ideal.ieee]

/-- The logits block at (r, c): the sum over the nodes of A(r, n) * S3(n, c), plus the bias at c. -/
theorem logits_apply (v6 : Vec Ideal S1000x10000 .bf16) (v8 : Vec Ideal S10000x16 .bf16) (v11 : Vec Ideal S1x16 .f32) (r : Fin 1000) (c : Fin 16) :
    addf (F := Ideal) (matmul (φ₁ := .bf16) (φ₂ := .bf16) dot_S1000x10000_S10000x16_S1000x16_1_0_0_1_n_n none
        (shapeCast S1000x10000 v6 Facts₀.shapeCasts_S1000x10000_S1000x10000) (shapeCast S10000x16 v8 Facts₀.shapeCasts_S10000x16_S10000x16)
        (constant S1000x16 .f32 0x00000000#32))
      (broadcastTo S1000x16 (shapeCast S1x16 v11 Facts₀.shapeCasts_S1x16_S1x16) Facts₀.broadcasts_S1x16_S1000x16) (ix2 r c)
      = (∑ n : Fin 10000, v6 (ix2 r n) * v8 (ix2 n c)) + v11 (ix2 (0 : Fin 1) c) := by
  refine (addf_apply _ _ _).trans ?_
  refine congrArg₂ (· + ·) ?_ (Cert.LibKeepdims.rowBroadcast_apply v11 _ _ r c)
  rw [shapeCast_self, shapeCast_self]
  exact Cert.LibMatmul2D.rows_cols Facts₀.dot_S1000x10000_S10000x16_S1000x16_1_0_0_1_n_n_wf none v6 v8 r c

/-- Centering: a block minus its rows' maxima (kept as a column, broadcast back), at (r, c), is the entry minus the
    maximum of row r folded from bottom. -/
theorem centered_apply (V : FVec Ideal S1000x16 .f32) (r : Fin 1000) (c : Fin 16) :
    subf V (broadcastTo S1000x16 (shapeCast S1000x1
        (multiReduction .maximumf [1] S1000 V 0xFF800000#32 Facts₀.reduces_S1000x16_S1000 (.inl rfl) rfl)
        Facts₀.shapeCasts_S1000_S1000x1) Facts₀.broadcasts_S1000x1_S1000x16) (ix2 r c)
      = V (ix2 r c) - rowMax (fun t : Fin 16 => V (ix2 r t)) := by
  refine (subf_apply _ _ _).trans ?_
  refine congrArg (V (ix2 r c) - ·) ?_
  refine (Cert.LibRowOps.column_apply _ _ _ r c).trans ?_
  refine (Cert.LibRowOps.rowMax_apply V _ _ _ _ r).trans ?_
  unfold rowMax
  rw [ofBits_negInf_f32]

/-- Normalizing: a block divided by its rows' sums (kept as a column, broadcast back), at (r, j), is the entry
    divided by the sum of row r. -/
theorem normalized_apply (E : FVec Ideal S1000x16 .f32) (r : Fin 1000) (j : Fin 16) :
    divf E (broadcastTo S1000x16 (shapeCast S1000x1
        (multiReduction .add [1] S1000 E 0x00000000#32 Facts₀.reduces_S1000x16_S1000 (.inl rfl) rfl)
        Facts₀.shapeCasts_S1000_S1000x1) Facts₀.broadcasts_S1000x1_S1000x16) (ix2 r j)
      = Ideal.div (E (ix2 r j)) (∑ t : Fin 16, E (ix2 r t)) := by
  refine (divf_apply _ _ _).trans ?_
  refine congrArg (Ideal.div (E (ix2 r j))) ?_
  refine (Cert.LibRowOps.column_apply _ _ _ r j).trans ?_
  exact Cert.LibRowOps.rowSum_apply E _ _ _ _ r

/-- The output block's entry (r, j): the softmax, at column j, of row r of  A_blk S3 + b2. -/
theorem pay_out (v6 : Vec Ideal S1000x10000 .bf16) (v8 : Vec Ideal S10000x16 .bf16) (v11 : Vec Ideal S1x16 .f32) (r : Fin 1000) (j : Fin 16) :
    k1_pay2 (F := Ideal) v6 v8 v11 (ix2 r j)
      = softmaxRow (fun j' : Fin 16 => (∑ n : Fin 10000, v6 (ix2 r n) * v8 (ix2 n j')) + v11 (ix2 (0 : Fin 1) j')) j := by
  unfold k1_pay2
  refine (normalized_apply _ r j).trans ?_
  have hz : ∀ c : Fin 16, _ = (∑ n : Fin 10000, v6 (ix2 r n) * v8 (ix2 n c)) + v11 (ix2 (0 : Fin 1) c) :=
    fun c => logits_apply v6 v8 v11 r c
  have he : ∀ c : Fin 16, _ = Ideal.exp (((∑ n : Fin 10000, v6 (ix2 r n) * v8 (ix2 n c)) + v11 (ix2 (0 : Fin 1) c))
      - rowMax (fun j' : Fin 16 => (∑ n : Fin 10000, v6 (ix2 r n) * v8 (ix2 n j')) + v11 (ix2 (0 : Fin 1) j'))) :=
    fun c => congrArg Ideal.exp ((centered_apply _ r c).trans (congrArg₂ (· - ·) (hz c) (congrArg rowMax (funext hz))))
  unfold softmaxRow
  exact congrArg₂ Ideal.div (he j) (Finset.sum_congr rfl fun t _ => he t)

end Cert.KernelIdeal.Payload
-- ==== Proof.Layer23Support.lean ====
/-
  The second pallas_call's windows read at an entry, on the extended reals, and the support matrix phase 0 leaves.

  The grid's point t has row block t in phase 0 and row block 19 - t in phase 1 for the adjacency window and the result
  window; the other input windows hold their whole arrays at every point. So the adjacency block at a point of row
  block b, at (r, n), is the adjacency at (1000 b + r, n), and a whole-array block at an entry is the array there. The
  first and the last 5000 rows of the support matrix are its rows n and 5000 + n. With these, the projected block a
  phase-0 point stores, at its row i mod 1000, is row i of  relu(A S2 + bm) W2  with the contraction over the nodes in
  two halves: the specification's `support3`.
-/
import proofs.«162218_g11665131176122_week1_w4_1195_22_alg».proof.Proof.Layer23DataIdeal
import proofs.«162218_g11665131176122_week1_w4_1195_22_alg».proof.Proof.PayloadLayer2
import proofs.«162218_g11665131176122_week1_w4_1195_22_alg».proof.Proof.PayloadLayer3
import proofs.«162218_g11665131176122_week1_w4_1195_22_alg».proof.Proof.SpecIdx
import Idealize.ShloMosaic.Lib.Pipeline.Value

set_option maxRecDepth 16384

noncomputable section

namespace Cert.KernelIdeal.Layer23Value

open Cert.KernelIdeal Cert.KernelIdeal.Gen Cert.KernelIdeal.Layer23 Cert.Gcn
open Idealize.ShloMosaic Idealize.ShloMosaic.TcCoe Idealize.ShloMosaic.ValueIdx
open Idealize.SL.Sem
open Idealize.ShloMosaic.Pipeline (Dat RDat Cfg Window)

variable (V : (c : Dev nD) → (b : Ref sig .tc) → Buf (Elt Ideal) ((c : Thread nD τ).loc b))

/-! ## The schedule in closed form -/

/-- The block index of windows 0 and 6: row block t in phase 0, row block 19 - t in phase 1; column block 0. -/
theorem index0 : ∀ t : Fin cfg1.N, (cfg1.win 0).index t = ![if t.val < 10 then t.val else 19 - t.val, 0] :=
  (by decide +kernel : ∀ t : Fin grid1.N, win1_0.index t = ![if t.val < 10 then t.val else 19 - t.val, 0])
theorem index6 : ∀ t : Fin cfg1.N, (cfg1.win 6).index t = ![if t.val < 10 then t.val else 19 - t.val, 0] :=
  (by decide +kernel : ∀ t : Fin grid1.N, win1_6.index t = ![if t.val < 10 then t.val else 19 - t.val, 0])
/-- Windows 1 to 4 are whole arrays: block index (0, 0) at every point. -/
theorem index1 : ∀ t : Fin cfg1.N, (cfg1.win 1).index t = ![0, 0] :=
  (by decide +kernel : ∀ t : Fin grid1.N, win1_1.index t = ![0, 0])
theorem index2 : ∀ t : Fin cfg1.N, (cfg1.win 2).index t = ![0, 0] :=
  (by decide +kernel : ∀ t : Fin grid1.N, win1_2.index t = ![0, 0])
theorem index3 : ∀ t : Fin cfg1.N, (cfg1.win 3).index t = ![0, 0] :=
  (by decide +kernel : ∀ t : Fin grid1.N, win1_3.index t = ![0, 0])
theorem index4 : ∀ t : Fin cfg1.N, (cfg1.win 4).index t = ![0, 0] :=
  (by decide +kernel : ∀ t : Fin grid1.N, win1_4.index t = ![0, 0])
/-- The result window is written back at every point but the last of phase 0 (the next point has the same block). -/
theorem flush6 : ∀ t : Fin cfg1.N, (cfg1.win 6).flush t = true ↔ t.val ≠ 9 :=
  (by decide +kernel : ∀ t : Fin grid1.N, win1_6.flush t = true ↔ t.val ≠ 9)

/-! ## The windows' blocks at an entry -/

/-- The adjacency block at a point whose row block is b: entry (r, n) is the adjacency at (1000 b + r, n). -/
theorem blk0_apply (c : Dev nD) (t : Fin cfg1.N) (r : Fin 1000) (n : Fin 10000) (b : Fin 10)
    (hb : (cfg1.win 0).index t = ![b.val, 0]) :
    (blk (F := Ideal) V c 0 t : S1000x10000.Idx → EReal) (ix2 r n)
      = (V c main_call0_v3_1 : S10000x10000.Idx → EReal) (ix2 (⟨b.val * 1000 + r.val, by omega⟩ : Fin 10000) n) := by
  unfold blk
  rw [View.read_apply]
  show V c main_call0_v3_1 _ = _
  congr 1
  funext a; apply Fin.ext
  match a with
  | ⟨0, _⟩ => show (cfg1.win 0).index t 0 * 1000 + 1 * r.val = b.val * 1000 + r.val; rw [hb]; show b.val * 1000 + 1 * r.val = _; omega
  | ⟨1, _⟩ => show (cfg1.win 0).index t 1 * 10000 + 1 * n.val = n.val; rw [hb]; show 0 * 10000 + 1 * n.val = _; omega

/-- The support window's block is the whole support matrix. -/
theorem blk1_apply (c : Dev nD) (t : Fin cfg1.N) (n : Fin 10000) (l : Fin 128) :
    (blk (F := Ideal) V c 1 t : S10000x128.Idx → EReal) (ix2 n l) = (V c main_call0_v3_0 : S10000x128.Idx → EReal) (ix2 n l) := by
  unfold blk
  rw [View.read_apply]
  show V c main_call0_v3_0 _ = _
  congr 1
  funext a; apply Fin.ext
  match a with
  | ⟨0, _⟩ => show (cfg1.win 1).index t 0 * 10000 + 1 * n.val = n.val; rw [index1]; show 0 * 10000 + 1 * n.val = _; omega
  | ⟨1, _⟩ => show (cfg1.win 1).index t 1 * 128 + 1 * l.val = l.val; rw [index1]; show 0 * 128 + 1 * l.val = _; omega

/-- The bias window's block is the whole bias row. -/
theorem blk2_apply (c : Dev nD) (t : Fin cfg1.N) (l : Fin 128) :
    (blk (F := Ideal) V c 2 t : S1x128.Idx → EReal) (ix2 (0 : Fin 1) l) = (V c main_call0_v1 : S1x128.Idx → EReal) (ix2 (0 : Fin 1) l) := by
  unfold blk
  rw [View.read_apply]
  show V c main_call0_v1 _ = _
  congr 1
  funext a; apply Fin.ext
  match a with
  | ⟨0, _⟩ => show (cfg1.win 2).index t 0 * 1 + 1 * 0 = 0; rw [index2]; rfl
  | ⟨1, _⟩ => show (cfg1.win 2).index t 1 * 128 + 1 * l.val = l.val; rw [index2]; show 0 * 128 + 1 * l.val = _; omega

/-- The weight window's block is the whole weight matrix. -/
theorem blk3_apply (c : Dev nD) (t : Fin cfg1.N) (l : Fin 128) (j : Fin 16) :
    (blk (F := Ideal) V c 3 t : S128x16.Idx → EReal) (ix2 l j) = (V c main_arg6 : S128x16.Idx → EReal) (ix2 l j) := by
  unfold blk
  rw [View.read_apply]
  show V c main_arg6 _ = _
  congr 1
  funext a; apply Fin.ext
  match a with
  | ⟨0, _⟩ => show (cfg1.win 3).index t 0 * 128 + 1 * l.val = l.val; rw [index3]; show 0 * 128 + 1 * l.val = _; omega
  | ⟨1, _⟩ => show (cfg1.win 3).index t 1 * 16 + 1 * j.val = j.val; rw [index3]; show 0 * 16 + 1 * j.val = _; omega

/-- The last bias window's block is the whole bias row. -/
theorem blk4_apply (c : Dev nD) (t : Fin cfg1.N) (j : Fin 16) :
    (blk (F := Ideal) V c 4 t : S1x16.Idx → EReal) (ix2 (0 : Fin 1) j) = (V c main_call0_v2 : S1x16.Idx → EReal) (ix2 (0 : Fin 1) j) := by
  unfold blk
  rw [View.read_apply]
  show V c main_call0_v2 _ = _
  congr 1
  funext a; apply Fin.ext
  match a with
  | ⟨0, _⟩ => show (cfg1.win 4).index t 0 * 1 + 1 * 0 = 0; rw [index4]; rfl
  | ⟨1, _⟩ => show (cfg1.win 4).index t 1 * 16 + 1 * j.val = j.val; rw [index4]; show 0 * 16 + 1 * j.val = _; omega

/-! ## The loads' rectangles at an entry -/

theorem hz2 : (![0, 0] : Fin 2 → Nat) = fun _ => 0 := funext fun a => by fin_cases a <;> rfl

/-- The first 5000 rows of a 10000 x 128 array: entry (n, l) is the array at (n, l). -/
theorem ldLo_apply (x : Vec Ideal S10000x128 .bf16) (n : Fin 5000) (l : Fin 128) :
    (View.ld x rLo : S5000x128.Idx → EReal) (ix2 n l) = x (ix2 (lo n) l) := by
  show x _ = x _
  congr 1
  funext a; apply Fin.ext
  match a with
  | ⟨0, _⟩ => show 0 + 1 * n.val = n.val; omega
  | ⟨1, _⟩ => show 0 + 1 * l.val = l.val; omega

/-- The last 5000 rows: entry (n, l) is the array at (5000 + n, l). -/
theorem ldHi_apply (x : Vec Ideal S10000x128 .bf16) (n : Fin 5000) (l : Fin 128) :
    (View.ld x rHi : S5000x128.Idx → EReal) (ix2 n l) = x (ix2 (hi n) l) := by
  show x _ = x _
  congr 1
  funext a; apply Fin.ext
  match a with
  | ⟨0, _⟩ => show 5000 + 1 * n.val = 5000 + n.val; omega
  | ⟨1, _⟩ => show 0 + 1 * l.val = l.val; omega

/-! ## The support matrix phase 0 leaves -/

theorem support3All_apply (c : Dev nD) (i : Fin 10000) (j : Fin 16) :
    support3All (F := Ideal) V c (ix2 i j)
      = support3 (mat (V c main_call0_v3_1)) (mat (V c main_call0_v3_0)) (fun l => V c main_call0_v1 (ix2 (0 : Fin 1) l)) (mat (V c main_arg6)) i j := by
  have hi10 : i.val < 10000 := i.isLt
  have hb : (cfg1.win 0).index (rowPoint i.val i.isLt) = ![(⟨i.val / 1000, by omega⟩ : Fin 10).val, 0] := by
    rw [index0]
    show ![if i.val / 1000 < 10 then i.val / 1000 else 19 - i.val / 1000, 0] = _
    rw [if_pos (by omega)]
  -- the adjacency block of the point i / 1000 at its row i mod 1000 is row i of the adjacency
  have hA : ∀ m : Fin 10000,
      (View.ld (blk (F := Ideal) V c 0 (rowPoint i.val i.isLt)) rAdj : S1000x10000.Idx → EReal)
          (ix2 (⟨i.val % 1000, Nat.mod_lt _ (by omega)⟩ : Fin 1000) m)
        = mat (V c main_call0_v3_1) i m := fun m => by
    refine (congrFun (View.ld_unit_zero (S := S1000x10000) hz2 _ _) _).trans ?_
    refine (blk0_apply V c _ _ m ⟨i.val / 1000, by omega⟩ hb).trans ?_
    show V c main_call0_v3_1 _ = V c main_call0_v3_1 _
    congr 1
    funext a; apply Fin.ext
    match a with
    | ⟨0, _⟩ => show i.val / 1000 * 1000 + i.val % 1000 = i.val; omega
    | ⟨1, _⟩ => rfl
  show pay0 V c (rowPoint i.val i.isLt) (ix2 (⟨i.val % 1000, Nat.mod_lt _ (by omega)⟩ : Fin 1000) j) = _
  unfold pay0
  refine (Cert.KernelIdeal.Payload.pay_s3 _ _ _ _ _ _ j).trans ?_
  unfold support3
  refine Finset.sum_congr rfl fun l _ => ?_
  refine congrArg₂ (· * ·) (congrArg relu (congrArg₂ (· + ·) (congrArg₂ (· + ·) ?_ ?_) ?_)) ?_
  · refine Finset.sum_congr rfl fun n _ => congrArg₂ (· * ·) (hA (lo n)) ?_
    exact (ldLo_apply _ n l).trans (blk1_apply V c _ (lo n) l)
  · refine Finset.sum_congr rfl fun n _ => congrArg₂ (· * ·) (hA (hi n)) ?_
    exact (ldHi_apply _ n l).trans (blk1_apply V c _ (hi n) l)
  · refine (congrFun (View.ld_unit_zero (S := S1x128) hz2 _ _) _).trans ?_
    exact blk2_apply V c _ l
  · refine (congrFun (View.ld_unit_zero (S := S128x16) hz2 _ _) _).trans ?_
    exact blk3_apply V c _ l j

end Cert.KernelIdeal.Layer23Value

end
-- ==== Proof.Layer23Value.lean ====
/-
  The second pallas_call's result array, at an entry, from the relational proof data.

  The result window's 1000-row block b is written back twice: first at the phase-0 point b, from a staging buffer of
  unknown contents, and last at the phase-1 point 19 - b, from the staging buffer the body left holding the row
  softmax of that point's adjacency block (rows 1000 b .. 1000 b + 999 of the adjacency) against the support matrix
  phase 0 left. A write-back at a point of row block b' overwrites exactly the rows of block b' and leaves every
  other row. So, by induction on the number n of points whose write-backs have landed: every row block b whose last
  write-back 19 - b is below n holds the softmax of the rows of  A S3 + b2  — at n = 20, every row block.
-/
import proofs.«162218_g11665131176122_week1_w4_1195_22_alg».proof.Proof.Layer23DataIdeal
import proofs.«162218_g11665131176122_week1_w4_1195_22_alg».proof.Proof.PayloadLayer2
import proofs.«162218_g11665131176122_week1_w4_1195_22_alg».proof.Proof.PayloadLayer3
import proofs.«162218_g11665131176122_week1_w4_1195_22_alg».proof.Proof.SpecIdx
import proofs.«162218_g11665131176122_week1_w4_1195_22_alg».proof.Proof.Layer23Support
import Idealize.ShloMosaic.Lib.Pipeline.Value

set_option maxRecDepth 16384

noncomputable section

namespace Cert.KernelIdeal.Layer23Value

open Cert.KernelIdeal Cert.KernelIdeal.Gen Cert.KernelIdeal.Layer23 Cert.Gcn
open Idealize.ShloMosaic Idealize.ShloMosaic.TcCoe Idealize.ShloMosaic.ValueIdx
open Idealize.SL.Sem
open Idealize.ShloMosaic.Pipeline (Dat RDat Cfg Window)

variable (V : (c : Dev nD) → (b : Ref sig .tc) → Buf (Elt Ideal) ((c : Thread nD τ).loc b))

/-! ## The block phase 1 stores, at an entry -/

/-- The block a phase-1 point of row block b stores, at (r, j): the softmax, at column j, of row 1000 b + r of the
    logits  A S3 + b2. -/
theorem softmaxBlock_apply (c : Dev nD) (u : Fin cfg1.N) (b : Fin 10) (hb : (cfg1.win 0).index u = ![b.val, 0])
    (r : Fin 1000) (j : Fin 16) :
    (softmaxBlock (F := Ideal) (blk V c 0 u) (support3All V c) (blk V c 4 u) : S1000x16.Idx → EReal) (ix2 r j)
      = softmaxRow (logits (mat (V c main_call0_v3_1)) (support3 (mat (V c main_call0_v3_1)) (mat (V c main_call0_v3_0)) (fun l => V c main_call0_v1 (ix2 (0 : Fin 1) l)) (mat (V c main_arg6))) (fun l => V c main_call0_v2 (ix2 (0 : Fin 1) l)) (⟨b.val * 1000 + r.val, by omega⟩ : Fin 10000)) j := by
  unfold softmaxBlock
  refine (congrFun (View.canon_unit_zero (S := S1000x16) hz2 _ _) _).trans ?_
  refine (Cert.KernelIdeal.Payload.pay_out _ _ _ r j).trans ?_
  refine congrArg (fun z => softmaxRow z j) (funext fun j' => ?_)
  show _ = (∑ n : Fin 10000, (mat (V c main_call0_v3_1)) (⟨b.val * 1000 + r.val, by omega⟩ : Fin 10000) n * (support3 (mat (V c main_call0_v3_1)) (mat (V c main_call0_v3_0)) (fun l => V c main_call0_v1 (ix2 (0 : Fin 1) l)) (mat (V c main_arg6))) n j') + (fun l => V c main_call0_v2 (ix2 (0 : Fin 1) l)) j'
  refine congrArg₂ (· + ·) (Finset.sum_congr rfl fun n _ => congrArg₂ (· * ·) ?_ ?_) ?_
  · refine (congrFun (View.ld_unit_zero (S := S1000x10000) hz2 _ _) _).trans ?_
    exact blk0_apply V c u r n b hb
  · refine (congrFun (View.ld_unit_zero (S := S10000x16) hz2 _ _) _).trans ?_
    exact support3All_apply V c n j'
  · refine (congrFun (View.ld_unit_zero (S := S1x16) hz2 _ _) _).trans ?_
    exact blk4_apply V c u j'

/-! ## One write-back of the result window, at an entry -/

/-- A write-back at a point of row block b, read at an entry of that row block: what the staging buffer held at the
    entry's row inside the block. -/
theorem write6_hit (c : Dev nD) (u : Fin cfg1.N) (b : Fin 10) (hb : (cfg1.win 6).index u = ![b.val, 0])
    (G₀ : Buf (Elt Ideal) ((cfg1.win 6).arr.view.loc (c.tc : Thread nD τ)))
    (X : (cfg1.win 6).block.Idx → Elt Ideal (cfg1.win 6).elt) (i : Fin 10000) (j : Fin 16) (hi : i.val / 1000 = b.val) :
    (((cfg1.win 6).blk u).view.write (Elt Ideal) G₀ ((cfg1.win 6).cut (cfg1.grid.coords u) X) Finset.univ : S10000x16.Idx → EReal) (ix2 i j)
      = (X : S1000x16.Idx → EReal) (ix2 (⟨i.val % 1000, Nat.mod_lt _ (by omega)⟩ : Fin 1000) j) := by
  have hi10 : i.val < 10000 := i.isLt
  have e : ((cfg1.win 6).blk u).view.emb (ix2 (⟨i.val % 1000, Nat.mod_lt _ (by omega)⟩ : Fin 1000) j) = ix2 i j := by
    funext a; apply Fin.ext
    match a with
    | ⟨0, _⟩ => show (cfg1.win 6).index u 0 * 1000 + 1 * (i.val % 1000) = i.val; rw [hb]; show b.val * 1000 + 1 * (i.val % 1000) = i.val; omega
    | ⟨1, _⟩ => show (cfg1.win 6).index u 1 * 16 + 1 * j.val = j.val; rw [hb]; show 0 * 16 + 1 * j.val = j.val; omega
  rw [← e, View.write_emb_of_mem _ _ (Finset.mem_univ _)]
  show X _ = X _
  congr 1

/-- The same write-back read at an entry of another row block: what the array held. -/
theorem write6_miss (c : Dev nD) (u : Fin cfg1.N) (b : Fin 10) (hb : (cfg1.win 6).index u = ![b.val, 0])
    (G₀ : Buf (Elt Ideal) ((cfg1.win 6).arr.view.loc (c.tc : Thread nD τ)))
    (W : ((cfg1.win 6).xblock (cfg1.grid.coords u)).Idx → Elt Ideal (cfg1.win 6).elt) (i : Fin 10000) (j : Fin 16)
    (hi : i.val / 1000 ≠ b.val) :
    (((cfg1.win 6).blk u).view.write (Elt Ideal) G₀ W Finset.univ : S10000x16.Idx → EReal) (ix2 i j)
      = (G₀ : S10000x16.Idx → EReal) (ix2 i j) := by
  refine View.write_of_not_mem _ _ _ ?_
  rw [View.setOn_univ]
  show ix2 i j ∉ ((View.whole main_v0).slice ((cfg1.win 6).rect u)).set
  rw [View.set_slice_whole, Rect.mem_set_unit]
  intro h
  have h0 : (cfg1.win 6).index u 0 * 1000 ≤ i.val ∧ i.val < (cfg1.win 6).index u 0 * 1000 + 1000 := h 0
  rw [hb] at h0
  have h0' : b.val * 1000 ≤ i.val ∧ i.val < b.val * 1000 + 1000 := h0
  omega

/-! ## The result array -/

/-- After the write-backs below n, every row block whose last write-back (at the phase-1 point 19 - b) is below n
    holds the softmax rows. -/
theorem arrAt_rows (c : Dev nD) (n : ℕ) : n ≤ cfg1.N →
    ∀ G : Buf (Elt Ideal) ((cfg1.win 6).arr.view.loc (c.tc : Thread nD τ)), (rdat (F := Ideal) V c).ArrAt 6 n G →
    ∀ (i : Fin 10000) (j : Fin 16), 19 - i.val / 1000 < n →
      (G : S10000x16.Idx → EReal) (ix2 i j) = softmaxRow (logits (mat (V c main_call0_v3_1)) (support3 (mat (V c main_call0_v3_1)) (mat (V c main_call0_v3_0)) (fun l => V c main_call0_v1 (ix2 (0 : Fin 1) l)) (mat (V c main_arg6))) (fun l => V c main_call0_v2 (ix2 (0 : Fin 1) l)) i) j := by
  induction n with
  | zero => intro _ _ _ i j h; exact absurd h (Nat.not_lt_zero _)
  | succ n ih =>
    intro hn G hG i j hlt
    have hN : cfg1.N = 20 := N_1
    have hi10 : i.val < 10000 := i.isLt
    have hnN : n < cfg1.N := by omega
    have hstep : (if (cfg1.win 6).flush ⟨n, hnN⟩ then (rdat (F := Ideal) V c).ArrStep 6 ⟨n, hnN⟩ ((rdat (F := Ideal) V c).ArrAt 6 n)
        else (rdat (F := Ideal) V c).ArrAt 6 n) G := by
      rw [← (rdat (F := Ideal) V c).ArrAt_succ 6 ⟨n, hnN⟩]; exact hG
    by_cases hf : (cfg1.win 6).flush ⟨n, hnN⟩ = true
    · rw [if_pos hf] at hstep
      obtain ⟨G₀, X, hG₀, ⟨Y, hY, hXY⟩, rfl⟩ := hstep
      dsimp only [rdat] at hXY
      by_cases hn10 : n < 10
      · -- a phase-0 point writes row block n back; the row blocks in question are others
        have hb : (cfg1.win 6).index ⟨n, hnN⟩ = ![(⟨n, hn10⟩ : Fin 10).val, 0] := by
          rw [index6]; show ![if n < 10 then n else 19 - n, 0] = _; rw [if_pos hn10]
        refine (write6_miss c ⟨n, hnN⟩ ⟨n, hn10⟩ hb G₀ _ i j (by show i.val / 1000 ≠ n; omega)).trans ?_
        exact ih (by omega) G₀ hG₀ i j (by omega)
      · have hb : (cfg1.win 6).index ⟨n, hnN⟩ = ![(⟨19 - n, by omega⟩ : Fin 10).val, 0] := by
          rw [index6]; show ![if n < 10 then n else 19 - n, 0] = _; rw [if_neg hn10]
        have hb0 : (cfg1.win 0).index ⟨n, hnN⟩ = ![(⟨19 - n, by omega⟩ : Fin 10).val, 0] := by
          rw [index0]; show ![if n < 10 then n else 19 - n, 0] = _; rw [if_neg hn10]
        by_cases hblock : i.val / 1000 = 19 - n
        · -- the phase-1 point 19 - b writes row block b back from the softmax block
          rw [if_pos ((cond2_iff ⟨n, hnN⟩).mpr (by show 10 ≤ n; omega))] at hXY
          subst hXY
          refine (write6_hit c ⟨n, hnN⟩ ⟨19 - n, by omega⟩ hb G₀ _ i j hblock).trans ?_
          refine (softmaxBlock_apply V c ⟨n, hnN⟩ ⟨19 - n, by omega⟩ hb0 _ j).trans ?_
          refine congrArg (fun i' => softmaxRow (logits (mat (V c main_call0_v3_1)) (support3 (mat (V c main_call0_v3_1)) (mat (V c main_call0_v3_0)) (fun l => V c main_call0_v1 (ix2 (0 : Fin 1) l)) (mat (V c main_arg6))) (fun l => V c main_call0_v2 (ix2 (0 : Fin 1) l)) i') j) (Fin.ext ?_)
          show (19 - n) * 1000 + i.val % 1000 = i.val
          omega
        · refine (write6_miss c ⟨n, hnN⟩ ⟨19 - n, by omega⟩ hb G₀ _ i j hblock).trans ?_
          exact ih (by omega) G₀ hG₀ i j (by omega)
    · rw [if_neg hf] at hstep
      have h9 : n = 9 := by
        by_contra h; exact hf ((flush6 ⟨n, hnN⟩).mpr h)
      omega

theorem result_array (c : Dev nD) (G : Buf (Elt Ideal) ((cfg1.win 6).arr.view.loc (c.tc : Thread nD τ))) (hG : (rdat (F := Ideal) V c).ArrAt 6 cfg1.N G) (i : Fin 10000) (j : Fin 16) :
    G (ix2 i j) = softmaxRow (logits (mat (V c main_call0_v3_1)) (support3 (mat (V c main_call0_v3_1)) (mat (V c main_call0_v3_0)) (fun l => V c main_call0_v1 (ix2 (0 : Fin 1) l)) (mat (V c main_arg6))) (fun l => V c main_call0_v2 (ix2 (0 : Fin 1) l)) i) j :=
  arrAt_rows V c cfg1.N (Nat.le_refl _) G hG i j (by
    have hN : cfg1.N = 20 := N_1
    have hi10 : i.val < 10000 := i.isLt
    omega)

end Cert.KernelIdeal.Layer23Value

end
-- ==== Proof.ResultSpec.lean ====
/-
  The result both programs compute, as a function of the kernel's launch memory: entry (i, j) of the row softmax of
  A S3 + b2, with S3 = relu(A S2 + bm) W2 and S2 = relu((A X) W1 + b1) Wm (`kernelOut`), A, X, W1, b1, Wm, bm, W2, b2 the
  eight argument arrays.
-/
import proofs.«162218_g11665131176122_week1_w4_1195_22_alg».proof.KernelIdeal
import proofs.«162218_g11665131176122_week1_w4_1195_22_alg».proof.Proof.SpecIdx

noncomputable section

namespace Cert.Proof.ResultSpec

open Cert.Gcn Idealize.ShloMosaic Idealize.ShloMosaic.ValueIdx Idealize.SL.Sem

/-- The result array on core `c`. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v0) := fun idx =>
  kernelOut (mat (m ((c.tc : Thread Cert.KernelIdeal.nD Cert.KernelIdeal.τ).loc Cert.KernelIdeal.main_arg0) : Cert.KernelIdeal.S10000x10000.Idx → EReal)) (mat (m ((c.tc : Thread Cert.KernelIdeal.nD Cert.KernelIdeal.τ).loc Cert.KernelIdeal.main_arg1) : Cert.KernelIdeal.S10000x128.Idx → EReal)) (mat (m ((c.tc : Thread Cert.KernelIdeal.nD Cert.KernelIdeal.τ).loc Cert.KernelIdeal.main_arg2) : Cert.KernelIdeal.S128x128.Idx → EReal)) (vec (m ((c.tc : Thread Cert.KernelIdeal.nD Cert.KernelIdeal.τ).loc Cert.KernelIdeal.main_arg3) : Cert.KernelIdeal.S128.Idx → EReal)) (mat (m ((c.tc : Thread Cert.KernelIdeal.nD Cert.KernelIdeal.τ).loc Cert.KernelIdeal.main_arg4) : Cert.KernelIdeal.S128x128.Idx → EReal)) (vec (m ((c.tc : Thread Cert.KernelIdeal.nD Cert.KernelIdeal.τ).loc Cert.KernelIdeal.main_arg5) : Cert.KernelIdeal.S128.Idx → EReal)) (mat (m ((c.tc : Thread Cert.KernelIdeal.nD Cert.KernelIdeal.τ).loc Cert.KernelIdeal.main_arg6) : Cert.KernelIdeal.S128x16.Idx → EReal)) (vec (m ((c.tc : Thread Cert.KernelIdeal.nD Cert.KernelIdeal.τ).loc Cert.KernelIdeal.main_arg7) : Cert.KernelIdeal.S16.Idx → EReal))
    (⟨(idx 0).val, (idx 0).isLt⟩ : Fin 10000) (⟨(idx 1).val, (idx 1).isLt⟩ : Fin 16)

theorem result_apply (m : (ℓ : Loc Cert.KernelIdeal.nD Cert.KernelIdeal.τ Cert.KernelIdeal.sig) → Buf (Elt Ideal) ℓ) (c : Dev Cert.KernelIdeal.nD) (i : Fin 10000) (j : Fin 16) :
    (result m c : Cert.KernelIdeal.S10000x16.Idx → EReal) (ix2 i j) = kernelOut (mat (m ((c.tc : Thread Cert.KernelIdeal.nD Cert.KernelIdeal.τ).loc Cert.KernelIdeal.main_arg0) : Cert.KernelIdeal.S10000x10000.Idx → EReal)) (mat (m ((c.tc : Thread Cert.KernelIdeal.nD Cert.KernelIdeal.τ).loc Cert.KernelIdeal.main_arg1) : Cert.KernelIdeal.S10000x128.Idx → EReal)) (mat (m ((c.tc : Thread Cert.KernelIdeal.nD Cert.KernelIdeal.τ).loc Cert.KernelIdeal.main_arg2) : Cert.KernelIdeal.S128x128.Idx → EReal)) (vec (m ((c.tc : Thread Cert.KernelIdeal.nD Cert.KernelIdeal.τ).loc Cert.KernelIdeal.main_arg3) : Cert.KernelIdeal.S128.Idx → EReal)) (mat (m ((c.tc : Thread Cert.KernelIdeal.nD Cert.KernelIdeal.τ).loc Cert.KernelIdeal.main_arg4) : Cert.KernelIdeal.S128x128.Idx → EReal)) (vec (m ((c.tc : Thread Cert.KernelIdeal.nD Cert.KernelIdeal.τ).loc Cert.KernelIdeal.main_arg5) : Cert.KernelIdeal.S128.Idx → EReal)) (mat (m ((c.tc : Thread Cert.KernelIdeal.nD Cert.KernelIdeal.τ).loc Cert.KernelIdeal.main_arg6) : Cert.KernelIdeal.S128x16.Idx → EReal)) (vec (m ((c.tc : Thread Cert.KernelIdeal.nD Cert.KernelIdeal.τ).loc Cert.KernelIdeal.main_arg7) : Cert.KernelIdeal.S16.Idx → EReal)) i j := rfl

end Cert.Proof.ResultSpec

end
-- ==== Proof.Bridge.lean ====
/-
  The kernel's result is the common result. The result array holds contents the second pallas_call's write-backs allow;
  every such array is, entry by entry, the row softmax of A' S3 + b2' with S3 = relu(A' S2' + bm') W2' over the arrays
  A', S2', bm', W2', b2' that pallas_call finds; and those are the adjacency matrix, relu((A X) W1 + b1) Wm, and the
  last three parameters as launched (the first pallas_call's two arrays and the reshaped biases read back).
-/
import proofs.«162218_g11665131176122_week1_w4_1195_22_alg».proof.Proof.RunIdeal
import proofs.«162218_g11665131176122_week1_w4_1195_22_alg».proof.Proof.KernelInputs
import proofs.«162218_g11665131176122_week1_w4_1195_22_alg».proof.Proof.Layer23Value
import proofs.«162218_g11665131176122_week1_w4_1195_22_alg».proof.Proof.ResultSpec

noncomputable section

namespace Cert.KernelIdeal.Bridge

open Cert.KernelIdeal Cert.KernelIdeal.Gen Cert.Gcn
open Idealize.ShloMosaic Idealize.ShloMosaic.TcCoe Idealize.ShloMosaic.ValueIdx Idealize.SL.Sem

variable (m : (ℓ : Loc nD τ sig) → Buf (Elt Ideal) ℓ)

/-- Any array the second pallas_call's write-backs allow is the common result. -/
theorem result_of_ArrAt (c : Dev nD) (G : Buf (Elt Ideal) ((cfg1.win 6).arr.view.loc (c.tc : Thread nD τ)))
    (hG : (Layer23.rdat (F := Ideal) (Run.V2 m) c).ArrAt 6 cfg1.N G) : G = Cert.Proof.ResultSpec.result m c := by
  funext idx
  obtain ⟨i, j, rfl⟩ : ∃ (i : Fin 10000) (j : Fin 16), idx = ix2 i j := ⟨idx 0, idx 1, eq_ix2 idx⟩
  rw [Cert.Proof.ResultSpec.result_apply]
  refine (Layer23Value.result_array (Run.V2 m) c G hG i j).trans ?_
  rw [KernelInputs.adjacency_in m c, KernelInputs.support_in m c, KernelInputs.bias_in m c, KernelInputs.weight_in m c,
    KernelInputs.lastBias_in m c]
  rfl

end Cert.KernelIdeal.Bridge

end
-- ==== Proof.LibRealMatrix.lean ====
/-
  Matrix algebra on the extended reals for entries that are real numbers.

  The extended reals are not a ring: with an infinite entry, distributivity fails, and with it the associativity of
  the matrix product. For matrices all of whose entries are real numbers (`IsReal`: the value is the coercion of a
  real) every finite sum and product is again real, and the usual laws hold. Here:
    * `IsReal` and its closure under `+`, `*`, finite sums and `max` against a real;
    * `sum_coe`: a finite sum of coerced reals is the coercion of the real sum;
    * `matmul_assoc`: (A X) W = A (X W) entry by entry, for real-valued A, X, W over any finite index types;
    * `sum_split`: a sum over `Fin (m + n)` is the sum over the first `m` plus the sum over the last `n` indices
      (no finiteness needed: `+` on the extended reals is associative and commutative).
  It imports Mathlib only.
-/
import Mathlib.Data.EReal.Basic
import Mathlib.Data.EReal.Operations
import Mathlib.Algebra.BigOperators.Fin
import Mathlib.Algebra.BigOperators.Ring.Finset

namespace Cert.LibRealMatrix

open scoped BigOperators

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of coerced reals is the coercion of the sum of the reals. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) {f : ι → EReal} (hf : ∀ i, IsReal (f i)) : IsReal (∑ i ∈ s, f i) := by
  choose g hg using hf
  exact ⟨∑ i ∈ s, g i, by rw [← sum_coe]; exact Finset.sum_congr rfl fun i _ => hg i⟩

/-- Associativity of the matrix product, entry (m, n), for matrices with real entries:
    ∑ j, (∑ k, A m k * X k j) * W j n = ∑ k, A m k * (∑ j, X k j * W j n). -/
theorem matmul_assoc {K J : Type*} [Fintype K] [Fintype J] (a : K → EReal) (X : K → J → EReal) (w : J → EReal)
    (ha : ∀ k, IsReal (a k)) (hX : ∀ k j, IsReal (X k j)) (hw : ∀ j, IsReal (w j)) :
    ∑ j, (∑ k, a k * X k j) * w j = ∑ k, a k * ∑ j, X k j * w j := by
  choose a' ha' using ha
  choose X' hX' using hX
  choose w' hw' using hw
  have hl : ∀ j, (∑ k, a k * X k j) * w j = (((∑ k, a' k * X' k j) * w' j : ℝ) : EReal) := fun j => by
    rw [EReal.coe_mul, ← sum_coe, hw' j]
    congr 1
    exact Finset.sum_congr rfl fun k _ => by rw [ha' k, hX' k j, EReal.coe_mul]
  have hr : ∀ k, a k * ∑ j, X k j * w j = ((a' k * ∑ j, X' k j * w' j : ℝ) : EReal) := fun k => by
    rw [EReal.coe_mul, ← sum_coe, ha' k]
    congr 1
    exact Finset.sum_congr rfl fun j _ => by rw [hX' k j, hw' j, EReal.coe_mul]
  rw [Finset.sum_congr rfl fun j _ => hl j, Finset.sum_congr rfl fun k _ => hr k, sum_coe, sum_coe]
  congr 1
  simp only [Finset.sum_mul, Finset.mul_sum]
  rw [Finset.sum_comm]
  exact Finset.sum_congr rfl fun k _ => Finset.sum_congr rfl fun j _ => by ring

/-- A sum over `Fin (m + n)` is the sum over its first `m` indices plus the sum over its last `n`. -/
theorem sum_split {m n : ℕ} (f : Fin (m + n) → EReal) :
    ∑ i, f i = ∑ i : Fin m, f (Fin.castAdd n i) + ∑ i : Fin n, f (Fin.natAdd m i) :=
  Fin.sum_univ_add f

end Cert.LibRealMatrix
-- ==== Proof.Algebra.lean ====
/-
  The reference's arrangement of the three graph-convolution layers equals the kernel's, for real-valued inputs.

  Layer 1: A (X W1) = (A X) W1 entry by entry is the associativity of the matrix product, which holds on the extended
  reals when all entries are real numbers. Layer 2: both sides form A (H Wm); the kernel takes the contraction over
  the 10000 nodes as the first 5000 plus the last 5000, which is a sum over Fin (5000 + 5000) split in two. Layer 3:
  both sides form A (xt W2) + b2, and the softmax of equal rows is equal.
-/
import proofs.«162218_g11665131176122_week1_w4_1195_22_alg».proof.Proof.Spec
import proofs.«162218_g11665131176122_week1_w4_1195_22_alg».proof.Proof.LibRealMatrix

noncomputable section

namespace Cert.Gcn

open Cert.LibRealMatrix
open scoped BigOperators

/-- A sum over the 10000 nodes is the sum over the first 5000 plus the sum over the last 5000. -/
theorem sum_halves (f : Fin 10000 → EReal) :
    ∑ n, f n = (∑ n : Fin 5000, f (lo n)) + ∑ n : Fin 5000, f (hi n) :=
  sum_split (m := 5000) (n := 5000) f

/-- Layer 1: A (X W1) + b1 = (A X) W1 + b1, entry by entry, for real-valued A, X, W1. -/
theorem conv_eq_assoc (A : Mat 10000 10000) (X : Mat 10000 128) (W1 : Mat 128 128) (b1 : Fin 128 → EReal)
    (hA : ∀ i n, IsReal (A i n)) (hX : ∀ n k, IsReal (X n k)) (hW1 : ∀ k l, IsReal (W1 k l))
    (n : Fin 10000) (l : Fin 128) :
    conv A X W1 b1 n l = (∑ k : Fin 128, (∑ m : Fin 10000, A n m * X m k) * W1 k l) + b1 l := by
  unfold conv
  rw [matmul_assoc (A n) X (fun k => W1 k l) (hA n) hX (fun k => hW1 k l)]

/-- Layer 2: A (H Wm) + bm with the contraction over the nodes split in two halves. -/
theorem conv_eq_halves (A : Mat 10000 10000) (H : Mat 10000 128) (Wm : Mat 128 128) (bm : Fin 128 → EReal)
    (i : Fin 10000) (l : Fin 128) :
    conv A H Wm bm i l =
      ((∑ n : Fin 5000, A i (lo n) * (∑ k : Fin 128, H (lo n) k * Wm k l))
        + (∑ n : Fin 5000, A i (hi n) * (∑ k : Fin 128, H (hi n) k * Wm k l))) + bm l := by
  unfold conv
  rw [sum_halves]

theorem refOut_eq_kernelOut (A : Mat 10000 10000) (X : Mat 10000 128) (W1 : Mat 128 128) (b1 : Fin 128 → EReal) (Wm : Mat 128 128) (bm : Fin 128 → EReal) (W2 : Mat 128 16) (b2 : Fin 16 → EReal)
    (hA : ∀ i n, Cert.LibRealMatrix.IsReal (A i n)) (hX : ∀ n k, Cert.LibRealMatrix.IsReal (X n k)) (hW1 : ∀ k l, Cert.LibRealMatrix.IsReal (W1 k l)) (hb1 : ∀ l, Cert.LibRealMatrix.IsReal (b1 l))
    (hWm : ∀ k l, Cert.LibRealMatrix.IsReal (Wm k l)) (hbm : ∀ l, Cert.LibRealMatrix.IsReal (bm l)) (hW2 : ∀ k l, Cert.LibRealMatrix.IsReal (W2 k l)) (hb2 : ∀ l, Cert.LibRealMatrix.IsReal (b2 l)) :
    refOut A X W1 b1 Wm bm W2 b2 = kernelOut A X W1 b1 Wm bm W2 b2 := by
  -- the reference's hidden layer is the kernel's relu((A X) W1 + b1)
  have h1 : (fun n k => relu (conv A X W1 b1 n k))
      = fun n l => relu ((∑ k : Fin 128, (∑ m : Fin 10000, A n m * X m k) * W1 k l) + b1 l) := by
    funext n l
    rw [conv_eq_assoc A X W1 b1 hA hX hW1 n l]
  -- the logits agree as rows
  have h3 : ∀ i, conv A (fun n k => relu (conv A (fun n k => relu (conv A X W1 b1 n k)) Wm bm n k)) W2 b2 i
      = logits A (support3 A (support2 A X W1 b1 Wm) bm W2) b2 i := by
    intro i
    funext j
    rw [h1]
    unfold logits support3 support2
    unfold conv
    refine congrArg (· + b2 j) ?_
    refine Finset.sum_congr rfl fun n _ => ?_
    refine congrArg (A i n * ·) ?_
    refine Finset.sum_congr rfl fun l _ => ?_
    refine congrArg (· * W2 l j) ?_
    refine congrArg relu ?_
    refine congrArg (· + bm l) ?_
    exact sum_halves _
  funext i j
  unfold refOut kernelOut
  rw [h3 i]

end Cert.Gcn

end
-- ==== Proof.RefImports.lean ====
/-
  The reference's run and its read-at-an-index lemmas, gathered for the modules that cite them.
-/
import proofs.«162218_g11665131176122_week1_w4_1195_22_alg».proof.Proof.Gen.ReferenceIdeal.Run
import proofs.«162218_g11665131176122_week1_w4_1195_22_alg».proof.Proof.Gen.ReferenceIdeal.Read
-- ==== Proof.RefRead.lean ====
/-
  The reference's result, read at an entry, is the three graph-convolution layers and the row softmax of the
  specification, in the reference's arrangement (`refOut`).

  The generated read-at-an-index lemmas read the reference one operation at a time. Here they are chained: each
  stage of the reference, at the index with coordinates (i, l), is the corresponding matrix expression at (i, l).
  A product of matrices is the sum over the contracted coordinate; a bias kept as a row and broadcast down the rows
  reads the bias at the column; the rectifier is the maximum with the zero constant; the maximum over a row, folded
  from minus infinity, is the row's maximum folded from bottom, and the further maximum with minus infinity changes
  nothing; the sum over a row starts from the zero constant.
-/
import proofs.«162218_g11665131176122_week1_w4_1195_22_alg».proof.Proof.RefImports
import proofs.«162218_g11665131176122_week1_w4_1195_22_alg».proof.Proof.SpecIdx
import proofs.«162218_g11665131176122_week1_w4_1195_22_alg».proof.Proof.LibRowOps
import Idealize.ShloMosaic.PureOps.Ideal.Laws

noncomputable section

namespace Cert.ReferenceIdeal.RefValue

open Cert.ReferenceIdeal Cert.ReferenceIdeal.Read Cert.Gcn Idealize.ShloMosaic Idealize.ShloMosaic.ValueIdx
open scoped BigOperators

/-! ## The operand indices of each operation, by coordinates -/

theorem lidx_v0 (i : Fin 10000) (j : Fin 128) (k : Fin 128) : lidx_main_v0 (ix2 i j) k = ix2 i k :=
  funext fun a => Fin.ext (by match a with | ⟨0, _⟩ => rfl | ⟨1, _⟩ => rfl)
theorem ridx_v0 (i : Fin 10000) (j : Fin 128) (k : Fin 128) : ridx_main_v0 (ix2 i j) k = ix2 k j :=
  funext fun a => Fin.ext (by match a with | ⟨0, _⟩ => rfl | ⟨1, _⟩ => rfl)
theorem lidx_v1 (i : Fin 10000) (j : Fin 128) (k : Fin 10000) : lidx_main_v1 (ix2 i j) k = ix2 i k :=
  funext fun a => Fin.ext (by match a with | ⟨0, _⟩ => rfl | ⟨1, _⟩ => rfl)
theorem ridx_v1 (i : Fin 10000) (j : Fin 128) (k : Fin 10000) : ridx_main_v1 (ix2 i j) k = ix2 k j :=
  funext fun a => Fin.ext (by match a with | ⟨0, _⟩ => rfl | ⟨1, _⟩ => rfl)
theorem lidx_v6 (i : Fin 10000) (j : Fin 128) (k : Fin 128) : lidx_main_v6 (ix2 i j) k = ix2 i k :=
  funext fun a => Fin.ext (by match a with | ⟨0, _⟩ => rfl | ⟨1, _⟩ => rfl)
theorem ridx_v6 (i : Fin 10000) (j : Fin 128) (k : Fin 128) : ridx_main_v6 (ix2 i j) k = ix2 k j :=
  funext fun a => Fin.ext (by match a with | ⟨0, _⟩ => rfl | ⟨1, _⟩ => rfl)
theorem lidx_v7 (i : Fin 10000) (j : Fin 128) (k : Fin 10000) : lidx_main_v7 (ix2 i j) k = ix2 i k :=
  funext fun a => Fin.ext (by match a with | ⟨0, _⟩ => rfl | ⟨1, _⟩ => rfl)
theorem ridx_v7 (i : Fin 10000) (j : Fin 128) (k : Fin 10000) : ridx_main_v7 (ix2 i j) k = ix2 k j :=
  funext fun a => Fin.ext (by match a with | ⟨0, _⟩ => rfl | ⟨1, _⟩ => rfl)
theorem lidx_v12 (i : Fin 10000) (j : Fin 16) (k : Fin 128) : lidx_main_v12 (ix2 i j) k = ix2 i k :=
  funext fun a => Fin.ext (by match a with | ⟨0, _⟩ => rfl | ⟨1, _⟩ => rfl)
theorem ridx_v12 (i : Fin 10000) (j : Fin 16) (k : Fin 128) : ridx_main_v12 (ix2 i j) k = ix2 k j :=
  funext fun a => Fin.ext (by match a with | ⟨0, _⟩ => rfl | ⟨1, _⟩ => rfl)
theorem lidx_v13 (i : Fin 10000) (j : Fin 16) (k : Fin 10000) : lidx_main_v13 (ix2 i j) k = ix2 i k :=
  funext fun a => Fin.ext (by match a with | ⟨0, _⟩ => rfl | ⟨1, _⟩ => rfl)
theorem ridx_v13 (i : Fin 10000) (j : Fin 16) (k : Fin 10000) : ridx_main_v13 (ix2 i j) k = ix2 k j :=
  funext fun a => Fin.ext (by match a with | ⟨0, _⟩ => rfl | ⟨1, _⟩ => rfl)
theorem idx_v2_v3 (i : Fin 10000) (l : Fin 128) : idx_main_v2 (idx_main_v3 (ix2 i l)) = ix1 l :=
  funext fun a => Fin.ext (by match a with | ⟨0, _⟩ => rfl)
theorem idx_v8_v9 (i : Fin 10000) (l : Fin 128) : idx_main_v8 (idx_main_v9 (ix2 i l)) = ix1 l :=
  funext fun a => Fin.ext (by match a with | ⟨0, _⟩ => rfl)
theorem idx_v14_v15 (i : Fin 10000) (j : Fin 16) : idx_main_v14 (idx_main_v15 (ix2 i j)) = ix1 j :=
  funext fun a => Fin.ext (by match a with | ⟨0, _⟩ => rfl)
theorem idx_v20_v21 (i : Fin 10000) (j : Fin 16) : idx_main_v20 (idx_main_v21 (ix2 i j)) = ix1 i :=
  funext fun a => Fin.ext (by match a with | ⟨0, _⟩ => rfl)
theorem idx_v25_v26 (i : Fin 10000) (j : Fin 16) : idx_main_v25 (idx_main_v26 (ix2 i j)) = ix1 i :=
  funext fun a => Fin.ext (by match a with | ⟨0, _⟩ => rfl)
theorem idx_v24 (i : Fin 10000) (k : Fin 16) : idx_main_v24 (ix1 i) k = ix2 i k :=
  funext fun a => Fin.ext (by match a with | ⟨0, _⟩ => rfl | ⟨1, _⟩ => rfl)

/-! ## The two constants -/

/-- The f32 pattern of minus infinity is the bottom of the extended reals. -/
theorem ofBits_neg_inf : Ideal.ofBits .f32 0xFF800000#32 = ⊥ := by simp [Ideal.ofBits, Ideal.ieee]

/-- The zero constant the rectifier compares with, broadcast to [10000, 128]. -/
theorem zero0 (i : S10000x128.Idx) : val_main_call0_v0 (F := Ideal) i = 0 := by
  rw [val_main_call0_v0_apply, val_main_call0_cst_apply, Ideal.ofBits_def, Ideal.ofBits_zero_f32]
theorem zero1 (i : S10000x128.Idx) : val_main_call1_v0 (F := Ideal) i = 0 := by
  rw [val_main_call1_v0_apply, val_main_call1_cst_apply, Ideal.ofBits_def, Ideal.ofBits_zero_f32]

/-! ## Layer 1: h = relu(A (X W1) + b1) -/

theorem s0 (x1 : (⟨S10000x128, .f32⟩ : BufTy).Contents (Elt Ideal)) (x2 : (⟨S128x128, .f32⟩ : BufTy).Contents (Elt Ideal)) (n : Fin 10000) (l : Fin 128) :
    val_main_v0 (F := Ideal) x1 x2 (ix2 n l) = ∑ k : Fin 128, mat x1 n k * mat x2 k l := by
  rw [val_main_v0_apply]
  refine Finset.sum_congr rfl fun k _ => ?_
  rw [lidx_v0, ridx_v0]; rfl

theorem s1 (x0 : (⟨S10000x10000, .f32⟩ : BufTy).Contents (Elt Ideal)) (x1 : (⟨S10000x128, .f32⟩ : BufTy).Contents (Elt Ideal)) (x2 : (⟨S128x128, .f32⟩ : BufTy).Contents (Elt Ideal)) (i : Fin 10000) (l : Fin 128) :
    val_main_v1 (F := Ideal) x0 x1 x2 (ix2 i l) = ∑ n : Fin 10000, mat x0 i n * ∑ k : Fin 128, mat x1 n k * mat x2 k l := by
  rw [val_main_v1_apply]
  refine Finset.sum_congr rfl fun n _ => ?_
  rw [lidx_v1, ridx_v1, s0]; rfl

theorem b3 (x3 : (⟨S128, .f32⟩ : BufTy).Contents (Elt Ideal)) (i : Fin 10000) (l : Fin 128) : val_main_v3 (F := Ideal) x3 (ix2 i l) = vec x3 l := by
  rw [val_main_v3_apply, val_main_v2_apply, idx_v2_v3]; rfl

theorem s5 (x0 : (⟨S10000x10000, .f32⟩ : BufTy).Contents (Elt Ideal)) (x1 : (⟨S10000x128, .f32⟩ : BufTy).Contents (Elt Ideal)) (x2 : (⟨S128x128, .f32⟩ : BufTy).Contents (Elt Ideal)) (x3 : (⟨S128, .f32⟩ : BufTy).Contents (Elt Ideal)) (i : Fin 10000) (l : Fin 128) :
    val_main_v5 (F := Ideal) x0 x1 x2 x3 (ix2 i l) = relu (conv (mat x0) (mat x1) (mat x2) (vec x3) i l) := by
  rw [val_main_v5_apply, val_main_v4_apply, s1, b3, zero0, Ideal.maximumf_def, Ideal.addf_def]; rfl

/-! ## Layer 2: xt = relu(A (h Wm) + bm) -/

theorem s6 (x0 : (⟨S10000x10000, .f32⟩ : BufTy).Contents (Elt Ideal)) (x1 : (⟨S10000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (n : Fin 10000) (l : Fin 128) :
    val_main_v6 (F := Ideal) x0 x1 x2 x3 x4 (ix2 n l) = ∑ k : Fin 128, relu (conv (mat x0) (mat x1) (mat x2) (vec x3) n k) * mat x4 k l := by
  rw [val_main_v6_apply]
  refine Finset.sum_congr rfl fun k _ => ?_
  rw [lidx_v6, ridx_v6, s5]; rfl

theorem s7 (x0 : (⟨S10000x10000, .f32⟩ : BufTy).Contents (Elt Ideal)) (x1 : (⟨S10000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (i : Fin 10000) (l : Fin 128) :
    val_main_v7 (F := Ideal) x0 x1 x2 x3 x4 (ix2 i l)
      = ∑ n : Fin 10000, mat x0 i n * ∑ k : Fin 128, relu (conv (mat x0) (mat x1) (mat x2) (vec x3) n k) * mat x4 k l := by
  rw [val_main_v7_apply]
  refine Finset.sum_congr rfl fun n _ => ?_
  rw [lidx_v7, ridx_v7, s6]; rfl

theorem b9 (x5 : (⟨S128, .f32⟩ : BufTy).Contents (Elt Ideal)) (i : Fin 10000) (l : Fin 128) : val_main_v9 (F := Ideal) x5 (ix2 i l) = vec x5 l := by
  rw [val_main_v9_apply, val_main_v8_apply, idx_v8_v9]; rfl

theorem s11 (x0 : (⟨S10000x10000, .f32⟩ : BufTy).Contents (Elt Ideal)) (x1 : (⟨S10000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (i : Fin 10000) (l : Fin 128) :
    val_main_v11 (F := Ideal) x0 x1 x2 x3 x4 x5 (ix2 i l) = relu (conv (mat x0) (fun n k => relu (conv (mat x0) (mat x1) (mat x2) (vec x3) n k)) (mat x4) (vec x5) i l) := by
  rw [val_main_v11_apply, val_main_v10_apply, s7, b9, zero1, Ideal.maximumf_def, Ideal.addf_def]; rfl

/-! ## Layer 3: the logits A (xt W2) + b2 -/

theorem s12 (x0 : (⟨S10000x10000, .f32⟩ : BufTy).Contents (Elt Ideal)) (x1 : (⟨S10000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x16, .f32⟩ : BufTy).Contents (Elt Ideal)) (n : Fin 10000) (j : Fin 16) :
    val_main_v12 (F := Ideal) x0 x1 x2 x3 x4 x5 x6 (ix2 n j) = ∑ k : Fin 128, relu (conv (mat x0) (fun n k => relu (conv (mat x0) (mat x1) (mat x2) (vec x3) n k)) (mat x4) (vec x5) n k) * mat x6 k j := by
  rw [val_main_v12_apply]
  refine Finset.sum_congr rfl fun k _ => ?_
  rw [lidx_v12, ridx_v12, s11]; rfl

theorem s13 (x0 : (⟨S10000x10000, .f32⟩ : BufTy).Contents (Elt Ideal)) (x1 : (⟨S10000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x16, .f32⟩ : BufTy).Contents (Elt Ideal)) (i : Fin 10000) (j : Fin 16) :
    val_main_v13 (F := Ideal) x0 x1 x2 x3 x4 x5 x6 (ix2 i j)
      = ∑ n : Fin 10000, mat x0 i n * ∑ k : Fin 128, relu (conv (mat x0) (fun n k => relu (conv (mat x0) (mat x1) (mat x2) (vec x3) n k)) (mat x4) (vec x5) n k) * mat x6 k j := by
  rw [val_main_v13_apply]
  refine Finset.sum_congr rfl fun n _ => ?_
  rw [lidx_v13, ridx_v13, s12]; rfl

theorem b15 (x7 : (⟨S16, .f32⟩ : BufTy).Contents (Elt Ideal)) (i : Fin 10000) (j : Fin 16) : val_main_v15 (F := Ideal) x7 (ix2 i j) = vec x7 j := by
  rw [val_main_v15_apply, val_main_v14_apply, idx_v14_v15]; rfl

theorem s16 (x0 : (⟨S10000x10000, .f32⟩ : BufTy).Contents (Elt Ideal)) (x1 : (⟨S10000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x16, .f32⟩ : BufTy).Contents (Elt Ideal)) (x7 : (⟨S16, .f32⟩ : BufTy).Contents (Elt Ideal)) (i : Fin 10000) (j : Fin 16) :
    val_main_v16 (F := Ideal) x0 x1 x2 x3 x4 x5 x6 x7 (ix2 i j) = conv (mat x0) (fun n k => relu (conv (mat x0) (fun n k => relu (conv (mat x0) (mat x1) (mat x2) (vec x3) n k)) (mat x4) (vec x5) n k)) (mat x6) (vec x7) i j := by
  rw [val_main_v16_apply, s13, b15, Ideal.addf_def]; rfl

/-! ## The softmax of a row of the logits -/

/-- The maximum over a row, folded from minus infinity. -/
theorem s17 (x0 : (⟨S10000x10000, .f32⟩ : BufTy).Contents (Elt Ideal)) (x1 : (⟨S10000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x16, .f32⟩ : BufTy).Contents (Elt Ideal)) (x7 : (⟨S16, .f32⟩ : BufTy).Contents (Elt Ideal)) (i : Fin 10000) :
    val_main_v17 (F := Ideal) x0 x1 x2 x3 x4 x5 x6 x7 (ix1 i) = rowMax (conv (mat x0) (fun n k => relu (conv (mat x0) (fun n k => relu (conv (mat x0) (mat x1) (mat x2) (vec x3) n k)) (mat x4) (vec x5) n k)) (mat x6) (vec x7) i) := by
  unfold val_main_v17
  have hR : S10000x16.Reduces [1] S10000 := by decide
  rw [Host.reduce_eq_fold_single FloatOps.maximumf _ _ _ hR _ (ix1 i)]
  have e : (val_main_v16 (F := Ideal) x0 x1 x2 x3 x4 x5 x6 x7 ∘ hR.lift (ix1 i)) = fun t : Fin 16 => conv (mat x0) (fun n k => relu (conv (mat x0) (fun n k => relu (conv (mat x0) (mat x1) (mat x2) (vec x3) n k)) (mat x4) (vec x5) n k)) (mat x6) (vec x7) i t :=
    funext fun k => (congrArg (val_main_v16 (F := Ideal) x0 x1 x2 x3 x4 x5 x6 x7) (Cert.LibRowOps.lift_row hR i k)).trans
      (s16 x0 x1 x2 x3 x4 x5 x6 x7 i ⟨k.val, k.isLt⟩)
  rw [e, val_main_cst_apply, Ideal.ofBits_def, ofBits_neg_inf]
  rfl

/-- The further maximum with minus infinity changes nothing. -/
theorem s19 (x0 : (⟨S10000x10000, .f32⟩ : BufTy).Contents (Elt Ideal)) (x1 : (⟨S10000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x16, .f32⟩ : BufTy).Contents (Elt Ideal)) (x7 : (⟨S16, .f32⟩ : BufTy).Contents (Elt Ideal)) (i : Fin 10000) :
    val_main_v19 (F := Ideal) x0 x1 x2 x3 x4 x5 x6 x7 (ix1 i) = rowMax (conv (mat x0) (fun n k => relu (conv (mat x0) (fun n k => relu (conv (mat x0) (mat x1) (mat x2) (vec x3) n k)) (mat x4) (vec x5) n k)) (mat x6) (vec x7) i) := by
  rw [val_main_v19_apply, val_main_v18_apply, val_main_cst_0_apply, Ideal.ofBits_def, ofBits_neg_inf,
    Ideal.maximumf_def, s17]
  exact max_bot_left _

theorem s21 (x0 : (⟨S10000x10000, .f32⟩ : BufTy).Contents (Elt Ideal)) (x1 : (⟨S10000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x16, .f32⟩ : BufTy).Contents (Elt Ideal)) (x7 : (⟨S16, .f32⟩ : BufTy).Contents (Elt Ideal)) (i : Fin 10000) (j : Fin 16) :
    val_main_v21 (F := Ideal) x0 x1 x2 x3 x4 x5 x6 x7 (ix2 i j) = rowMax (conv (mat x0) (fun n k => relu (conv (mat x0) (fun n k => relu (conv (mat x0) (mat x1) (mat x2) (vec x3) n k)) (mat x4) (vec x5) n k)) (mat x6) (vec x7) i) := by
  rw [val_main_v21_apply, val_main_v20_apply, idx_v20_v21, s19]

theorem s23 (x0 : (⟨S10000x10000, .f32⟩ : BufTy).Contents (Elt Ideal)) (x1 : (⟨S10000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x16, .f32⟩ : BufTy).Contents (Elt Ideal)) (x7 : (⟨S16, .f32⟩ : BufTy).Contents (Elt Ideal)) (i : Fin 10000) (j : Fin 16) :
    val_main_v23 (F := Ideal) x0 x1 x2 x3 x4 x5 x6 x7 (ix2 i j) = Ideal.exp (conv (mat x0) (fun n k => relu (conv (mat x0) (fun n k => relu (conv (mat x0) (mat x1) (mat x2) (vec x3) n k)) (mat x4) (vec x5) n k)) (mat x6) (vec x7) i j - rowMax (conv (mat x0) (fun n k => relu (conv (mat x0) (fun n k => relu (conv (mat x0) (mat x1) (mat x2) (vec x3) n k)) (mat x4) (vec x5) n k)) (mat x6) (vec x7) i)) := by
  rw [val_main_v23_apply, val_main_v22_apply, s16, s21, Ideal.hostUnary_exp_def, Ideal.subf_def]

theorem s24 (x0 : (⟨S10000x10000, .f32⟩ : BufTy).Contents (Elt Ideal)) (x1 : (⟨S10000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x16, .f32⟩ : BufTy).Contents (Elt Ideal)) (x7 : (⟨S16, .f32⟩ : BufTy).Contents (Elt Ideal)) (i : Fin 10000) :
    val_main_v24 (F := Ideal) x0 x1 x2 x3 x4 x5 x6 x7 (ix1 i) = ∑ t : Fin 16, Ideal.exp (conv (mat x0) (fun n k => relu (conv (mat x0) (fun n k => relu (conv (mat x0) (mat x1) (mat x2) (vec x3) n k)) (mat x4) (vec x5) n k)) (mat x6) (vec x7) i t - rowMax (conv (mat x0) (fun n k => relu (conv (mat x0) (fun n k => relu (conv (mat x0) (mat x1) (mat x2) (vec x3) n k)) (mat x4) (vec x5) n k)) (mat x6) (vec x7) i)) := by
  rw [val_main_v24_apply, val_main_cst_1_apply, Ideal.ofBits_def, Ideal.ofBits_zero_f32, zero_add]
  refine Finset.sum_congr rfl fun t _ => ?_
  rw [idx_v24, s23]

theorem s26 (x0 : (⟨S10000x10000, .f32⟩ : BufTy).Contents (Elt Ideal)) (x1 : (⟨S10000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x16, .f32⟩ : BufTy).Contents (Elt Ideal)) (x7 : (⟨S16, .f32⟩ : BufTy).Contents (Elt Ideal)) (i : Fin 10000) (j : Fin 16) :
    val_main_v26 (F := Ideal) x0 x1 x2 x3 x4 x5 x6 x7 (ix2 i j) = ∑ t : Fin 16, Ideal.exp (conv (mat x0) (fun n k => relu (conv (mat x0) (fun n k => relu (conv (mat x0) (mat x1) (mat x2) (vec x3) n k)) (mat x4) (vec x5) n k)) (mat x6) (vec x7) i t - rowMax (conv (mat x0) (fun n k => relu (conv (mat x0) (fun n k => relu (conv (mat x0) (mat x1) (mat x2) (vec x3) n k)) (mat x4) (vec x5) n k)) (mat x6) (vec x7) i)) := by
  rw [val_main_v26_apply, val_main_v25_apply, idx_v25_v26, s24]

/-- The reference's result at (i, j) is the specification's `refOut` there. -/
theorem ref_value (x0 : (⟨S10000x10000, .f32⟩ : BufTy).Contents (Elt Ideal)) (x1 : (⟨S10000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x16, .f32⟩ : BufTy).Contents (Elt Ideal)) (x7 : (⟨S16, .f32⟩ : BufTy).Contents (Elt Ideal)) (i : Fin 10000) (j : Fin 16) :
    val_main_v27 (F := Ideal) x0 x1 x2 x3 x4 x5 x6 x7 (ix2 i j) = refOut (mat x0) (mat x1) (mat x2) (vec x3) (mat x4) (vec x5) (mat x6) (vec x7) i j := by
  rw [val_main_v27_apply, s23, s26, Ideal.hostDivf_def]
  rfl

end Cert.ReferenceIdeal.RefValue

end
-- ==== Proof.Finite.lean ====
/-
  Finiteness out of the precondition: the predicate is the conjunction, over the eight argument arrays, of
  "every entry has absolute value below plus infinity". On the extended reals |x| < +inf says x is neither infinity,
  that is, x is a real number. A conjunction of one-bit words that is 1 has every conjunct 1; an all-reduction by
  "and" that is 1 has a 1 at every index.
-/
import proofs.«162218_g11665131176122_week1_w4_1195_22_alg».proof.Defs
import proofs.«162218_g11665131176122_week1_w4_1195_22_alg».proof.Proof.Gen.Pre_finite_inputs
import proofs.«162218_g11665131176122_week1_w4_1195_22_alg».proof.Proof.LibRealMatrix
import Idealize.ShloMosaic.Lib.ReduceAll
import Idealize.ShloMosaic.Lib.Pipeline.Value
import Idealize.ShloMosaic.Lib.ValueIdx

noncomputable section

namespace Cert.KernelIdeal.Finite

open Idealize.ShloMosaic Idealize.ShloMosaic.ValueIdx Idealize.SL.Sem Cert.LibRealMatrix

/-- The scalar shape has one index. -/
instance : Subsingleton (⟨0, ![]⟩ : Shape).Idx := ⟨fun _ _ => funext fun d => d.elim0⟩

/-- The f32 pattern of plus infinity is the top of the extended reals. -/
theorem ofBits_pos_inf : Ideal.ofBits .f32 0x7F800000#32 = ⊤ := by simp [Ideal.ofBits, Ideal.ieee]

/-- An extended real whose absolute value max(x, -x) is below plus infinity is a real number. -/
theorem isReal_of_abs_lt_top (x : EReal)
    (h : Ideal.cmp .olt (max x (-x)) (Ideal.ofBits .f32 0x7F800000#32) = 1#1) : IsReal x := by
  rw [ofBits_pos_inf] at h
  induction x using EReal.rec with
  | bot => simp [Ideal.cmp] at h
  | coe r => exact ⟨r, rfl⟩
  | top => simp [Ideal.cmp] at h

/-- all(|x| < +inf) = 1 gives: every entry of x is a real number. Over any shape. -/
theorem real_of_all {s : Shape} {axes : List (Fin s.rank)} (x : FVec Ideal s .f32)
    (b : (⟨0, ![]⟩ : Shape).BroadcastsInDim s (![] : Fin 0 → Fin s.rank)) (h : s.ReducesTo axes (⟨0, ![]⟩ : Shape))
    (hu : 0 < (⟨0, ![]⟩ : Shape).numel)
    (e : Host.reduce IntOp.andi (cmpf .olt (Host.absf x) (broadcastInDim s ![] b (constant (⟨0, ![]⟩ : Shape) .f32 0x7F800000#32)))
          (constantI (⟨0, ![]⟩ : Shape) 1 1#1) h hu ix0 = 1#1)
    (i : s.Idx) : IsReal (x i) := by
  have hi := Host.reduce_andi_all _ _ h hu ix0 e i
  rw [cmpf_apply] at hi
  have hb : broadcastInDim s ![] b (constant (⟨0, ![]⟩ : Shape) .f32 0x7F800000#32) i = Ideal.ofBits .f32 0x7F800000#32 :=
    broadcastInDim_apply _ b _ i ix0 (fun a => a.elim0)
  rw [hb] at hi
  exact isReal_of_abs_lt_top (x i) hi

theorem real_of_pre [hP : Cert.Pre_finite_inputs.Facts] (m : (ℓ : Loc Cert.KernelIdeal.nD Cert.KernelIdeal.τ Cert.KernelIdeal.sig) → Buf (Elt Ideal) ℓ) (hpre : Cert.Pre_KernelIdeal m) (c : Dev Cert.KernelIdeal.nD) :
    (∀ i, Cert.LibRealMatrix.IsReal (m ((c.tc : Thread Cert.KernelIdeal.nD Cert.KernelIdeal.τ).loc Cert.KernelIdeal.main_arg0) i))
    ∧ (∀ i, Cert.LibRealMatrix.IsReal (m ((c.tc : Thread Cert.KernelIdeal.nD Cert.KernelIdeal.τ).loc Cert.KernelIdeal.main_arg1) i))
    ∧ (∀ i, Cert.LibRealMatrix.IsReal (m ((c.tc : Thread Cert.KernelIdeal.nD Cert.KernelIdeal.τ).loc Cert.KernelIdeal.main_arg2) i))
    ∧ (∀ i, Cert.LibRealMatrix.IsReal (m ((c.tc : Thread Cert.KernelIdeal.nD Cert.KernelIdeal.τ).loc Cert.KernelIdeal.main_arg3) i))
    ∧ (∀ i, Cert.LibRealMatrix.IsReal (m ((c.tc : Thread Cert.KernelIdeal.nD Cert.KernelIdeal.τ).loc Cert.KernelIdeal.main_arg4) i))
    ∧ (∀ i, Cert.LibRealMatrix.IsReal (m ((c.tc : Thread Cert.KernelIdeal.nD Cert.KernelIdeal.τ).loc Cert.KernelIdeal.main_arg5) i))
    ∧ (∀ i, Cert.LibRealMatrix.IsReal (m ((c.tc : Thread Cert.KernelIdeal.nD Cert.KernelIdeal.τ).loc Cert.KernelIdeal.main_arg6) i))
    ∧ (∀ i, Cert.LibRealMatrix.IsReal (m ((c.tc : Thread Cert.KernelIdeal.nD Cert.KernelIdeal.τ).loc Cert.KernelIdeal.main_arg7) i)) := by
  have h := congrFun (hpre c) ix0
  dsimp only [Cert.Pre_finite_inputs.fn, Cert.Pre_finite_inputs.fn_part1, Cert.Pre_finite_inputs.fn_part2] at h
  obtain ⟨h6, e7⟩ := IntOp.andi_eq_one.1 h
  obtain ⟨h5, e6⟩ := IntOp.andi_eq_one.1 h6
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨fun i => real_of_all _ _ _ _ e0 i, fun i => real_of_all _ _ _ _ e1 i, fun i => real_of_all _ _ _ _ e2 i,
    fun i => real_of_all _ _ _ _ e3 i, fun i => real_of_all _ _ _ _ e4 i, fun i => real_of_all _ _ _ _ e5 i,
    fun i => real_of_all _ _ _ _ e6 i, fun i => real_of_all _ _ _ _ e7 i⟩

end Cert.KernelIdeal.Finite

end
-- ==== Proof.ReferenceSide.lean ====
/-
  The reference's result is the common result: read entry by entry it is `refOut` of the reference's arguments, which
  are the kernel's; and on arguments all of whose entries are real numbers — the precondition — `refOut` is `kernelOut`
  (the matrix product is associative there, and a sum over the nodes is the sum of its two halves).
-/
import proofs.«162218_g11665131176122_week1_w4_1195_22_alg».proof.Defs
import proofs.«162218_g11665131176122_week1_w4_1195_22_alg».proof.Proof.ResultSpec
import proofs.«162218_g11665131176122_week1_w4_1195_22_alg».proof.Proof.Algebra
import proofs.«162218_g11665131176122_week1_w4_1195_22_alg».proof.Proof.RefRead
import proofs.«162218_g11665131176122_week1_w4_1195_22_alg».proof.Proof.Finite

noncomputable section

namespace Cert.Proof.ReferenceSide

open Cert.Gcn Idealize.ShloMosaic Idealize.ShloMosaic.ValueIdx Idealize.SL.Sem

theorem reference_value [hP : Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (c : Dev Cert.ReferenceIdeal.nD) :
    Cert.ReferenceIdeal.Value.res_main_v27 (F := Ideal) m' c = Cert.Proof.ResultSpec.result m c := by
  funext idx
  obtain ⟨i, j, rfl⟩ : ∃ (i : Fin 10000) (j : Fin 16), idx = ix2 i j := ⟨idx 0, idx 1, eq_ix2 idx⟩
  rw [Cert.ReferenceIdeal.Read.val_main_v27_eq m' c]
  obtain ⟨h0, h1, h2, h3, h4, h5, h6, h7⟩ := hagree c
  rw [h0, h1, h2, h3, h4, h5, h6, h7]
  refine (Cert.ReferenceIdeal.RefValue.ref_value _ _ _ _ _ _ _ _ i j).trans ?_
  rw [Cert.Proof.ResultSpec.result_apply]
  obtain ⟨r0, r1, r2, r3, r4, r5, r6, r7⟩ := Cert.KernelIdeal.Finite.real_of_pre m hpre c
  exact congrFun (congrFun (refOut_eq_kernelOut _ _ _ _ _ _ _ _
    (fun i n => r0 (ix2 i n)) (fun n k => r1 (ix2 n k)) (fun k l => r2 (ix2 k l)) (fun l => r3 (ix1 l))
    (fun k l => r4 (ix2 k l)) (fun l => r5 (ix1 l)) (fun k l => r6 (ix2 k l)) (fun l => r7 (ix1 l))) i) j

end Cert.Proof.ReferenceSide

end
-- ==== Proof.lean ====
/-
  The certificate of the three-layer graph convolution with a row softmax, computed by two pallas_calls, against its jnp
  reference.

  Frames: each kernel program's run (at the word-level instance and at the ideal one) is the run of its three items —
  the reshapes of the biases, the first pallas_call over 25 row blocks, the second over two phases of ten row blocks —
  with the second pallas_call's staging contents constrained by relations rather than named (its result buffer is
  written back during the first phase holding whatever it was handed); the reference's frame is its run with the
  result dropped. The ideal pass rewrote nothing, so the idealization claim is trivial. The value claim: the kernel's
  result array is one its write-backs allow, hence the common result; the reference's is the common result because on
  real-valued arguments its arrangement of the three layers equals the kernel's.
-/
import proofs.«162218_g11665131176122_week1_w4_1195_22_alg».proof.Defs
import proofs.«162218_g11665131176122_week1_w4_1195_22_alg».proof.Proof.Gen.Kernel
import proofs.«162218_g11665131176122_week1_w4_1195_22_alg».proof.Proof.Gen.KernelIdeal
import proofs.«162218_g11665131176122_week1_w4_1195_22_alg».proof.Proof.Gen.ReferenceIdeal
import proofs.«162218_g11665131176122_week1_w4_1195_22_alg».proof.Proof.Gen.Pre_finite_inputs
import proofs.«162218_g11665131176122_week1_w4_1195_22_alg».proof.Proof.RunBits
import proofs.«162218_g11665131176122_week1_w4_1195_22_alg».proof.Proof.RunIdeal
import proofs.«162218_g11665131176122_week1_w4_1195_22_alg».proof.Proof.Bridge
import proofs.«162218_g11665131176122_week1_w4_1195_22_alg».proof.Proof.ReferenceSide
import proofs.«162218_g11665131176122_week1_w4_1195_22_alg».proof.Proof.RefImports

noncomputable section

namespace Cert.Proof

open Idealize.ShloMosaic Idealize.SL.Sem

theorem frame_kernel [hKernel : Cert.Kernel.Facts] [hPre_finite_inputs : Cert.Pre_finite_inputs.Facts] : Cert.frame_Kernel :=
  fun m ρ _ => (θ_run Cert.Kernel.defs _ _).mono (fun _ h c => (h c).2) (Cert.Kernel.Run.run (F := Bits) m ρ)

theorem frame_kernelIdeal [hKernelIdeal : Cert.KernelIdeal.Facts] [hPre_finite_inputs : Cert.Pre_finite_inputs.Facts] : Cert.frame_KernelIdeal :=
  fun m ρ _ => (θ_run Cert.KernelIdeal.defs _ _).mono (fun _ h c => (h c).2) (Cert.KernelIdeal.Run.run (F := Ideal) m ρ)

theorem frame_referenceIdeal [hReferenceIdeal : Cert.ReferenceIdeal.Facts] [hPre_finite_inputs : Cert.Pre_finite_inputs.Facts] : Cert.frame_ReferenceIdeal :=
  fun m ρ _ => (θ_run Cert.ReferenceIdeal.defs _ _).mono (fun _ h c => (h c).2) (Cert.ReferenceIdeal.Value.run (F := Ideal) m ρ)

theorem preserves : Cert.preserves_Kernel_KernelIdeal := trivial

/-- Both runs end with the common result in the result array and the arguments unchanged. -/
theorem algebraic [hKernelIdeal : Cert.KernelIdeal.Facts] [hReferenceIdeal : Cert.ReferenceIdeal.Facts] [hPre_finite_inputs : Cert.Pre_finite_inputs.Facts] :
    Cert.algebraic_KernelIdeal_ReferenceIdeal := by
  intro m ρ m' ρ' hpre hagree
  refine ⟨fun c => Cert.Proof.ResultSpec.result m c, ?_, ?_⟩
  · exact (θ_run Cert.KernelIdeal.defs _ _).mono
      (fun r h c => ⟨Cert.KernelIdeal.Bridge.result_of_ArrAt m c _ (h c).1, (h c).2⟩)
      (Cert.KernelIdeal.Run.run (F := Ideal) m ρ)
  · exact (θ_run Cert.ReferenceIdeal.defs _ _).mono
      (fun r h c => ⟨(h c).1.trans (Cert.Proof.ReferenceSide.reference_value m m' hpre hagree c), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
